-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x128x1024 : Shape := ⟨3, ![1024, 128, 1024]⟩
abbrev S1024x1024 : Shape := ⟨2, ![1024, 1024]⟩
abbrev S1024 : Shape := ⟨1, ![1024]⟩
abbrev S20x1024 : Shape := ⟨2, ![20, 1024]⟩
abbrev S20 : Shape := ⟨1, ![20]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x128x1024 : S_.BroadcastsInDim S1024x128x1024 (![] : Fin 0 → Fin S1024x128x1024.rank)
  reducesTo_S1024x128x1024_S_d0_1_2 : S1024x128x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S20x1024 : S_.BroadcastsInDim S20x1024 (![] : Fin 0 → Fin S20x1024.rank)
  reducesTo_S20x1024_S_d0_1 : S20x1024.ReducesTo [0, 1] S_
  bcast_S_S20 : S_.BroadcastsInDim S20 (![] : Fin 0 → Fin S20.rank)
  reducesTo_S20_S_d0 : S20.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024x1024 .f32) (main_arg12 : FVec F S1024 .f32) (main_arg13 : FVec F S1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S20x1024 .f32) (main_arg8 : FVec F S20 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024 .f32) (main_v33 : IVec S_ 1) : IVec S_ 1 :=
  let main_v34 : FVec F S20x1024 .f32 := Host.absf main_arg7
  let main_cst_12 : FVec F S_ .f32 := constant S_ .f32 0x7F800000#32
  let main_v35 : FVec F S20x1024 .f32 := broadcastInDim S20x1024 ![] bcast_S_S20x1024 main_cst_12
  let main_v36 : IVec S20x1024 1 := cmpf .olt main_v34 main_v35
  let main_c_13 : IVec S_ 1 := constantI S_ 1 1#1
  let main_v37 : IVec S_ 1 := (fun x v => Host.reduce IntOp.andi x v reducesTo_S20x1024_S_d0_1 h_S_) main_v36 main_c_13
  let main_v38 : IVec S_ 1 := andi main_v33 main_v37
  let main_v39 : FVec F S20 .f32 := Host.absf main_arg8
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024 .f32) (main_arg7 : FVec F S20x1024 .f32) (main_arg8 : FVec F S20 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S128x1024 .f32) (main_arg1 : FVec F S128x1024 .f32) (main_arg2 : FVec F S1024x128x1024 .f32) (main_arg3 : FVec F S1024x1024 .f32) (main_arg4 : FVec F S1024 .f32) (main_arg5 : FVec F S1024x1024 .f32) (main_arg6 : FVec F S1024 .f32) (main_arg7 : FVec F S20x1024 .f32) (main_arg8 : FVec F S20 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024x128x1024 .f32 := Host.absf main_arg2
  let main_cst_2 : FVec F S_ .f32 := constant S_ .f32 0x7F800000#32
  let main_v10 : FVec F S1024x128x1024 .f32 := broadcastInDim S1024x128x1024 ![] bcast_S_S1024x128x1024 main_cst_2
  let main_v11 : IVec S1024x128x1024 1 := cmpf .olt main_v9 main_v10
  let main_c_3 : IVec S_ 1 := constantI S_ 1 1#1
  let main_v12 : IVec S_ 1 := (fun x v => Host.reduce IntOp.andi x v reducesTo_S1024x128x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S128x1024 : Shape := ⟨2, ![128, 1024]⟩
abbrev S1024x128x1024 : Shape := ⟨3, ![1024, 128, 1024]⟩
abbrev S1024x1024 : Shape := ⟨2, ![1024, 1024]⟩
abbrev S1024 : Shape := ⟨1, ![1024]⟩
abbrev S20x1024 : Shape := ⟨2, ![20, 1024]⟩
abbrev S20 : Shape := ⟨1, ![20]⟩
abbrev S1024x128 : Shape := ⟨2, ![1024, 128]⟩
abbrev S128x20 : Shape := ⟨2, ![128, 20]⟩
abbrev S1x20 : Shape := ⟨2, ![1, 20]⟩
abbrev S128x10 : Shape := ⟨2, ![128, 10]⟩
abbrev S1x10 : Shape := ⟨2, ![1, 10]⟩
abbrev S128 : Shape := ⟨1, ![128]⟩
abbrev S1x128 : Shape := ⟨2, ![1, 128]⟩
abbrev S8x128x1024 : Shape := ⟨3, ![8, 128, 1024]⟩
abbrev S8x128 : Shape := ⟨2, ![8, 128]⟩
abbrev S8x128x1 : Shape := ⟨3, ![8, 128, 1]⟩
abbrev S1x1024 : Shape := ⟨2, ![1, 1024]⟩
abbrev S128x1 : Shape := ⟨2, ![128, 1]⟩

abbrev nBuf : Space → Nat
  | .hbm => 18
  | .vmem => 26
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x128x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S20x1024, .f32⟩
  | .hbm, ⟨8, _⟩ => ⟨S20, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x128, .f32⟩
  | .hbm, ⟨16, _⟩ => ⟨S1024x128, .f32⟩
  | .hbm, ⟨17, _⟩ => ⟨S128x1024, .f32⟩
  | .local _ .vmem, ⟨0, _⟩ => ⟨S128x1024, .f32⟩
  | .local _ .vmem, ⟨1, _⟩ => ⟨S20x1024, .f32⟩
  | .local _ .vmem, ⟨2, _⟩ => ⟨S20, .f32⟩
  | .local _ .vmem, ⟨3, _⟩ => ⟨S1024x128, .f32⟩
  | .local _ .vmem, ⟨4, _⟩ => ⟨S1024x128, .f32⟩
  | .local _ .vmem, ⟨5, _⟩ => ⟨S128x1024, .f32⟩
  | .local _ .vmem, ⟨6, _⟩ => ⟨S128x1024, .f32⟩
  | .local _ .vmem, ⟨7, _⟩ => ⟨S8x128x1024, .f32⟩
  | .local _ .vmem, ⟨8, _⟩ => ⟨S8x128x1024, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S1024x1024, .f32⟩
  | .local _ .vmem, ⟨14, _⟩ => ⟨S1024, .f32⟩
  | .local _ .vmem, ⟨15, _⟩ => ⟨S1024x1024, .f32⟩
  | .local _ .vmem, ⟨16, _⟩ => ⟨S1024, .f32⟩
  | .local _ .vmem, ⟨17, _⟩ => ⟨S1024x1024, .f32⟩
  | .local _ .vmem, ⟨18, _⟩ => ⟨S1024, .f32⟩
  | .local _ .vmem, ⟨19, _⟩ => ⟨S1024x1024, .f32⟩
  | .local _ .vmem, ⟨20, _⟩ => ⟨S1024, .f32⟩
  | .local _ .vmem, ⟨21, _⟩ => ⟨S1024, .f32⟩
  | .local _ .vmem, ⟨22, _⟩ => ⟨S1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg14_0 : Ref sig .tc := ⟨.vmem, 22, rfl⟩
abbrev cc1_stg15_0 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem15_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S20x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![128], ![false]⟩

def k1_cond2 (i : grid1.Coords) : BitVec 1 :=
  let arg0 : BitVec 32 := BitVec.ofNat 32 (i 0).val
  let c127_i32 : BitVec 32 := 127#32
  let v26 : BitVec 1 := Scalar.cmpi .eq arg0 c127_i32
  let v27 : BitVec 32 := Scalar.extui v26
  let c0_i32_16 : BitVec 32 := 0#32
  let v28 : BitVec 1 := Scalar.cmpi .ne v27 c0_i32_16
  v28

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1024x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S128x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

class Facts₀ : Prop where
  inb_S128x1024_S128x1024_0_0 : ∀ a, (![0, 0] : Fin 2 → Nat) a + S128x1024.size a ≤ S128x1024.size a
  h_S128x1024 : 0 < S128x1024.numel
  inb_S20x1024_S20x1024_0_0 : ∀ a, (![0, 0] : Fin 2 → Nat) a + S20x1024.size a ≤ S20x1024.size a
  h_S20x1024 : 0 < S20x1024.numel
  inb_S20_S20_0 : ∀ a, (![0] : Fin 1 → Nat) a + S20.size a ≤ S20.size a
  h_S20 : 0 < S20.numel
  shapeCasts_S20_S1x20 : S20.ShapeCasts S1x20
  broadcasts_S1x20_S128x20 : S1x20.Broadcasts S128x20
  slices_S128x20_o0_0_S128x10 : S128x20.Slices ![0, 0] S128x10
  slices_S128x20_o0_10_S128x10 : S128x20.Slices ![0, 10] S128x10
  natLt_1_32 : 1 < 32
  iota_S1x10_d1_w32 : S1x10.Iotas .tc 32 [1]
  broadcasts_S1x10_S128x10 : S1x10.Broadcasts S128x10
  reduces_S128x10_S128 : S128x10.Reduces [1] S128
  iota_S1024x128_d0_w32 : S1024x128.Iotas .tc 32 [0]
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S128x1024_S128x1024 : S128x1024.ShapeCasts S128x1024
  inb_S8x128x1024_S8x128x1024_0_0_0 : ∀ a, (![0, 0, 0] : Fin 3 → Nat) a + S8x128x1024.size a ≤ S8x128x1024.size a
  h_S8x128x1024 : 0 < S8x128x1024.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x128x1 : S8x128.ShapeCasts S8x128x1
  broadcasts_S8x128x1_S8x128x1024 : S8x128x1.Broadcasts S8x128x1024
  reduces_S8x128x1024_S128x1024 : S8x128x1024.Reduces [0] S128x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  reduces_S128x1024_S128 : S128x1024.Reduces [1] S128
  shapeCasts_S128_S128x1 : S128.ShapeCasts S128x1
  broadcasts_S128x1_S128x1024 : S128x1.Broadcasts S128x1024
  dot_S128x1024_S20x1024_S128x20_1_1_0_0_n_n_wf : DotDims.WF S128x1024 S20x1024 S128x20 [1] [1] [0] [0] [] []
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x1024.size a ≤ S20x1024.size a
  hwx0_1 : ∀ i : grid0.Coords, EltTy.bits .f32 = 32 ∨ (Rect.block (s := S20x1024) S20x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20.size a ≤ S20.size a
  hwx0_2 : ∀ i : grid0.Coords, EltTy.bits .f32 = 32 ∨ (Rect.block (s := S20) S20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .f32 = 32 ∨ (Rect.block (s := S1024x128) S1024x128.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S128x1024.size a
  hwx1_0 : ∀ i : grid1.Coords, EltTy.bits .f32 = 32 ∨ (Rect.block (s := S128x1024) S128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x1024.size a
  hwx1_1 : ∀ i : grid1.Coords, EltTy.bits .f32 = 32 ∨ (Rect.block (s := S128x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x1024.size a ≤ S1024x128x1024.size a
  hwx1_2 : ∀ i : grid1.Coords, EltTy.bits .f32 = 32 ∨ (Rect.block (s := S1024x128x1024) S8x128x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S1024x128.size a
  hwx1_3 : ∀ i : grid1.Coords, EltTy.bits .f32 = 32 ∨ (Rect.block (s := S1024x128) S8x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S1024x128.size a
  hwx1_4 : ∀ i : grid1.Coords, EltTy.bits .f32 = 32 ∨ (Rect.block (s := S1024x128) S8x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .f32 = 32 ∨ (Rect.block (s := S1024x1024) S1024x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S1024.size a
  hwx1_6 : ∀ i : grid1.Coords, EltTy.bits .f32 = 32 ∨ (Rect.block (s := S1024) S1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S1024x1024.size a
  hwx1_7 : ∀ i : grid1.Coords, EltTy.bits .f32 = 32 ∨ (Rect.block (s := S1024x1024) S1024x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024.size a ≤ S1024.size a
  hwx1_8 : ∀ i : grid1.Coords, EltTy.bits .f32 = 32 ∨ (Rect.block (s := S1024) S1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1024x1024.size a ≤ S1024x1024.size a
  hwx1_9 : ∀ i : grid1.Coords, EltTy.bits .f32 = 32 ∨ (Rect.block (s := S1024x1024) S1024x1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1024.size a ≤ S1024.size a
  hwx1_10 : ∀ i : grid1.Coords, EltTy.bits .f32 = 32 ∨ (Rect.block (s := S1024) S1024.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1024x1024.size a ≤ S1024x1024.size a
  hwx1_11 : ∀ i : grid1.Coords, EltTy.bits .f32 = 32 ∨ (Rect.block (s := S1024x1024) S1024x1024.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1024.size a ≤ S1024.size a
  hwx1_12 : ∀ i : grid1.Coords, EltTy.bits .f32 = 32 ∨ (Rect.block (s := S1024) S1024.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1024.size a ≤ S1024.size a
  hwx1_13 : ∀ i : grid1.Coords, EltTy.bits .f32 = 32 ∨ (Rect.block (s := S1024) S1024.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1024.size a ≤ S1024.size a
  hwx1_14 : ∀ i : grid1.Coords, EltTy.bits .f32 = 32 ∨ (Rect.block (s := S1024) S1024.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S128x1024.size a ≤ S128x1024.size a
  hwx1_15 : ∀ i : grid1.Coords, EltTy.bits .f32 = 32 ∨ (Rect.block (s := S128x1024) S128x1024.size (cc1_transform_15 i) (hinb1_15 i)).WholeWords (EltTy.packing .f32)

variable [Facts₀]

def dot_S128x1024_S20x1024_S128x20_1_1_0_0_n_n : DotDims S128x1024 S20x1024 S128x20 where
  lhsContracting := [1]
  rhsContracting := [1]
  lhsNonContracting := [0]
  rhsNonContracting := [0]
  lhsBatch := []
  rhsBatch := []
  wf := dot_S128x1024_S20x1024_S128x20_1_1_0_0_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg1) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S20x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S128x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8x128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S8x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S8x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S1024x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg6) S1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg9) S1024x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg10) S1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg11) S1024x1024.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg12) S1024.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg13) S1024.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg14) S1024.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v1) S128x1024.size cc1_transform_15 reads1_15 true true 1 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev idle1 : Fin 16 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k1_cond2 i == 1#1) | ⟨_ + 16, h⟩ => absurd h (Nat.not_lt.2 (Nat.le_add_left _ _))

class Facts : Prop extends Facts₀ where

variable [Facts]
-- ==== ReferenceIdeal.lean ====
abbrev S128x1024 : Shape := ⟨2, ![128, 1024]⟩
abbrev S1024x128x1024 : Shape := ⟨3, ![1024, 128, 1024]⟩
abbrev S1024x1024 : Shape := ⟨2, ![1024, 1024]⟩
abbrev S1024 : Shape := ⟨1, ![1024]⟩
abbrev S20x1024 : Shape := ⟨2, ![20, 1024]⟩
abbrev S20 : Shape := ⟨1, ![20]⟩
abbrev S10 : Shape := ⟨1, ![10]⟩
abbrev S_ : Shape := ⟨0, ![]⟩
abbrev S1024x20 : Shape := ⟨2, ![1024, 20]⟩
abbrev S128x20 : Shape := ⟨2, ![128, 20]⟩
abbrev S1x20 : Shape := ⟨2, ![1, 20]⟩
abbrev S128x10 : Shape := ⟨2, ![128, 10]⟩
abbrev S1x10 : Shape := ⟨2, ![1, 10]⟩
abbrev S128 : Shape := ⟨1, ![128]⟩
abbrev S128x1 : Shape := ⟨2, ![128, 1]⟩
abbrev S128x2 : Shape := ⟨2, ![128, 2]⟩
abbrev S1x1024 : Shape := ⟨2, ![1, 1024]⟩

abbrev nBuf : Space → Nat
  | .hbm => 183
  | .vmem => 0
  | .smem => 0
  | _ => 0

abbrev hbmTy0_0 (i : Nat) : BufTy := match i % 128 with
  | 0 => ⟨S128x1024, .f32⟩
  | 1 => ⟨S128x1024, .f32⟩
  | 2 => ⟨S1024x128x1024, .f32⟩
  | 3 => ⟨S1024x1024, .f32⟩
  | 4 => ⟨S1024, .f32⟩
  | 5 => ⟨S1024x1024, .f32⟩
  | 6 => ⟨S1024, .f32⟩
  | 7 => ⟨S20x1024, .f32⟩
  | 8 => ⟨S20, .f32⟩
  | 9 => ⟨S1024x1024, .f32⟩
  | 10 => ⟨S1024, .f32⟩
  | 11 => ⟨S1024x1024, .f32⟩
  | 12 => ⟨S1024, .f32⟩
  | 13 => ⟨S1024, .f32⟩
  | 14 => ⟨S1024, .f32⟩
  | 15 => ⟨S10, .i32⟩
  | 16 => ⟨S_, .i32⟩
  | 17 => ⟨S10, .i32⟩
  | 18 => ⟨S10, .i32⟩
  | 19 => ⟨S_, .i32⟩
  | 20 => ⟨S10, .i32⟩
  | 21 => ⟨S10, .i32⟩
  | 22 => ⟨S10, .f32⟩
  | 23 => ⟨S_, .f32⟩
  | 24 => ⟨S10, .f32⟩
  | 25 => ⟨S10, .f32⟩
  | 26 => ⟨S10, .f32⟩
  | 27 => ⟨S1024x20, .f32⟩
  | 28 => ⟨S128x20, .f32⟩
  | 29 => ⟨S1x20, .f32⟩
  | 30 => ⟨S128x20, .f32⟩
  | 31 => ⟨S128x20, .f32⟩
  | 32 => ⟨S128x10, .f32⟩
  | 33 => ⟨S128x10, .f32⟩
  | 34 => ⟨S128x10, .f32⟩
  | 35 => ⟨S128x10, .f32⟩
  | 36 => ⟨S_, .f32⟩
  | 37 => ⟨S128x10, .f32⟩
  | 38 => ⟨S128x10, .f32⟩
  | 39 => ⟨S_, .f32⟩
  | 40 => ⟨S128x10, .f32⟩
  | 41 => ⟨S128x10, .f32⟩
  | 42 => ⟨S_, .f32⟩
  | 43 => ⟨S128x10, .f32⟩
  | 44 => ⟨S128x10, .i1⟩
  | 45 => ⟨S128x10, .f32⟩
  | 46 => ⟨S128x10, .f32⟩
  | 47 => ⟨S128x10, .f32⟩
  | 48 => ⟨S_, .f32⟩
  | 49 => ⟨S128x10, .f32⟩
  | 50 => ⟨S128x10, .f32⟩
  | 51 => ⟨S_, .f32⟩
  | 52 => ⟨S128x10, .f32⟩
  | 53 => ⟨S128x10, .f32⟩
  | 54 => ⟨S_, .f32⟩
  | 55 => ⟨S128x10, .f32⟩
  | 56 => ⟨S128x10, .i1⟩
  | 57 => ⟨S128x10, .f32⟩
  | 58 => ⟨S1x10, .f32⟩
  | 59 => ⟨S128x10, .f32⟩
  | 60 => ⟨S128x10, .f32⟩
  | 61 => ⟨S_, .f32⟩
  | 62 => ⟨S128, .f32⟩
  | 63 => ⟨S128, .i32⟩
  | 64 => ⟨S_, .i32⟩
  | 65 => ⟨S_, .i32⟩
  | 66 => ⟨S_, .i32⟩
  | 67 => ⟨S128, .i32⟩
  | 68 => ⟨S128, .i32⟩
  | 69 => ⟨S_, .i32⟩
  | 70 => ⟨S128, .i32⟩
  | 71 => ⟨S128, .i32⟩
  | 72 => ⟨S1x10, .f32⟩
  | 73 => ⟨S128x10, .f32⟩
  | 74 => ⟨S128x10, .f32⟩
  | 75 => ⟨S_, .f32⟩
  | 76 => ⟨S128, .f32⟩
  | 77 => ⟨S128, .i32⟩
  | 78 => ⟨S_, .i32⟩
  | 79 => ⟨S_, .i32⟩
  | 80 => ⟨S_, .i32⟩
  | 81 => ⟨S128, .i32⟩
  | 82 => ⟨S128, .i32⟩
  | 83 => ⟨S_, .i32⟩
  | 84 => ⟨S128, .i32⟩
  | 85 => ⟨S128, .i32⟩
  | 86 => ⟨S128, .i32⟩
  | 87 => ⟨S_, .i32⟩
  | 88 => ⟨S128, .i32⟩
  | 89 => ⟨S128, .i1⟩
  | 90 => ⟨S_, .i32⟩
  | 91 => ⟨S128, .i32⟩
  | 92 => ⟨S128, .i32⟩
  | 93 => ⟨S128, .i32⟩
  | 94 => ⟨S_, .i32⟩
  | 95 => ⟨S128, .i32⟩
  | 96 => ⟨S128, .i1⟩
  | 97 => ⟨S_, .i32⟩
  | 98 => ⟨S128, .i32⟩
  | 99 => ⟨S128, .i32⟩
  | 100 => ⟨S128, .i32⟩
  | 101 => ⟨S128x1, .i32⟩
  | 102 => ⟨S128x1, .i32⟩
  | 103 => ⟨S128x2, .i32⟩
  | 104 => ⟨S128x1024, .f32⟩
  | 105 => ⟨S_, .i32⟩
  | 106 => ⟨S128, .i32⟩
  | 107 => ⟨S128, .i1⟩
  | 108 => ⟨S_, .i32⟩
  | 109 => ⟨S128, .i32⟩
  | 110 => ⟨S128, .i32⟩
  | 111 => ⟨S128, .i32⟩
  | 112 => ⟨S_, .i32⟩
  | 113 => ⟨S128, .i32⟩
  | 114 => ⟨S128, .i1⟩
  | 115 => ⟨S_, .i32⟩
  | 116 => ⟨S128, .i32⟩
  | 117 => ⟨S128, .i32⟩
  | 118 => ⟨S128, .i32⟩
  | 119 => ⟨S128x1, .i32⟩
  | 120 => ⟨S128x1, .i32⟩
  | 121 => ⟨S128x2, .i32⟩
  | 122 => ⟨S128x1024, .f32⟩
  | 123 => ⟨S1024x1024, .f32⟩
  | 124 => ⟨S128x1024, .f32⟩
  | 125 => ⟨S1x1024, .f32⟩
  | 126 => ⟨S128x1024, .f32⟩
  | 127 => ⟨S128x1024, .f32⟩
  | _ => ⟨S128x1024, .f32⟩

abbrev hbmTy0_1 (i : Nat) : BufTy := match i % 128 with
  | 0 => ⟨S1024x1024, .f32⟩
  | 1 => ⟨S128x1024, .f32⟩
  | 2 => ⟨S1x1024, .f32⟩
  | 3 => ⟨S128x1024, .f32⟩
  | 4 => ⟨S128x1024, .f32⟩
  | 5 => ⟨S128x1024, .f32⟩
  | 6 => ⟨S1024x1024, .f32⟩
  | 7 => ⟨S128x1024, .f32⟩
  | 8 => ⟨S1x1024, .f32⟩
  | 9 => ⟨S128x1024, .f32⟩
  | 10 => ⟨S128x1024, .f32⟩
  | 11 => ⟨S128x1024, .f32⟩
  | 12 => ⟨S1024x1024, .f32⟩
  | 13 => ⟨S128x1024, .f32⟩
  | 14 => ⟨S1x1024, .f32⟩
  | 15 => ⟨S128x1024, .f32⟩
  | 16 => ⟨S128x1024, .f32⟩
  | 17 => ⟨S128x1024, .f32⟩
  | 18 => ⟨S_, .f32⟩
  | 19 => ⟨S128, .f32⟩
  | 20 => ⟨S128x1, .f32⟩
  | 21 => ⟨S_, .f32⟩
  | 22 => ⟨S128x1, .f32⟩
  | 23 => ⟨S128x1, .f32⟩
  | 24 => ⟨S128x1024, .f32⟩
  | 25 => ⟨S128x1024, .f32⟩
  | 26 => ⟨S128x1024, .f32⟩
  | 27 => ⟨S_, .f32⟩
  | 28 => ⟨S128, .f32⟩
  | 29 => ⟨S128x1, .f32⟩
  | 30 => ⟨S_, .f32⟩
  | 31 => ⟨S128x1, .f32⟩
  | 32 => ⟨S128x1, .f32⟩
  | 33 => ⟨S128x1024, .f32⟩
  | 34 => ⟨S128x1024, .f32⟩
  | 35 => ⟨S_, .f32⟩
  | 36 => ⟨S128x1, .f32⟩
  | 37 => ⟨S128x1, .f32⟩
  | 38 => ⟨S128x1, .f32⟩
  | 39 => ⟨S128x1024, .f32⟩
  | 40 => ⟨S128x1024, .f32⟩
  | 41 => ⟨S1x1024, .f32⟩
  | 42 => ⟨S128x1024, .f32⟩
  | 43 => ⟨S128x1024, .f32⟩
  | 44 => ⟨S1x1024, .f32⟩
  | 45 => ⟨S128x1024, .f32⟩
  | 46 => ⟨S128x1024, .f32⟩
  | 47 => ⟨S128x1024, .f32⟩
  | 48 => ⟨S128x1024, .f32⟩
  | 49 => ⟨S_, .f32⟩
  | 50 => ⟨S128x1024, .f32⟩
  | 51 => ⟨S128x1024, .f32⟩
  | 52 => ⟨S_, .f32⟩
  | 53 => ⟨S128x1024, .f32⟩
  | 54 => ⟨S128x1024, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_c_9 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_10 : Ref sig .tc := ⟨.hbm, 75, rfl⟩
abbrev main_v43 : Ref sig .tc := ⟨.hbm, 76, rfl⟩
abbrev main_v44 : Ref sig .tc := ⟨.hbm, 77, rfl⟩
abbrev main_c_11 : Ref sig .tc := ⟨.hbm, 78, rfl⟩
abbrev main_c_12 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v45 : Ref sig .tc := ⟨.hbm, 85, rfl⟩
abbrev main_v46 : Ref sig .tc := ⟨.hbm, 86, rfl⟩
abbrev main_c_13 : Ref sig .tc := ⟨.hbm, 87, rfl⟩
abbrev main_v47 : Ref sig .tc := ⟨.hbm, 88, rfl⟩
abbrev main_v48 : Ref sig .tc := ⟨.hbm, 89, rfl⟩
abbrev main_c_14 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_c_15 : Ref sig .tc := ⟨.hbm, 94, rfl⟩
abbrev main_v52 : Ref sig .tc := ⟨.hbm, 95, rfl⟩
abbrev main_v53 : Ref sig .tc := ⟨.hbm, 96, rfl⟩
abbrev main_c_16 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_c_17 : Ref sig .tc := ⟨.hbm, 105, rfl⟩
abbrev main_v61 : Ref sig .tc := ⟨.hbm, 106, rfl⟩
abbrev main_v62 : Ref sig .tc := ⟨.hbm, 107, rfl⟩
abbrev main_c_18 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_c_19 : Ref sig .tc := ⟨.hbm, 112, rfl⟩
abbrev main_v66 : Ref sig .tc := ⟨.hbm, 113, rfl⟩
abbrev main_v67 : Ref sig .tc := ⟨.hbm, 114, rfl⟩
abbrev main_c_20 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_21 : Ref sig .tc := ⟨.hbm, 146, rfl⟩
abbrev main_v98 : Ref sig .tc := ⟨.hbm, 147, rfl⟩
abbrev main_v99 : Ref sig .tc := ⟨.hbm, 148, rfl⟩
abbrev main_cst_22 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_23 : Ref sig .tc := ⟨.hbm, 155, rfl⟩
abbrev main_v105 : Ref sig .tc := ⟨.hbm, 156, rfl⟩
abbrev main_v106 : Ref sig .tc := ⟨.hbm, 157, rfl⟩
abbrev main_cst_24 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_25 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_26 : Ref sig .tc := ⟨.hbm, 177, rfl⟩
abbrev main_v124 : Ref sig .tc := ⟨.hbm, 178, rfl⟩
abbrev main_v125 : Ref sig .tc := ⟨.hbm, 179, rfl⟩
abbrev main_cst_27 : Ref sig .tc := ⟨.hbm, 180, rfl⟩
abbrev main_v126 : Ref sig .tc := ⟨.hbm, 181, rfl⟩
abbrev main_v127 : Ref sig .tc := ⟨.hbm, 182, rfl⟩

abbrev nD : Nat := 1
abbrev τ : Topo := Topo.v7x

variable {F : FTy → Type} [FloatOps F]

class Facts₀ : Prop where
  bcast_S_S10 : S_.BroadcastsInDim S10 (![] : Fin 0 → Fin S10.rank)
  transposes_S20x1024_S1024x20_1_0 : S20x1024.Transposes [1, 0] S1024x20
  bcast_S20_S1x20_1 : S20.BroadcastsInDim S1x20 (![1] : Fin 1 → Fin S1x20.rank)
  bcast_S1x20_S128x20_0_1 : S1x20.BroadcastsInDim S128x20 (![0, 1] : Fin 2 → Fin S128x20.rank)
  slices_S128x20_S128x10_0_0 : S128x20.Slices ![0, 0] S128x10
  slices_S128x20_S128x10_0_10 : S128x20.Slices ![0, 10] S128x10
  bcast_S_S128x10 : S_.BroadcastsInDim S128x10 (![] : Fin 0 → Fin S128x10.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  transposes_S1024x1024_S1024x1024_1_0 : S1024x1024.Transposes [1, 0] S1024x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  reducesTo_S128x1024_S128_d1 : S128x1024.ReducesTo [1] S128
  bcast_S_S128x1 : S_.BroadcastsInDim S128x1 (![] : Fin 0 → Fin S128x1.rank)
  bcast_S128x1_S128x1024_0_1 : S128x1.BroadcastsInDim S128x1024 (![0, 1] : Fin 2 → Fin S128x1024.rank)
  bcast_S_S128x1024 : S_.BroadcastsInDim S128x1024 (![] : Fin 0 → Fin S128x1024.rank)
  dot_S128x1024_S1024x20_S128x20_1_0_0_1_n_n_wf : DotDims.WF S128x1024 S1024x20 S128x20 [1] [0] [0] [1] [] []
  gather_S1024x128x1024_S128x2_S128x1024_1_01_n_n_01_1_111024_wf : GatherDims.WF S1024x128x1024 S128x2 S128x1024 [1] [0, 1] [] [0, 1] [] 1 ![1, 1, 1024]
  dot_S128x1024_S1024x1024_S128x1024_1_0_0_1_n_n_wf : DotDims.WF S128x1024 S1024x1024 S128x1024 [1] [0] [0] [1] [] []

variable [Facts₀]

def dot_S128x1024_S1024x20_S128x20_1_0_0_1_n_n : DotDims S128x1024 S1024x20 S128x20 where
  lhsContracting := [1]
  rhsContracting := [0]
  lhsNonContracting := [0]
  rhsNonContracting := [1]
  lhsBatch := []
  rhsBatch := []
  wf := dot_S128x1024_S1024x20_S128x20_1_0_0_1_n_n_wf
def gather_S1024x128x1024_S128x2_S128x1024_1_01_n_n_01_1_111024 : GatherDims S1024x128x1024 S128x2 S128x1024 where
  offsetDims := [1]
  collapsedSliceDims := [0, 1]
  operandBatchingDims := []
  startIndicesBatchingDims := []
  startIndexMap := [0, 1]
  indexVectorDim := 1
  sliceSizes := ![1, 1, 1024]
  wf := gather_S1024x128x1024_S128x2_S128x1024_1_01_n_n_01_1_111024_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

class Facts : Prop extends Facts₀ where

variable [Facts]
-- ==== Proof.Kernel.Region0.lean ====
/-
  The index kernel's region (one grid point), for any float instance.

  Its three input windows are whole arrays (the previous state, the index weights, the index bias); its two output
  windows are the two [1024, 128] selection masks.  The body loads the inputs, computes the two masks as pure
  functions of them (the payloads of the skeleton) and stores each mask over its whole staging buffer; the
  loads it makes of the output buffers before storing are of contents it never uses.  So after the body each
  input buffer holds its block and each output buffer holds its mask, the one store covering the buffer.
  Nothing is carried between points and the class invariant (the scoped buffers no window stages, the generator
  register) passes through untouched.
-/
import proofs.«136845_j56873956934278_1_alg».proof.Proof.Gen.Kernel.Launch
import proofs.«136845_j56873956934278_1_alg».proof.Proof.Gen.Kernel.Skeleton
import proofs.«136845_j56873956934278_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at the point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block, for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_h : Rect S128x1024 := Rect.unit (s := S128x1024) ![0, 0] S128x1024.size inb_S128x1024_S128x1024_0_0
abbrev r0_w : Rect S20x1024 := Rect.unit (s := S20x1024) ![0, 0] S20x1024.size inb_S20x1024_S20x1024_0_0
abbrev r0_b : Rect S20 := Rect.unit (s := S20) ![0] S20.size inb_S20_S20_0
abbrev r0_o : Rect S1024x128 := Rect.unit (s := S1024x128) ![0, 0] S1024x128.size inb_S1024x128_S1024x128_0_0

/-! ## What the body leaves in each output window's buffer -/

/-- The first mask's buffer after the body: its one store as a piece over the whole buffer. -/
def out0_3 (x0 : Vec F S128x1024 .f32) (x1 : Vec F S20x1024 .f32) (x2 : Vec F S20 .f32) : Vec F S1024x128 .f32 :=
  View.canon [⟨r0_o, k0_pay1 (F := F) (k0_pay6 (View.ld x0 r0_h) (View.ld x1 r0_w) (View.ld x2 r0_b))⟩]
/-- The second mask's buffer after the body. -/
def out0_4 (x0 : Vec F S128x1024 .f32) (x1 : Vec F S20x1024 .f32) (x2 : Vec F S20 .f32) : Vec F S1024x128 .f32 :=
  View.canon [⟨r0_o, k0_pay2 (F := F) (k0_pay5 (View.ld x0 r0_h) (View.ld x1 r0_w) (View.ld x2 r0_b)) (iota .tc S1024x128 32 [0] iota_S1024x128_d0_w32)⟩]

/-- A store through the whole-buffer rectangle covers the buffer. -/
theorem cover0_o (p0 : Vec F S1024x128 .f32) (y : S1024x128.Idx) :
    ∃ pc ∈ ([⟨r0_o, p0⟩] : List (View.Piece (Elt F) S1024x128 .f32)), y ∈ pc.1.set :=
  View.cover_of_tiled [⟨r0_o, p0⟩] S1024x128.size (by rfl) y

/-! ## The body's triple -/

set_option maxHeartbeats 4000000 in
/-- The body on whole staging memrefs, the inputs' at read contents and the outputs' at anything, runs to the
    continuation holding the inputs' as they were and each output's at its mask. -/
theorem sound_kernel0 (c : Dev nD) (E : Set ℕ) (i : grid0.Coords)
    (arg1 : Memref sig .tc .vmem S128x1024 .f32) (harg1 : arg1.IsWhole) (arg2 : Memref sig .tc .vmem S20x1024 .f32) (harg2 : arg2.IsWhole)
    (arg3 : Memref sig .tc .vmem S20 .f32) (harg3 : arg3.IsWhole) (arg4 : Memref sig .tc .vmem S1024x128 .f32) (harg4 : arg4.IsWhole)
    (arg5 : Memref sig .tc .vmem S1024x128 .f32) (harg5 : arg5.IsWhole)
    (x0 : Vec F S128x1024 .f32) (x1 : Vec F S20x1024 .f32) (x2 : Vec F S20 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__index_kernel i arg1 harg1 arg2 harg2 arg3 harg3 arg4 harg4 arg5 harg5) K := by
  simp only [cc0__index_kernel_eq_skeleton]; unfold cc0__index_kernel_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  iexists _; isplitr
  swap; · iexact H4
  ipureintro
  exact View.read_writes_eq_canon _ _ _ (cover0_o _)

/-! ## The region's proof data -/

/-- The proof data: the arrays as the region finds them; after the body each input's buffer at its block and each
    output's at its mask of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Kernel.Region1.lean ====
/-
  The recurrent kernel's region (128 grid points), for any float instance.

  Point t stages block t of the memory tensor (eight of its 1024 rows) and the matching eight rows of the two selection
  masks; the other thirteen inputs are whole arrays whose block never moves.  Two scratch buffers carry running sums
  between points: the first point zeroes them, every point adds to each the sum over the block's eight rows of
  memory row times mask row, and the last point computes the output from the inputs and the two sums and stores
  it over the whole output buffer.  The output window is idle before the last point and written back at the last
  point only, so only what the last point stores reaches the result array.

  The sums after point n are named by recursion on n (`accR`, `accL`), and the region's invariant after point n
  holds the two scratch buffers at exactly those contents beside the other scoped buffers and the generator register.
  The body is run in its three control cases (first, middle and last point); the case of a point is decided from
  the grid in closed form.
-/
import proofs.«136845_j56873956934278_1_alg».proof.Proof.Gen.Kernel.Launch
import proofs.«136845_j56873956934278_1_alg».proof.Proof.Gen.Kernel.Skeleton
import proofs.«136845_j56873956934278_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions, in closed form over the grid -/

/-- The first `scf.if` (zero the sums): taken at the first point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 128 = 0 :=
  (by decide +kernel : ∀ t : Fin grid1.N, cond1_0 (grid1.coords t) ↔ t.val % 128 = 0)
/-- The second `scf.if` (compute and store the output): taken at the last point only. -/
abbrev cond1_1 (i : grid1.Coords) : Prop := k1_cond2 i = 1#1
theorem hcond1_1 : ∀ t : Fin cfg1.N, cond1_1 (grid1.coords t) ↔ t.val % 128 = 127 :=
  (by decide +kernel : ∀ t : Fin grid1.N, cond1_1 (grid1.coords t) ↔ t.val % 128 = 127)
/-- The output window is idle exactly where the second branch is not taken, and is not written back there. -/
theorem idleAt1_15 : ∀ t : Fin cfg1.N, ¬cond1_1 (grid1.coords t) → cfg1.idle 15 (grid1.coords t) = true := by decide +kernel
theorem liveAt1_15 : ∀ t : Fin cfg1.N, cond1_1 (grid1.coords t) → cfg1.idle 15 (grid1.coords t) = false := by decide +kernel
theorem noFlush1_15 : ∀ t : Fin cfg1.N, ¬cond1_1 (grid1.coords t) → (cfg1.win 15).flush t = false := by decide +kernel

theorem hz1 : (![0] : Fin 1 → Nat) = fun _ => 0 := funext fun a => by match a with | ⟨0, _⟩ => rfl
theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- The whole-buffer rectangle of a [128, 1024] buffer (the two sums' and the output's one store). -/
abbrev r1_a : Rect S128x1024 := Rect.unit (s := S128x1024) ![0, 0] S128x1024.size inb_S128x1024_S128x1024_0_0

/-- One store through it covers the buffer, -/
theorem cover1_a (p0 : Vec F S128x1024 .f32) (y : S128x1024.Idx) :
    ∃ pc ∈ ([⟨r1_a, p0⟩] : List (View.Piece (Elt F) S128x1024 .f32)), y ∈ pc.1.set :=
  ⟨_, List.mem_singleton_self _, View.mem_set_unit_zero hz2 inb_S128x1024_S128x1024_0_0 y⟩
/-- and so does the later of two. -/
theorem cover1_a2 (p0 p1 : Vec F S128x1024 .f32) (y : S128x1024.Idx) :
    ∃ pc ∈ ([⟨r1_a, p0⟩, ⟨r1_a, p1⟩] : List (View.Piece (Elt F) S128x1024 .f32)), y ∈ pc.1.set :=
  ⟨_, List.mem_cons_self, View.mem_set_unit_zero hz2 inb_S128x1024_S128x1024_0_0 y⟩

/-- The output from the inputs and the two sums: the last point's stored value. -/
def outF (x h r l : Vec F S128x1024 .f32) (Ww : Vec F S1024x1024 .f32) (Wb : Vec F S1024 .f32) (Uw : Vec F S1024x1024 .f32) (Ub : Vec F S1024 .f32)
    (Qrw : Vec F S1024x1024 .f32) (Qrb : Vec F S1024 .f32) (Qlw : Vec F S1024x1024 .f32) (Qlb : Vec F S1024 .f32) (g s : Vec F S1024 .f32) : Vec F S128x1024 .f32 :=
  k1_pay5 (F := F) (k1_pay6 (F := F) x h r Ww Uw Qrw Wb Ub Qrb) (k1_pay7 (F := F) l Qlw) (k1_pay8 (F := F) Qlb) g s

/-! ## The body's triple, case by case -/

set_option maxHeartbeats 8000000 in
/-- A middle point: both sums are read, added to and stored back; nothing else is touched. -/
theorem sound_kernel1_mid (c : Dev nD) (E : Set ℕ) (i : grid1.Coords) (hc0 : ¬cond1_0 i) (hc1 : ¬cond1_1 i)
    (arg1 : Memref sig .tc .vmem S128x1024 .f32) (harg1 : arg1.IsWhole) (arg2 : Memref sig .tc .vmem S128x1024 .f32) (harg2 : arg2.IsWhole)
    (arg3 : Memref sig .tc .vmem S8x128x1024 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S1024x1024 .f32) (harg6 : arg6.IsWhole)
    (arg7 : Memref sig .tc .vmem S1024 .f32) (harg7 : arg7.IsWhole) (arg8 : Memref sig .tc .vmem S1024x1024 .f32) (harg8 : arg8.IsWhole)
    (arg9 : Memref sig .tc .vmem S1024 .f32) (harg9 : arg9.IsWhole) (arg10 : Memref sig .tc .vmem S1024x1024 .f32) (harg10 : arg10.IsWhole)
    (arg11 : Memref sig .tc .vmem S1024 .f32) (harg11 : arg11.IsWhole) (arg12 : Memref sig .tc .vmem S1024x1024 .f32) (harg12 : arg12.IsWhole)
    (arg13 : Memref sig .tc .vmem S1024 .f32) (harg13 : arg13.IsWhole) (arg14 : Memref sig .tc .vmem S1024 .f32) (harg14 : arg14.IsWhole)
    (arg15 : Memref sig .tc .vmem S1024 .f32) (harg15 : arg15.IsWhole) (arg16 : Memref sig .tc .vmem S128x1024 .f32) (harg16 : arg16.IsWhole)
    (arg17 : Memref sig .tc .vmem S128x1024 .f32) (harg17 : arg17.IsWhole) (arg18 : Memref sig .tc .vmem S128x1024 .f32) (harg18 : arg18.IsWhole)
    (x3 : Vec F S8x128x1024 .f32) (x4 x5 : Vec F S8x128 .f32) (a b : Vec F S128x1024 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg17 fullShare a ∗ owns (c : Thread nD τ) arg18 fullShare b
        ∗ (iprop(owns (c : Thread nD τ) arg3 fullShare x3 ∗ owns (c : Thread nD τ) arg4 fullShare x4 ∗ owns (c : Thread nD τ) arg5 fullShare x5
            ∗ owns (c : Thread nD τ) arg17 fullShare (k1_pay3 (F := F) x3 x4 a) ∗ owns (c : Thread nD τ) arg18 fullShare (k1_pay4 (F := F) x3 x5 b)) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  haveI : Fact (¬cond1_0 i) := ⟨hc0⟩
  haveI : Fact (¬cond1_1 i) := ⟨hc1⟩
  simp only [cc1__rnn_kernel_eq_skeleton]; unfold cc1__rnn_kernel_skel
  unfold owns
  iintro ⟨⟨%f3, %hf3, H3⟩, ⟨%f4, %hf4, H4⟩, ⟨%f5, %hf5, H5⟩, ⟨%f17, %hf17, H17⟩, ⟨%f18, %hf18, H18⟩, Hk⟩
  subst hf3; subst hf4; subst hf5; subst hf17; subst hf18
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H17]
  · iexists _; isplitr
    swap; · iexact H17
    ipureintro
    refine (View.read_writes_eq_canon _ _ _ (cover1_a _)).trans ?_
    rw [View.canon_unit_zero (S := S128x1024) hz2]
    simp only [View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]
  iexists _; isplitr
  swap; · iexact H18
  ipureintro
  refine (View.read_writes_eq_canon _ _ _ (cover1_a _)).trans ?_
  rw [View.canon_unit_zero (S := S128x1024) hz2]
  simp only [View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]

set_option maxHeartbeats 8000000 in
/-- The first point: each sum is zeroed, read back, added to and stored. -/
theorem sound_kernel1_first (c : Dev nD) (E : Set ℕ) (i : grid1.Coords) (hc0 : cond1_0 i) (hc1 : ¬cond1_1 i)
    (arg1 : Memref sig .tc .vmem S128x1024 .f32) (harg1 : arg1.IsWhole) (arg2 : Memref sig .tc .vmem S128x1024 .f32) (harg2 : arg2.IsWhole)
    (arg3 : Memref sig .tc .vmem S8x128x1024 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S1024x1024 .f32) (harg6 : arg6.IsWhole)
    (arg7 : Memref sig .tc .vmem S1024 .f32) (harg7 : arg7.IsWhole) (arg8 : Memref sig .tc .vmem S1024x1024 .f32) (harg8 : arg8.IsWhole)
    (arg9 : Memref sig .tc .vmem S1024 .f32) (harg9 : arg9.IsWhole) (arg10 : Memref sig .tc .vmem S1024x1024 .f32) (harg10 : arg10.IsWhole)
    (arg11 : Memref sig .tc .vmem S1024 .f32) (harg11 : arg11.IsWhole) (arg12 : Memref sig .tc .vmem S1024x1024 .f32) (harg12 : arg12.IsWhole)
    (arg13 : Memref sig .tc .vmem S1024 .f32) (harg13 : arg13.IsWhole) (arg14 : Memref sig .tc .vmem S1024 .f32) (harg14 : arg14.IsWhole)
    (arg15 : Memref sig .tc .vmem S1024 .f32) (harg15 : arg15.IsWhole) (arg16 : Memref sig .tc .vmem S128x1024 .f32) (harg16 : arg16.IsWhole)
    (arg17 : Memref sig .tc .vmem S128x1024 .f32) (harg17 : arg17.IsWhole) (arg18 : Memref sig .tc .vmem S128x1024 .f32) (harg18 : arg18.IsWhole)
    (x3 : Vec F S8x128x1024 .f32) (x4 x5 : Vec F S8x128 .f32) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg17 fullShare d) ∗ (∃ d, owns (c : Thread nD τ) arg18 fullShare d)
        ∗ (iprop(owns (c : Thread nD τ) arg3 fullShare x3 ∗ owns (c : Thread nD τ) arg4 fullShare x4 ∗ owns (c : Thread nD τ) arg5 fullShare x5
            ∗ owns (c : Thread nD τ) arg17 fullShare (k1_pay3 (F := F) x3 x4 (k1_pay1 (F := F)))
            ∗ owns (c : Thread nD τ) arg18 fullShare (k1_pay4 (F := F) x3 x5 (k1_pay2 (F := F)))) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  haveI : Fact (cond1_0 i) := ⟨hc0⟩
  haveI : Fact (¬cond1_1 i) := ⟨hc1⟩
  simp only [cc1__rnn_kernel_eq_skeleton]; unfold cc1__rnn_kernel_skel
  unfold owns
  iintro ⟨⟨%f3, %hf3, H3⟩, ⟨%f4, %hf4, H4⟩, ⟨%f5, %hf5, H5⟩, ⟨%d17, %f17, -, H17⟩, ⟨%d18, %f18, -, H18⟩, Hk⟩
  subst hf3; subst hf4; subst hf5
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H17]
  · iexists _; isplitr
    swap; · iexact H17
    ipureintro
    refine (View.read_writes_eq_canon _ _ _ (cover1_a2 _ _)).trans ?_
    sl_unfold_words
    rw [View.canon_cons_unit_zero (S := S128x1024) hz2]
    simp only [View.readCov_unit_zero (S := S128x1024) _ hz2, View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]
  iexists _; isplitr
  swap; · iexact H18
  ipureintro
  refine (View.read_writes_eq_canon _ _ _ (cover1_a2 _ _)).trans ?_
  sl_unfold_words
  rw [View.canon_cons_unit_zero (S := S128x1024) hz2]
  simp only [View.readCov_unit_zero (S := S128x1024) _ hz2, View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]

set_option maxHeartbeats 16000000 in
/-- The last point: both sums are added to and stored back, then every input and both sums are read and the output is
    computed from them and stored over the whole output buffer. -/
theorem sound_kernel1_last (c : Dev nD) (E : Set ℕ) (i : grid1.Coords) (hc0 : ¬cond1_0 i) (hc1 : cond1_1 i)
    (arg1 : Memref sig .tc .vmem S128x1024 .f32) (harg1 : arg1.IsWhole) (arg2 : Memref sig .tc .vmem S128x1024 .f32) (harg2 : arg2.IsWhole)
    (arg3 : Memref sig .tc .vmem S8x128x1024 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S1024x1024 .f32) (harg6 : arg6.IsWhole)
    (arg7 : Memref sig .tc .vmem S1024 .f32) (harg7 : arg7.IsWhole) (arg8 : Memref sig .tc .vmem S1024x1024 .f32) (harg8 : arg8.IsWhole)
    (arg9 : Memref sig .tc .vmem S1024 .f32) (harg9 : arg9.IsWhole) (arg10 : Memref sig .tc .vmem S1024x1024 .f32) (harg10 : arg10.IsWhole)
    (arg11 : Memref sig .tc .vmem S1024 .f32) (harg11 : arg11.IsWhole) (arg12 : Memref sig .tc .vmem S1024x1024 .f32) (harg12 : arg12.IsWhole)
    (arg13 : Memref sig .tc .vmem S1024 .f32) (harg13 : arg13.IsWhole) (arg14 : Memref sig .tc .vmem S1024 .f32) (harg14 : arg14.IsWhole)
    (arg15 : Memref sig .tc .vmem S1024 .f32) (harg15 : arg15.IsWhole) (arg16 : Memref sig .tc .vmem S128x1024 .f32) (harg16 : arg16.IsWhole)
    (arg17 : Memref sig .tc .vmem S128x1024 .f32) (harg17 : arg17.IsWhole) (arg18 : Memref sig .tc .vmem S128x1024 .f32) (harg18 : arg18.IsWhole)
    (x1 x2 : Vec F S128x1024 .f32) (x3 : Vec F S8x128x1024 .f32) (x4 x5 : Vec F S8x128 .f32)
    (x6 : Vec F S1024x1024 .f32) (x7 : Vec F S1024 .f32) (x8 : Vec F S1024x1024 .f32) (x9 : Vec F S1024 .f32)
    (x10 : Vec F S1024x1024 .f32) (x11 : Vec F S1024 .f32) (x12 : Vec F S1024x1024 .f32) (x13 x14 x15 : Vec F S1024 .f32)
    (a b : Vec F S128x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (∃ d, owns (c : Thread nD τ) arg16 fullShare d) ∗ owns (c : Thread nD τ) arg17 fullShare a ∗ owns (c : Thread nD τ) arg18 fullShare b
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ owns (c : Thread nD τ) arg16 fullShare (outF (F := F) x1 x2 (k1_pay3 (F := F) x3 x4 a) (k1_pay4 (F := F) x3 x5 b) x6 x7 x8 x9 x10 x11 x12 x13 x14 x15)
            ∗ owns (c : Thread nD τ) arg17 fullShare (k1_pay3 (F := F) x3 x4 a) ∗ owns (c : Thread nD τ) arg18 fullShare (k1_pay4 (F := F) x3 x5 b)) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  haveI : Fact (¬cond1_0 i) := ⟨hc0⟩
  haveI : Fact (cond1_1 i) := ⟨hc1⟩
  simp only [cc1__rnn_kernel_eq_skeleton]; unfold cc1__rnn_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, Hk⟩
  subst hf1; subst hf2; subst hf3; subst hf4; subst hf5; subst hf6; subst hf7; subst hf8; subst hf9; subst hf10; subst hf11; subst hf12; subst hf13; subst hf14; subst hf15; subst hf17; subst hf18
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover1_a _)).trans ?_
    try sl_unfold_words
    unfold outF
    rw [View.canon_unit_zero (S := S128x1024) hz2]
    simp only [View.readCov_unit_zero (S := S128x1024) _ hz2, View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]
  isplitl [H17]
  · iexists _; isplitr
    swap; · iexact H17
    ipureintro
    refine (View.read_writes_eq_canon _ _ _ (cover1_a _)).trans ?_
    rw [View.canon_unit_zero (S := S128x1024) hz2]
    simp only [View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]
  iexists _; isplitr
  swap; · iexact H18
  ipureintro
  refine (View.read_writes_eq_canon _ _ _ (cover1_a _)).trans ?_
  rw [View.canon_unit_zero (S := S128x1024) hz2]
  simp only [View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]

/-! # The region at the entry contents `V` -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-- Point `n` of the grid, for any `n` (reduced modulo the 128 points, so that the recursion below is total). -/
def ptAt (n : ℕ) : Fin cfg1.N := ⟨n % 128, lt_of_lt_of_eq (Nat.mod_lt _ (by decide)) (show cfg1.N = 128 from N_1).symm⟩
theorem ptAt_val (t : Fin cfg1.N) : ptAt t.val = t :=
  Fin.ext (Nat.mod_eq_of_lt (lt_of_lt_of_eq t.isLt (show cfg1.N = 128 from N_1)))

/-- The first running sum after point `n`: zero plus the first block's term, then one block's term more per point. -/
def accR (c : Dev nD) : ℕ → Vec F S128x1024 .f32
  | 0 => k1_pay3 (F := F) (iblk1 V c 2 (ptAt 0)) (iblk1 V c 3 (ptAt 0)) (k1_pay1 (F := F))
  | n + 1 => k1_pay3 (F := F) (iblk1 V c 2 (ptAt (n + 1))) (iblk1 V c 3 (ptAt (n + 1))) (accR c n)
/-- The second running sum after point `n`. -/
def accL (c : Dev nD) : ℕ → Vec F S128x1024 .f32
  | 0 => k1_pay4 (F := F) (iblk1 V c 2 (ptAt 0)) (iblk1 V c 4 (ptAt 0)) (k1_pay2 (F := F))
  | n + 1 => k1_pay4 (F := F) (iblk1 V c 2 (ptAt (n + 1))) (iblk1 V c 4 (ptAt (n + 1))) (accL c n)

theorem accR_first (c : Dev nD) (t : Fin cfg1.N) (h : t.val = 0) :
    accR V c t.val = k1_pay3 (F := F) (iblk1 V c 2 t) (iblk1 V c 3 t) (k1_pay1 (F := F)) := by
  have e : ptAt 0 = t := by rw [← h]; exact ptAt_val t
  rw [h]; show k1_pay3 (F := F) (iblk1 V c 2 (ptAt 0)) (iblk1 V c 3 (ptAt 0)) (k1_pay1 (F := F)) = _; rw [e]
theorem accL_first (c : Dev nD) (t : Fin cfg1.N) (h : t.val = 0) :
    accL V c t.val = k1_pay4 (F := F) (iblk1 V c 2 t) (iblk1 V c 4 t) (k1_pay2 (F := F)) := by
  have e : ptAt 0 = t := by rw [← h]; exact ptAt_val t
  rw [h]; show k1_pay4 (F := F) (iblk1 V c 2 (ptAt 0)) (iblk1 V c 4 (ptAt 0)) (k1_pay2 (F := F)) = _; rw [e]
theorem accR_next (c : Dev nD) (t : Fin cfg1.N) (h : t.val ≠ 0) :
    accR V c t.val = k1_pay3 (F := F) (iblk1 V c 2 t) (iblk1 V c 3 t) (accR V c (t.val - 1)) := by
  obtain ⟨n, hn⟩ : ∃ n, t.val = n + 1 := ⟨t.val - 1, by omega⟩
  have e : ptAt (n + 1) = t := by rw [← hn]; exact ptAt_val t
  rw [hn]; show k1_pay3 (F := F) (iblk1 V c 2 (ptAt (n + 1))) (iblk1 V c 3 (ptAt (n + 1))) (accR V c n) = _; rw [e]; rfl
theorem accL_next (c : Dev nD) (t : Fin cfg1.N) (h : t.val ≠ 0) :
    accL V c t.val = k1_pay4 (F := F) (iblk1 V c 2 t) (iblk1 V c 4 t) (accL V c (t.val - 1)) := by
  obtain ⟨n, hn⟩ : ∃ n, t.val = n + 1 := ⟨t.val - 1, by omega⟩
  have e : ptAt (n + 1) = t := by rw [← hn]; exact ptAt_val t
  rw [hn]; show k1_pay4 (F := F) (iblk1 V c 2 (ptAt (n + 1))) (iblk1 V c 4 (ptAt (n + 1))) (accL V c n) = _; rw [e]; rfl

/-! ## The invariant: the two sums carried in the scratch buffers -/

/-- The scratch operands: whole scoped buffers of the kernel's own. -/
abbrev scR : Memref sig .tc .vmem S128x1024 .f32 := Memref.whole cc1_scratch0
abbrev scL : Memref sig .tc .vmem S128x1024 .f32 := Memref.whole cc1_scratch1

/-- The class invariant conjunct by conjunct: the scoped buffers no window stages (the other region's staging buffers,
    then the two scratch buffers), each at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ d, owns (c : Thread nD τ) scR fullShare d) ∗ (∃ d, owns (c : Thread nD τ) scL fullShare d)) ∗ (∃ r, prngReg c r)) := by
  unfold Pipeline.ΦA; rw [scopedRest1_eq]; simp only [scR, scL, owns_whole]; try rfl

/-- The region's invariant before position `n`: before the first point the class's (the scratch buffers at anything);
    afterwards the two scratch buffers at the sums after point `n - 1`. -/
def PhiS (c : Dev nD) : ℕ → sProp 𝕄
  | 0 => Pipeline.ΦA spec1 c
  | n + 1 => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scR fullShare (accR V c n) ∗ owns (c : Thread nD τ) scL fullShare (accL V c n)) ∗ (∃ r, prngReg c r))

theorem PhiS_zero (c : Dev nD) (n : ℕ) (hz : n = 0) : PhiS V c n = Pipeline.ΦA spec1 c := by subst hz; rfl
theorem PhiS_succ (c : Dev nD) (n : ℕ) :
    PhiS V c (n + 1) = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scR fullShare (accR V c n) ∗ owns (c : Thread nD τ) scL fullShare (accL V c n)) ∗ (∃ r, prngReg c r)) := rfl
theorem PhiS_pos (c : Dev nD) (n : ℕ) (hz : n ≠ 0) :
    PhiS V c n = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scR fullShare (accR V c (n - 1)) ∗ owns (c : Thread nD τ) scL fullShare (accL V c (n - 1))) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => outF (F := F) (iblk1 V c 0 t) (iblk1 V c 1 t) (accR V c t.val) (accL V c t.val) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ t := PhiS V c t.val
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) : (dat1 V c).Φ t.castSucc = PhiS V c t.val := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) :
    (dat1 V c).after 15 t = outF (F := F) (iblk1 V c 0 t) (iblk1 V c 1 t) (accR V c t.val) (accL V c t.val) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ (dat1 V c).leavesExact 15 t)

set_option maxHeartbeats 16000000 in
/-- The body at any point: the inputs' buffers hold their blocks; the closed forms say which case the point is in; the
    invariant hands the body the two sums after the point before (anything, at the first point) and takes them
    back after this point; the output buffer is handed back untouched before the last point and at the output there. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).owesAt () t.succ = (dat1 V c).owesAt () t.castSucc from rfl]
  rw [show (dat1 V c).Φ t.succ = PhiS V c (t.val + 1) from rfl, PhiS_castSucc V c t, PhiS_succ]
  rw [after1_0, after1_1, after1_2, after1_3, after1_4, after1_5, after1_6, after1_7, after1_8, after1_9, after1_10, after1_11, after1_12, after1_13, after1_14]
  have hN : t.val < 128 := lt_of_lt_of_eq t.isLt (show cfg1.N = 128 from N_1)
  by_cases h0 : t.val % 128 = 0
  · -- the first point
    have hz : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 15 t (idleAt1_15 t hc1) (noFlush1_15 t hc1)]
    rw [PhiS_zero V c _ hz, PhiA1_eq, accR_first V c t hz, accL_first V c t hz]
    iintro ⟨⟨⟨HA0, HA1, HA2, HA3, HA4, ⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (sound_kernel1_first c Set.univ (grid1.coords t) hc0 hc1 _ _ _ _ _ _ _ _ _ _ _ _ _ _ _ _ _ _ _ _ _ _ _ _ _ _ _ _ _ _ _ _ _ _ _ _ (iblk1 V c 2 t) (iblk1 V c 3 t) (iblk1 V c 4 t) _)
    isplitl [H2]; · iexact H2
    isplitl [H3]; · iexact H3
    isplitl [H4]; · iexact H4
    isplitl [HS0]; · iexists _; iexact HS0
    isplitl [HS1]; · iexists _; iexact HS1
    iintro ⟨H2, H3, H4, HS0, HS1⟩
    isplitl [HA0 HA1 HA2 HA3 HA4 HS0 HS1 Hg]
    · isplitl [HA0 HA1 HA2 HA3 HA4 HS0 HS1]
      · isplitl [HA0]; · iexact HA0
        isplitl [HA1]; · iexact HA1
        isplitl [HA2]; · iexact HA2
        isplitl [HA3]; · iexact HA3
        isplitl [HA4]; · iexact HA4
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists _; iexact H15
  · by_cases h1 : t.val % 128 = 127
    · -- the last point
      have hz : t.val ≠ 0 := by omega
      have hc0 : ¬cond1_0 (grid1.coords t) := fun h => h0 ((hcond1_0 t).mp h)
      have hc1 : cond1_1 (grid1.coords t) := (hcond1_1 t).mpr h1
      rw [show (dat1 V c).leavesExact 15 t = owns (c : Thread nD τ) (st1_15 t) fullShare ((dat1 V c).after 15 t) from by
        unfold Dat.leavesExact; rw [liveAt1_15 t hc1], after1_15]
      rw [PhiS_pos V c _ hz, accR_next V c t hz, accL_next V c t hz]
      iintro ⟨⟨⟨HA0, HA1, HA2, HA3, HA4, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (sound_kernel1_last c Set.univ (grid1.coords t) hc0 hc1 _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (accR V c (t.val - 1)) (accL V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      isplitl [HS1]; · iexact HS1
      iintro ⟨H0, H1, H2, H3, H4, H5, H6, H7, H8, H9, H10, H11, H12, H13, H14, H15, HS0, HS1⟩
      isplitl [HA0 HA1 HA2 HA3 HA4 HS0 HS1 Hg]
      · isplitl [HA0 HA1 HA2 HA3 HA4 HS0 HS1]
        · isplitl [HA0]; · iexact HA0
          isplitl [HA1]; · iexact HA1
          isplitl [HA2]; · iexact HA2
          isplitl [HA3]; · iexact HA3
          isplitl [HA4]; · iexact HA4
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · -- a middle point
      have hz : t.val ≠ 0 := by omega
      have hc0 : ¬cond1_0 (grid1.coords t) := fun h => h0 ((hcond1_0 t).mp h)
      have hc1 : ¬cond1_1 (grid1.coords t) := fun h => h1 ((hcond1_1 t).mp h)
      rw [Dat.leavesExact_idle (dat1 V c) 15 t (idleAt1_15 t hc1) (noFlush1_15 t hc1)]
      rw [PhiS_pos V c _ hz, accR_next V c t hz, accL_next V c t hz]
      iintro ⟨⟨⟨HA0, HA1, HA2, HA3, HA4, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (sound_kernel1_mid c Set.univ (grid1.coords t) hc0 hc1 _ _ _ _ _ _ _ _ _ _ _ _ _ _ _ _ _ _ _ _ _ _ _ _ _ _ _ _ _ _ _ _ _ _ _ _ (iblk1 V c 2 t) (iblk1 V c 3 t) (iblk1 V c 4 t) (accR V c (t.val - 1)) (accL V c (t.val - 1)) _)
      isplitl [H2]; · iexact H2
      isplitl [H3]; · iexact H3
      isplitl [H4]; · iexact H4
      isplitl [HS0]; · iexact HS0
      isplitl [HS1]; · iexact HS1
      iintro ⟨H2, H3, H4, HS0, HS1⟩
      isplitl [HA0 HA1 HA2 HA3 HA4 HS0 HS1 Hg]
      · isplitl [HA0 HA1 HA2 HA3 HA4 HS0 HS1]
        · isplitl [HA0]; · iexact HA0
          isplitl [HA1]; · iexact HA1
          isplitl [HA2]; · iexact HA2
          isplitl [HA3]; · iexact HA3
          isplitl [HA4]; · iexact HA4
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15

theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 from rfl, PhiS_zero V c 0 rfl]
  try exact Idealize.SL.BI.Entails.refl _

/-- After the last point the invariant gives the class invariant back: the sums' named contents are forgotten. -/
theorem hout1 (c : Dev nD) : (dat1 V c).Φ (Fin.last cfg1.N) ⊢ Pipeline.ΦA spec1 c := by
  have hl : (Fin.last cfg1.N).val ≠ 0 := by rw [Fin.val_last]; have : cfg1.N = 128 := N_1; omega
  rw [show (dat1 V c).Φ (Fin.last cfg1.N) = PhiS V c (Fin.last cfg1.N).val from rfl, PhiS_pos V c _ hl, PhiA1_eq]
  iintro ⟨⟨HA0, HA1, HA2, HA3, HA4, HS0, HS1⟩, Hg⟩
  isplitl [HA0 HA1 HA2 HA3 HA4 HS0 HS1]
  · isplitl [HA0]; · iexact HA0
    isplitl [HA1]; · iexact HA1
    isplitl [HA2]; · iexact HA2
    isplitl [HA3]; · iexact HA3
    isplitl [HA4]; · iexact HA4
    isplitl [HS0]; · iexists _; iexact HS0
    iexists _; iexact HS1
  iexact Hg

end Region1

end Cert.Kernel.Hand

end
-- ==== Proof.Kernel.Run.lean ====
/-
  The whole run of the program: its two kernel regions one after the other, for any float instance.

  Between the regions every unscoped buffer of the core is held at a named valuation: the launch memory, then the
  launch memory with the first region's arrays at what its write-backs leave (the two masks), then that with
  the second region's arrays at what its write-backs leave (the output).  Each region is entered from the
  valuation before it and left at the one after it; its own arrays are split out of the unscoped buffers at entry
  and put back at exit, the generator register passes through its invariant, it owes nothing and has no semaphore
  of its own.  Reading the last valuation against a final state gives every unscoped buffer's final contents; an
  argument array is never written (a region reads it through an input window or leaves it alone), so the
  valuation at an argument walks back to the launch memory: the frame.
-/
import proofs.«136845_j56873956934278_1_alg».proof.Proof.Kernel.Region0
import proofs.«136845_j56873956934278_1_alg».proof.Proof.Kernel.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary -/

/-- Core `c`'s buffers at launch (the first region's entry). -/
abbrev W0 : Dev nD → Valuation τ sig (Elt F) := fun c b => m (c, b)
abbrev V0 : (c : Dev nD) → (b : Ref sig .tc) → Buf (Elt F) ((c : Thread nD τ).loc b) := fun c b => W0 m c b
/-- At the first region's exit (the second's entry): its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- At the second region's exit: its arrays at what its write-backs leave, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched -/

theorem W1_main_arg0 (c : Dev nD) : W1 m c (Proc.devRef .tc main_arg0) = m ((c : Thread nD τ).loc main_arg0) :=
  (W1_of_ne m c main_arg0 (by decide)).trans rfl
theorem W2_main_arg0 (c : Dev nD) : W2 m c (Proc.devRef .tc main_arg0) = m ((c : Thread nD τ).loc main_arg0) :=
  ((W2_arr m c 0).trans (((dat1 (V1 m) c).arrAt_in 0 rfl _).trans (A_eq1 (V1 m) c 0))).trans (W1_main_arg0 m c)
theorem W1_main_arg1 (c : Dev nD) : W1 m c (Proc.devRef .tc main_arg1) = m ((c : Thread nD τ).loc main_arg1) :=
  ((W1_arr m c 0).trans (((dat0 (V0 m) c).arrAt_in 0 rfl _).trans (A_eq0 (V0 m) c 0))).trans rfl
theorem W2_main_arg1 (c : Dev nD) : W2 m c (Proc.devRef .tc main_arg1) = m ((c : Thread nD τ).loc main_arg1) :=
  ((W2_arr m c 1).trans (((dat1 (V1 m) c).arrAt_in 1 rfl _).trans (A_eq1 (V1 m) c 1))).trans (W1_main_arg1 m c)
theorem W1_main_arg2 (c : Dev nD) : W1 m c (Proc.devRef .tc main_arg2) = m ((c : Thread nD τ).loc main_arg2) :=
  (W1_of_ne m c main_arg2 (by decide)).trans rfl
theorem W2_main_arg2 (c : Dev nD) : W2 m c (Proc.devRef .tc main_arg2) = m ((c : Thread nD τ).loc main_arg2) :=
  ((W2_arr m c 2).trans (((dat1 (V1 m) c).arrAt_in 2 rfl _).trans (A_eq1 (V1 m) c 2))).trans (W1_main_arg2 m c)
theorem W1_main_arg3 (c : Dev nD) : W1 m c (Proc.devRef .tc main_arg3) = m ((c : Thread nD τ).loc main_arg3) :=
  (W1_of_ne m c main_arg3 (by decide)).trans rfl
theorem W2_main_arg3 (c : Dev nD) : W2 m c (Proc.devRef .tc main_arg3) = m ((c : Thread nD τ).loc main_arg3) :=
  ((W2_arr m c 5).trans (((dat1 (V1 m) c).arrAt_in 5 rfl _).trans (A_eq1 (V1 m) c 5))).trans (W1_main_arg3 m c)
theorem W1_main_arg4 (c : Dev nD) : W1 m c (Proc.devRef .tc main_arg4) = m ((c : Thread nD τ).loc main_arg4) :=
  (W1_of_ne m c main_arg4 (by decide)).trans rfl
theorem W2_main_arg4 (c : Dev nD) : W2 m c (Proc.devRef .tc main_arg4) = m ((c : Thread nD τ).loc main_arg4) :=
  ((W2_arr m c 6).trans (((dat1 (V1 m) c).arrAt_in 6 rfl _).trans (A_eq1 (V1 m) c 6))).trans (W1_main_arg4 m c)
theorem W1_main_arg5 (c : Dev nD) : W1 m c (Proc.devRef .tc main_arg5) = m ((c : Thread nD τ).loc main_arg5) :=
  (W1_of_ne m c main_arg5 (by decide)).trans rfl
theorem W2_main_arg5 (c : Dev nD) : W2 m c (Proc.devRef .tc main_arg5) = m ((c : Thread nD τ).loc main_arg5) :=
  ((W2_arr m c 7).trans (((dat1 (V1 m) c).arrAt_in 7 rfl _).trans (A_eq1 (V1 m) c 7))).trans (W1_main_arg5 m c)
theorem W1_main_arg6 (c : Dev nD) : W1 m c (Proc.devRef .tc main_arg6) = m ((c : Thread nD τ).loc main_arg6) :=
  (W1_of_ne m c main_arg6 (by decide)).trans rfl
theorem W2_main_arg6 (c : Dev nD) : W2 m c (Proc.devRef .tc main_arg6) = m ((c : Thread nD τ).loc main_arg6) :=
  ((W2_arr m c 8).trans (((dat1 (V1 m) c).arrAt_in 8 rfl _).trans (A_eq1 (V1 m) c 8))).trans (W1_main_arg6 m c)
theorem W1_main_arg7 (c : Dev nD) : W1 m c (Proc.devRef .tc main_arg7) = m ((c : Thread nD τ).loc main_arg7) :=
  ((W1_arr m c 1).trans (((dat0 (V0 m) c).arrAt_in 1 rfl _).trans (A_eq0 (V0 m) c 1))).trans rfl
theorem W2_main_arg7 (c : Dev nD) : W2 m c (Proc.devRef .tc main_arg7) = m ((c : Thread nD τ).loc main_arg7) :=
  (W2_of_ne m c main_arg7 (by decide)).trans (W1_main_arg7 m c)
theorem W1_main_arg8 (c : Dev nD) : W1 m c (Proc.devRef .tc main_arg8) = m ((c : Thread nD τ).loc main_arg8) :=
  ((W1_arr m c 2).trans (((dat0 (V0 m) c).arrAt_in 2 rfl _).trans (A_eq0 (V0 m) c 2))).trans rfl
theorem W2_main_arg8 (c : Dev nD) : W2 m c (Proc.devRef .tc main_arg8) = m ((c : Thread nD τ).loc main_arg8) :=
  (W2_of_ne m c main_arg8 (by decide)).trans (W1_main_arg8 m c)
theorem W1_main_arg9 (c : Dev nD) : W1 m c (Proc.devRef .tc main_arg9) = m ((c : Thread nD τ).loc main_arg9) :=
  (W1_of_ne m c main_arg9 (by decide)).trans rfl
theorem W2_main_arg9 (c : Dev nD) : W2 m c (Proc.devRef .tc main_arg9) = m ((c : Thread nD τ).loc main_arg9) :=
  ((W2_arr m c 9).trans (((dat1 (V1 m) c).arrAt_in 9 rfl _).trans (A_eq1 (V1 m) c 9))).trans (W1_main_arg9 m c)
theorem W1_main_arg10 (c : Dev nD) : W1 m c (Proc.devRef .tc main_arg10) = m ((c : Thread nD τ).loc main_arg10) :=
  (W1_of_ne m c main_arg10 (by decide)).trans rfl
theorem W2_main_arg10 (c : Dev nD) : W2 m c (Proc.devRef .tc main_arg10) = m ((c : Thread nD τ).loc main_arg10) :=
  ((W2_arr m c 10).trans (((dat1 (V1 m) c).arrAt_in 10 rfl _).trans (A_eq1 (V1 m) c 10))).trans (W1_main_arg10 m c)
theorem W1_main_arg11 (c : Dev nD) : W1 m c (Proc.devRef .tc main_arg11) = m ((c : Thread nD τ).loc main_arg11) :=
  (W1_of_ne m c main_arg11 (by decide)).trans rfl
theorem W2_main_arg11 (c : Dev nD) : W2 m c (Proc.devRef .tc main_arg11) = m ((c : Thread nD τ).loc main_arg11) :=
  ((W2_arr m c 11).trans (((dat1 (V1 m) c).arrAt_in 11 rfl _).trans (A_eq1 (V1 m) c 11))).trans (W1_main_arg11 m c)
theorem W1_main_arg12 (c : Dev nD) : W1 m c (Proc.devRef .tc main_arg12) = m ((c : Thread nD τ).loc main_arg12) :=
  (W1_of_ne m c main_arg12 (by decide)).trans rfl
theorem W2_main_arg12 (c : Dev nD) : W2 m c (Proc.devRef .tc main_arg12) = m ((c : Thread nD τ).loc main_arg12) :=
  ((W2_arr m c 12).trans (((dat1 (V1 m) c).arrAt_in 12 rfl _).trans (A_eq1 (V1 m) c 12))).trans (W1_main_arg12 m c)
theorem W1_main_arg13 (c : Dev nD) : W1 m c (Proc.devRef .tc main_arg13) = m ((c : Thread nD τ).loc main_arg13) :=
  (W1_of_ne m c main_arg13 (by decide)).trans rfl
theorem W2_main_arg13 (c : Dev nD) : W2 m c (Proc.devRef .tc main_arg13) = m ((c : Thread nD τ).loc main_arg13) :=
  ((W2_arr m c 13).trans (((dat1 (V1 m) c).arrAt_in 13 rfl _).trans (A_eq1 (V1 m) c 13))).trans (W1_main_arg13 m c)
theorem W1_main_arg14 (c : Dev nD) : W1 m c (Proc.devRef .tc main_arg14) = m ((c : Thread nD τ).loc main_arg14) :=
  (W1_of_ne m c main_arg14 (by decide)).trans rfl
theorem W2_main_arg14 (c : Dev nD) : W2 m c (Proc.devRef .tc main_arg14) = m ((c : Thread nD τ).loc main_arg14) :=
  ((W2_arr m c 14).trans (((dat1 (V1 m) c).arrAt_in 14 rfl _).trans (A_eq1 (V1 m) c 14))).trans (W1_main_arg14 m c)

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Idealize.SL.BI.Entails.refl _).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) :=
  main_segs adm (pdats m) () 𝒱₀ L lv (reg0 m) (reg1 m) c

set_option backward.isDefEq.respectTransparency.types false in
/-- THE RUN: from any memory with zero counters every weakly fair execution of @main terminates, nothing faulting, and
    every final state holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c),
     (h c _ (mem_uc main_arg7 (by decide))).trans (W2_main_arg7 m c),
     (h c _ (mem_uc main_arg8 (by decide))).trans (W2_main_arg8 m c),
     (h c _ (mem_uc main_arg9 (by decide))).trans (W2_main_arg9 m c),
     (h c _ (mem_uc main_arg10 (by decide))).trans (W2_main_arg10 m c),
     (h c _ (mem_uc main_arg11 (by decide))).trans (W2_main_arg11 m c),
     (h c _ (mem_uc main_arg12 (by decide))).trans (W2_main_arg12 m c),
     (h c _ (mem_uc main_arg13 (by decide))).trans (W2_main_arg13 m c),
     (h c _ (mem_uc main_arg14 (by decide))).trans (W2_main_arg14 m c)⟩)
    (run_all m ρ)

end Cert.Kernel.Hand

end
-- ==== Proof.KernelIdeal.Region0.lean ====
/-
  The index kernel's region (one grid point), for any float instance.

  Its three input windows are whole arrays (the previous state, the index weights, the index bias); its two output
  windows are the two [1024, 128] selection masks.  The body loads the inputs, computes the two masks as pure
  functions of them (the payloads of the skeleton) and stores each mask over its whole staging buffer; the
  loads it makes of the output buffers before storing are of contents it never uses.  So after the body each
  input buffer holds its block and each output buffer holds its mask, the one store covering the buffer.
  Nothing is carried between points and the class invariant (the scoped buffers no window stages, the generator
  register) passes through untouched.
-/
import proofs.«136845_j56873956934278_1_alg».proof.Proof.Gen.KernelIdeal.Launch
import proofs.«136845_j56873956934278_1_alg».proof.Proof.Gen.KernelIdeal.Skeleton
import proofs.«136845_j56873956934278_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at the point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block, for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_h : Rect S128x1024 := Rect.unit (s := S128x1024) ![0, 0] S128x1024.size inb_S128x1024_S128x1024_0_0
abbrev r0_w : Rect S20x1024 := Rect.unit (s := S20x1024) ![0, 0] S20x1024.size inb_S20x1024_S20x1024_0_0
abbrev r0_b : Rect S20 := Rect.unit (s := S20) ![0] S20.size inb_S20_S20_0
abbrev r0_o : Rect S1024x128 := Rect.unit (s := S1024x128) ![0, 0] S1024x128.size inb_S1024x128_S1024x128_0_0

/-! ## What the body leaves in each output window's buffer -/

/-- The first mask's buffer after the body: its one store as a piece over the whole buffer. -/
def out0_3 (x0 : Vec F S128x1024 .f32) (x1 : Vec F S20x1024 .f32) (x2 : Vec F S20 .f32) : Vec F S1024x128 .f32 :=
  View.canon [⟨r0_o, k0_pay1 (F := F) (k0_pay6 (View.ld x0 r0_h) (View.ld x1 r0_w) (View.ld x2 r0_b))⟩]
/-- The second mask's buffer after the body. -/
def out0_4 (x0 : Vec F S128x1024 .f32) (x1 : Vec F S20x1024 .f32) (x2 : Vec F S20 .f32) : Vec F S1024x128 .f32 :=
  View.canon [⟨r0_o, k0_pay2 (F := F) (k0_pay5 (View.ld x0 r0_h) (View.ld x1 r0_w) (View.ld x2 r0_b)) (iota .tc S1024x128 32 [0] iota_S1024x128_d0_w32)⟩]

/-- A store through the whole-buffer rectangle covers the buffer. -/
theorem cover0_o (p0 : Vec F S1024x128 .f32) (y : S1024x128.Idx) :
    ∃ pc ∈ ([⟨r0_o, p0⟩] : List (View.Piece (Elt F) S1024x128 .f32)), y ∈ pc.1.set :=
  View.cover_of_tiled [⟨r0_o, p0⟩] S1024x128.size (by rfl) y

/-! ## The body's triple -/

set_option maxHeartbeats 4000000 in
/-- The body on whole staging memrefs, the inputs' at read contents and the outputs' at anything, runs to the
    continuation holding the inputs' as they were and each output's at its mask. -/
theorem sound_kernel0 (c : Dev nD) (E : Set ℕ) (i : grid0.Coords)
    (arg1 : Memref sig .tc .vmem S128x1024 .f32) (harg1 : arg1.IsWhole) (arg2 : Memref sig .tc .vmem S20x1024 .f32) (harg2 : arg2.IsWhole)
    (arg3 : Memref sig .tc .vmem S20 .f32) (harg3 : arg3.IsWhole) (arg4 : Memref sig .tc .vmem S1024x128 .f32) (harg4 : arg4.IsWhole)
    (arg5 : Memref sig .tc .vmem S1024x128 .f32) (harg5 : arg5.IsWhole)
    (x0 : Vec F S128x1024 .f32) (x1 : Vec F S20x1024 .f32) (x2 : Vec F S20 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__index_kernel i arg1 harg1 arg2 harg2 arg3 harg3 arg4 harg4 arg5 harg5) K := by
  simp only [cc0__index_kernel_eq_skeleton]; unfold cc0__index_kernel_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  iexists _; isplitr
  swap; · iexact H4
  ipureintro
  exact View.read_writes_eq_canon _ _ _ (cover0_o _)

/-! ## The region's proof data -/

/-- The proof data: the arrays as the region finds them; after the body each input's buffer at its block and each
    output's at its mask of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.Region1.lean ====
/-
  The recurrent kernel's region (128 grid points), for any float instance.

  Point t stages block t of the memory tensor (eight of its 1024 rows) and the matching eight rows of the two selection
  masks; the other thirteen inputs are whole arrays whose block never moves.  Two scratch buffers carry running sums
  between points: the first point zeroes them, every point adds to each the sum over the block's eight rows of
  memory row times mask row, and the last point computes the output from the inputs and the two sums and stores
  it over the whole output buffer.  The output window is idle before the last point and written back at the last
  point only, so only what the last point stores reaches the result array.

  The sums after point n are named by recursion on n (`accR`, `accL`), and the region's invariant after point n
  holds the two scratch buffers at exactly those contents beside the other scoped buffers and the generator register.
  The body is run in its three control cases (first, middle and last point); the case of a point is decided from
  the grid in closed form.
-/
import proofs.«136845_j56873956934278_1_alg».proof.Proof.Gen.KernelIdeal.Launch
import proofs.«136845_j56873956934278_1_alg».proof.Proof.Gen.KernelIdeal.Skeleton
import proofs.«136845_j56873956934278_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, in closed form over the grid -/

/-- The first `scf.if` (zero the sums): taken at the first point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 128 = 0 :=
  (by decide +kernel : ∀ t : Fin grid1.N, cond1_0 (grid1.coords t) ↔ t.val % 128 = 0)
/-- The second `scf.if` (compute and store the output): taken at the last point only. -/
abbrev cond1_1 (i : grid1.Coords) : Prop := k1_cond2 i = 1#1
theorem hcond1_1 : ∀ t : Fin cfg1.N, cond1_1 (grid1.coords t) ↔ t.val % 128 = 127 :=
  (by decide +kernel : ∀ t : Fin grid1.N, cond1_1 (grid1.coords t) ↔ t.val % 128 = 127)
/-- The output window is idle exactly where the second branch is not taken, and is not written back there. -/
theorem idleAt1_15 : ∀ t : Fin cfg1.N, ¬cond1_1 (grid1.coords t) → cfg1.idle 15 (grid1.coords t) = true := by decide +kernel
theorem liveAt1_15 : ∀ t : Fin cfg1.N, cond1_1 (grid1.coords t) → cfg1.idle 15 (grid1.coords t) = false := by decide +kernel
theorem noFlush1_15 : ∀ t : Fin cfg1.N, ¬cond1_1 (grid1.coords t) → (cfg1.win 15).flush t = false := by decide +kernel

theorem hz1 : (![0] : Fin 1 → Nat) = fun _ => 0 := funext fun a => by match a with | ⟨0, _⟩ => rfl
theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-- The whole-buffer rectangle of a [128, 1024] buffer (the two sums' and the output's one store). -/
abbrev r1_a : Rect S128x1024 := Rect.unit (s := S128x1024) ![0, 0] S128x1024.size inb_S128x1024_S128x1024_0_0

/-- One store through it covers the buffer, -/
theorem cover1_a (p0 : Vec F S128x1024 .f32) (y : S128x1024.Idx) :
    ∃ pc ∈ ([⟨r1_a, p0⟩] : List (View.Piece (Elt F) S128x1024 .f32)), y ∈ pc.1.set :=
  ⟨_, List.mem_singleton_self _, View.mem_set_unit_zero hz2 inb_S128x1024_S128x1024_0_0 y⟩
/-- and so does the later of two. -/
theorem cover1_a2 (p0 p1 : Vec F S128x1024 .f32) (y : S128x1024.Idx) :
    ∃ pc ∈ ([⟨r1_a, p0⟩, ⟨r1_a, p1⟩] : List (View.Piece (Elt F) S128x1024 .f32)), y ∈ pc.1.set :=
  ⟨_, List.mem_cons_self, View.mem_set_unit_zero hz2 inb_S128x1024_S128x1024_0_0 y⟩

/-- The output from the inputs and the two sums: the last point's stored value. -/
def outF (x h r l : Vec F S128x1024 .f32) (Ww : Vec F S1024x1024 .f32) (Wb : Vec F S1024 .f32) (Uw : Vec F S1024x1024 .f32) (Ub : Vec F S1024 .f32)
    (Qrw : Vec F S1024x1024 .f32) (Qrb : Vec F S1024 .f32) (Qlw : Vec F S1024x1024 .f32) (Qlb : Vec F S1024 .f32) (g s : Vec F S1024 .f32) : Vec F S128x1024 .f32 :=
  k1_pay5 (F := F) (k1_pay6 (F := F) x h r Ww Uw Qrw Wb Ub Qrb) (k1_pay7 (F := F) l Qlw) (k1_pay8 (F := F) Qlb) g s

/-! ## The body's triple, case by case -/

set_option maxHeartbeats 8000000 in
/-- A middle point: both sums are read, added to and stored back; nothing else is touched. -/
theorem sound_kernel1_mid (c : Dev nD) (E : Set ℕ) (i : grid1.Coords) (hc0 : ¬cond1_0 i) (hc1 : ¬cond1_1 i)
    (arg1 : Memref sig .tc .vmem S128x1024 .f32) (harg1 : arg1.IsWhole) (arg2 : Memref sig .tc .vmem S128x1024 .f32) (harg2 : arg2.IsWhole)
    (arg3 : Memref sig .tc .vmem S8x128x1024 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S1024x1024 .f32) (harg6 : arg6.IsWhole)
    (arg7 : Memref sig .tc .vmem S1024 .f32) (harg7 : arg7.IsWhole) (arg8 : Memref sig .tc .vmem S1024x1024 .f32) (harg8 : arg8.IsWhole)
    (arg9 : Memref sig .tc .vmem S1024 .f32) (harg9 : arg9.IsWhole) (arg10 : Memref sig .tc .vmem S1024x1024 .f32) (harg10 : arg10.IsWhole)
    (arg11 : Memref sig .tc .vmem S1024 .f32) (harg11 : arg11.IsWhole) (arg12 : Memref sig .tc .vmem S1024x1024 .f32) (harg12 : arg12.IsWhole)
    (arg13 : Memref sig .tc .vmem S1024 .f32) (harg13 : arg13.IsWhole) (arg14 : Memref sig .tc .vmem S1024 .f32) (harg14 : arg14.IsWhole)
    (arg15 : Memref sig .tc .vmem S1024 .f32) (harg15 : arg15.IsWhole) (arg16 : Memref sig .tc .vmem S128x1024 .f32) (harg16 : arg16.IsWhole)
    (arg17 : Memref sig .tc .vmem S128x1024 .f32) (harg17 : arg17.IsWhole) (arg18 : Memref sig .tc .vmem S128x1024 .f32) (harg18 : arg18.IsWhole)
    (x3 : Vec F S8x128x1024 .f32) (x4 x5 : Vec F S8x128 .f32) (a b : Vec F S128x1024 .f32) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg17 fullShare a ∗ owns (c : Thread nD τ) arg18 fullShare b
        ∗ (iprop(owns (c : Thread nD τ) arg3 fullShare x3 ∗ owns (c : Thread nD τ) arg4 fullShare x4 ∗ owns (c : Thread nD τ) arg5 fullShare x5
            ∗ owns (c : Thread nD τ) arg17 fullShare (k1_pay3 (F := F) x3 x4 a) ∗ owns (c : Thread nD τ) arg18 fullShare (k1_pay4 (F := F) x3 x5 b)) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  haveI : Fact (¬cond1_0 i) := ⟨hc0⟩
  haveI : Fact (¬cond1_1 i) := ⟨hc1⟩
  simp only [cc1__rnn_kernel_eq_skeleton]; unfold cc1__rnn_kernel_skel
  unfold owns
  iintro ⟨⟨%f3, %hf3, H3⟩, ⟨%f4, %hf4, H4⟩, ⟨%f5, %hf5, H5⟩, ⟨%f17, %hf17, H17⟩, ⟨%f18, %hf18, H18⟩, Hk⟩
  subst hf3; subst hf4; subst hf5; subst hf17; subst hf18
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H17]
  · iexists _; isplitr
    swap; · iexact H17
    ipureintro
    refine (View.read_writes_eq_canon _ _ _ (cover1_a _)).trans ?_
    rw [View.canon_unit_zero (S := S128x1024) hz2]
    simp only [View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]
  iexists _; isplitr
  swap; · iexact H18
  ipureintro
  refine (View.read_writes_eq_canon _ _ _ (cover1_a _)).trans ?_
  rw [View.canon_unit_zero (S := S128x1024) hz2]
  simp only [View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]

set_option maxHeartbeats 8000000 in
/-- The first point: each sum is zeroed, read back, added to and stored. -/
theorem sound_kernel1_first (c : Dev nD) (E : Set ℕ) (i : grid1.Coords) (hc0 : cond1_0 i) (hc1 : ¬cond1_1 i)
    (arg1 : Memref sig .tc .vmem S128x1024 .f32) (harg1 : arg1.IsWhole) (arg2 : Memref sig .tc .vmem S128x1024 .f32) (harg2 : arg2.IsWhole)
    (arg3 : Memref sig .tc .vmem S8x128x1024 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S1024x1024 .f32) (harg6 : arg6.IsWhole)
    (arg7 : Memref sig .tc .vmem S1024 .f32) (harg7 : arg7.IsWhole) (arg8 : Memref sig .tc .vmem S1024x1024 .f32) (harg8 : arg8.IsWhole)
    (arg9 : Memref sig .tc .vmem S1024 .f32) (harg9 : arg9.IsWhole) (arg10 : Memref sig .tc .vmem S1024x1024 .f32) (harg10 : arg10.IsWhole)
    (arg11 : Memref sig .tc .vmem S1024 .f32) (harg11 : arg11.IsWhole) (arg12 : Memref sig .tc .vmem S1024x1024 .f32) (harg12 : arg12.IsWhole)
    (arg13 : Memref sig .tc .vmem S1024 .f32) (harg13 : arg13.IsWhole) (arg14 : Memref sig .tc .vmem S1024 .f32) (harg14 : arg14.IsWhole)
    (arg15 : Memref sig .tc .vmem S1024 .f32) (harg15 : arg15.IsWhole) (arg16 : Memref sig .tc .vmem S128x1024 .f32) (harg16 : arg16.IsWhole)
    (arg17 : Memref sig .tc .vmem S128x1024 .f32) (harg17 : arg17.IsWhole) (arg18 : Memref sig .tc .vmem S128x1024 .f32) (harg18 : arg18.IsWhole)
    (x3 : Vec F S8x128x1024 .f32) (x4 x5 : Vec F S8x128 .f32) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg17 fullShare d) ∗ (∃ d, owns (c : Thread nD τ) arg18 fullShare d)
        ∗ (iprop(owns (c : Thread nD τ) arg3 fullShare x3 ∗ owns (c : Thread nD τ) arg4 fullShare x4 ∗ owns (c : Thread nD τ) arg5 fullShare x5
            ∗ owns (c : Thread nD τ) arg17 fullShare (k1_pay3 (F := F) x3 x4 (k1_pay1 (F := F)))
            ∗ owns (c : Thread nD τ) arg18 fullShare (k1_pay4 (F := F) x3 x5 (k1_pay2 (F := F)))) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  haveI : Fact (cond1_0 i) := ⟨hc0⟩
  haveI : Fact (¬cond1_1 i) := ⟨hc1⟩
  simp only [cc1__rnn_kernel_eq_skeleton]; unfold cc1__rnn_kernel_skel
  unfold owns
  iintro ⟨⟨%f3, %hf3, H3⟩, ⟨%f4, %hf4, H4⟩, ⟨%f5, %hf5, H5⟩, ⟨%d17, %f17, -, H17⟩, ⟨%d18, %f18, -, H18⟩, Hk⟩
  subst hf3; subst hf4; subst hf5
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H17]
  · iexists _; isplitr
    swap; · iexact H17
    ipureintro
    refine (View.read_writes_eq_canon _ _ _ (cover1_a2 _ _)).trans ?_
    sl_unfold_words
    rw [View.canon_cons_unit_zero (S := S128x1024) hz2]
    simp only [View.readCov_unit_zero (S := S128x1024) _ hz2, View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]
  iexists _; isplitr
  swap; · iexact H18
  ipureintro
  refine (View.read_writes_eq_canon _ _ _ (cover1_a2 _ _)).trans ?_
  sl_unfold_words
  rw [View.canon_cons_unit_zero (S := S128x1024) hz2]
  simp only [View.readCov_unit_zero (S := S128x1024) _ hz2, View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]

set_option maxHeartbeats 16000000 in
/-- The last point: both sums are added to and stored back, then every input and both sums are read and the output is
    computed from them and stored over the whole output buffer. -/
theorem sound_kernel1_last (c : Dev nD) (E : Set ℕ) (i : grid1.Coords) (hc0 : ¬cond1_0 i) (hc1 : cond1_1 i)
    (arg1 : Memref sig .tc .vmem S128x1024 .f32) (harg1 : arg1.IsWhole) (arg2 : Memref sig .tc .vmem S128x1024 .f32) (harg2 : arg2.IsWhole)
    (arg3 : Memref sig .tc .vmem S8x128x1024 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S1024x1024 .f32) (harg6 : arg6.IsWhole)
    (arg7 : Memref sig .tc .vmem S1024 .f32) (harg7 : arg7.IsWhole) (arg8 : Memref sig .tc .vmem S1024x1024 .f32) (harg8 : arg8.IsWhole)
    (arg9 : Memref sig .tc .vmem S1024 .f32) (harg9 : arg9.IsWhole) (arg10 : Memref sig .tc .vmem S1024x1024 .f32) (harg10 : arg10.IsWhole)
    (arg11 : Memref sig .tc .vmem S1024 .f32) (harg11 : arg11.IsWhole) (arg12 : Memref sig .tc .vmem S1024x1024 .f32) (harg12 : arg12.IsWhole)
    (arg13 : Memref sig .tc .vmem S1024 .f32) (harg13 : arg13.IsWhole) (arg14 : Memref sig .tc .vmem S1024 .f32) (harg14 : arg14.IsWhole)
    (arg15 : Memref sig .tc .vmem S1024 .f32) (harg15 : arg15.IsWhole) (arg16 : Memref sig .tc .vmem S128x1024 .f32) (harg16 : arg16.IsWhole)
    (arg17 : Memref sig .tc .vmem S128x1024 .f32) (harg17 : arg17.IsWhole) (arg18 : Memref sig .tc .vmem S128x1024 .f32) (harg18 : arg18.IsWhole)
    (x1 x2 : Vec F S128x1024 .f32) (x3 : Vec F S8x128x1024 .f32) (x4 x5 : Vec F S8x128 .f32)
    (x6 : Vec F S1024x1024 .f32) (x7 : Vec F S1024 .f32) (x8 : Vec F S1024x1024 .f32) (x9 : Vec F S1024 .f32)
    (x10 : Vec F S1024x1024 .f32) (x11 : Vec F S1024 .f32) (x12 : Vec F S1024x1024 .f32) (x13 x14 x15 : Vec F S1024 .f32)
    (a b : Vec F S128x1024 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
        ∗ (∃ d, owns (c : Thread nD τ) arg16 fullShare d) ∗ owns (c : Thread nD τ) arg17 fullShare a ∗ owns (c : Thread nD τ) arg18 fullShare b
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ owns (c : Thread nD τ) arg16 fullShare (outF (F := F) x1 x2 (k1_pay3 (F := F) x3 x4 a) (k1_pay4 (F := F) x3 x5 b) x6 x7 x8 x9 x10 x11 x12 x13 x14 x15)
            ∗ owns (c : Thread nD τ) arg17 fullShare (k1_pay3 (F := F) x3 x4 a) ∗ owns (c : Thread nD τ) arg18 fullShare (k1_pay4 (F := F) x3 x5 b)) -∗ K ⟨⟩))
      ⊢ wp frame (wpE (defs₀ (F := F)) Variants.none c none) E (cc1__rnn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  haveI : Fact (¬cond1_0 i) := ⟨hc0⟩
  haveI : Fact (cond1_1 i) := ⟨hc1⟩
  simp only [cc1__rnn_kernel_eq_skeleton]; unfold cc1__rnn_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, Hk⟩
  subst hf1; subst hf2; subst hf3; subst hf4; subst hf5; subst hf6; subst hf7; subst hf8; subst hf9; subst hf10; subst hf11; subst hf12; subst hf13; subst hf14; subst hf15; subst hf17; subst hf18
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover1_a _)).trans ?_
    try sl_unfold_words
    unfold outF
    rw [View.canon_unit_zero (S := S128x1024) hz2]
    simp only [View.readCov_unit_zero (S := S128x1024) _ hz2, View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]
  isplitl [H17]
  · iexists _; isplitr
    swap; · iexact H17
    ipureintro
    refine (View.read_writes_eq_canon _ _ _ (cover1_a _)).trans ?_
    rw [View.canon_unit_zero (S := S128x1024) hz2]
    simp only [View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]
  iexists _; isplitr
  swap; · iexact H18
  ipureintro
  refine (View.read_writes_eq_canon _ _ _ (cover1_a _)).trans ?_
  rw [View.canon_unit_zero (S := S128x1024) hz2]
  simp only [View.readAt_eq_ld, View.ld_unit_zero (S := S1024) hz1, View.ld_unit_zero (S := S128x1024) hz2, View.ld_unit_zero (S := S8x128) hz2, View.ld_unit_zero (S := S1024x1024) hz2, View.ld_unit_zero (S := S8x128x1024) hz3]

/-! # The region at the entry contents `V` -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-- Point `n` of the grid, for any `n` (reduced modulo the 128 points, so that the recursion below is total). -/
def ptAt (n : ℕ) : Fin cfg1.N := ⟨n % 128, lt_of_lt_of_eq (Nat.mod_lt _ (by decide)) (show cfg1.N = 128 from N_1).symm⟩
theorem ptAt_val (t : Fin cfg1.N) : ptAt t.val = t :=
  Fin.ext (Nat.mod_eq_of_lt (lt_of_lt_of_eq t.isLt (show cfg1.N = 128 from N_1)))

/-- The first running sum after point `n`: zero plus the first block's term, then one block's term more per point. -/
def accR (c : Dev nD) : ℕ → Vec F S128x1024 .f32
  | 0 => k1_pay3 (F := F) (iblk1 V c 2 (ptAt 0)) (iblk1 V c 3 (ptAt 0)) (k1_pay1 (F := F))
  | n + 1 => k1_pay3 (F := F) (iblk1 V c 2 (ptAt (n + 1))) (iblk1 V c 3 (ptAt (n + 1))) (accR c n)
/-- The second running sum after point `n`. -/
def accL (c : Dev nD) : ℕ → Vec F S128x1024 .f32
  | 0 => k1_pay4 (F := F) (iblk1 V c 2 (ptAt 0)) (iblk1 V c 4 (ptAt 0)) (k1_pay2 (F := F))
  | n + 1 => k1_pay4 (F := F) (iblk1 V c 2 (ptAt (n + 1))) (iblk1 V c 4 (ptAt (n + 1))) (accL c n)

theorem accR_first (c : Dev nD) (t : Fin cfg1.N) (h : t.val = 0) :
    accR V c t.val = k1_pay3 (F := F) (iblk1 V c 2 t) (iblk1 V c 3 t) (k1_pay1 (F := F)) := by
  have e : ptAt 0 = t := by rw [← h]; exact ptAt_val t
  rw [h]; show k1_pay3 (F := F) (iblk1 V c 2 (ptAt 0)) (iblk1 V c 3 (ptAt 0)) (k1_pay1 (F := F)) = _; rw [e]
theorem accL_first (c : Dev nD) (t : Fin cfg1.N) (h : t.val = 0) :
    accL V c t.val = k1_pay4 (F := F) (iblk1 V c 2 t) (iblk1 V c 4 t) (k1_pay2 (F := F)) := by
  have e : ptAt 0 = t := by rw [← h]; exact ptAt_val t
  rw [h]; show k1_pay4 (F := F) (iblk1 V c 2 (ptAt 0)) (iblk1 V c 4 (ptAt 0)) (k1_pay2 (F := F)) = _; rw [e]
theorem accR_next (c : Dev nD) (t : Fin cfg1.N) (h : t.val ≠ 0) :
    accR V c t.val = k1_pay3 (F := F) (iblk1 V c 2 t) (iblk1 V c 3 t) (accR V c (t.val - 1)) := by
  obtain ⟨n, hn⟩ : ∃ n, t.val = n + 1 := ⟨t.val - 1, by omega⟩
  have e : ptAt (n + 1) = t := by rw [← hn]; exact ptAt_val t
  rw [hn]; show k1_pay3 (F := F) (iblk1 V c 2 (ptAt (n + 1))) (iblk1 V c 3 (ptAt (n + 1))) (accR V c n) = _; rw [e]; rfl
theorem accL_next (c : Dev nD) (t : Fin cfg1.N) (h : t.val ≠ 0) :
    accL V c t.val = k1_pay4 (F := F) (iblk1 V c 2 t) (iblk1 V c 4 t) (accL V c (t.val - 1)) := by
  obtain ⟨n, hn⟩ : ∃ n, t.val = n + 1 := ⟨t.val - 1, by omega⟩
  have e : ptAt (n + 1) = t := by rw [← hn]; exact ptAt_val t
  rw [hn]; show k1_pay4 (F := F) (iblk1 V c 2 (ptAt (n + 1))) (iblk1 V c 4 (ptAt (n + 1))) (accL V c n) = _; rw [e]; rfl

/-! ## The invariant: the two sums carried in the scratch buffers -/

/-- The scratch operands: whole scoped buffers of the kernel's own. -/
abbrev scR : Memref sig .tc .vmem S128x1024 .f32 := Memref.whole cc1_scratch0
abbrev scL : Memref sig .tc .vmem S128x1024 .f32 := Memref.whole cc1_scratch1

/-- The class invariant conjunct by conjunct: the scoped buffers no window stages (the other region's staging buffers,
    then the two scratch buffers), each at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ d, owns (c : Thread nD τ) scR fullShare d) ∗ (∃ d, owns (c : Thread nD τ) scL fullShare d)) ∗ (∃ r, prngReg c r)) := by
  unfold Pipeline.ΦA; rw [scopedRest1_eq]; simp only [scR, scL, owns_whole]; try rfl

/-- The region's invariant before position `n`: before the first point the class's (the scratch buffers at anything);
    afterwards the two scratch buffers at the sums after point `n - 1`. -/
def PhiS (c : Dev nD) : ℕ → sProp 𝕄
  | 0 => Pipeline.ΦA spec1 c
  | n + 1 => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scR fullShare (accR V c n) ∗ owns (c : Thread nD τ) scL fullShare (accL V c n)) ∗ (∃ r, prngReg c r))

theorem PhiS_zero (c : Dev nD) (n : ℕ) (hz : n = 0) : PhiS V c n = Pipeline.ΦA spec1 c := by subst hz; rfl
theorem PhiS_succ (c : Dev nD) (n : ℕ) :
    PhiS V c (n + 1) = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scR fullShare (accR V c n) ∗ owns (c : Thread nD τ) scL fullShare (accL V c n)) ∗ (∃ r, prngReg c r)) := rfl
theorem PhiS_pos (c : Dev nD) (n : ℕ) (hz : n ≠ 0) :
    PhiS V c n = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scR fullShare (accR V c (n - 1)) ∗ owns (c : Thread nD τ) scL fullShare (accL V c (n - 1))) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => outF (F := F) (iblk1 V c 0 t) (iblk1 V c 1 t) (accR V c t.val) (accL V c t.val) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ t := PhiS V c t.val
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) : (dat1 V c).Φ t.castSucc = PhiS V c t.val := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) :
    (dat1 V c).after 15 t = outF (F := F) (iblk1 V c 0 t) (iblk1 V c 1 t) (accR V c t.val) (accL V c t.val) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ (dat1 V c).leavesExact 15 t)

set_option maxHeartbeats 16000000 in
/-- The body at any point: the inputs' buffers hold their blocks; the closed forms say which case the point is in; the
    invariant hands the body the two sums after the point before (anything, at the first point) and takes them
    back after this point; the output buffer is handed back untouched before the last point and at the output there. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).owesAt () t.succ = (dat1 V c).owesAt () t.castSucc from rfl]
  rw [show (dat1 V c).Φ t.succ = PhiS V c (t.val + 1) from rfl, PhiS_castSucc V c t, PhiS_succ]
  rw [after1_0, after1_1, after1_2, after1_3, after1_4, after1_5, after1_6, after1_7, after1_8, after1_9, after1_10, after1_11, after1_12, after1_13, after1_14]
  have hN : t.val < 128 := lt_of_lt_of_eq t.isLt (show cfg1.N = 128 from N_1)
  by_cases h0 : t.val % 128 = 0
  · -- the first point
    have hz : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 15 t (idleAt1_15 t hc1) (noFlush1_15 t hc1)]
    rw [PhiS_zero V c _ hz, PhiA1_eq, accR_first V c t hz, accL_first V c t hz]
    iintro ⟨⟨⟨HA0, HA1, HA2, HA3, HA4, ⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (sound_kernel1_first c Set.univ (grid1.coords t) hc0 hc1 _ _ _ _ _ _ _ _ _ _ _ _ _ _ _ _ _ _ _ _ _ _ _ _ _ _ _ _ _ _ _ _ _ _ _ _ (iblk1 V c 2 t) (iblk1 V c 3 t) (iblk1 V c 4 t) _)
    isplitl [H2]; · iexact H2
    isplitl [H3]; · iexact H3
    isplitl [H4]; · iexact H4
    isplitl [HS0]; · iexists _; iexact HS0
    isplitl [HS1]; · iexists _; iexact HS1
    iintro ⟨H2, H3, H4, HS0, HS1⟩
    isplitl [HA0 HA1 HA2 HA3 HA4 HS0 HS1 Hg]
    · isplitl [HA0 HA1 HA2 HA3 HA4 HS0 HS1]
      · isplitl [HA0]; · iexact HA0
        isplitl [HA1]; · iexact HA1
        isplitl [HA2]; · iexact HA2
        isplitl [HA3]; · iexact HA3
        isplitl [HA4]; · iexact HA4
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists _; iexact H15
  · by_cases h1 : t.val % 128 = 127
    · -- the last point
      have hz : t.val ≠ 0 := by omega
      have hc0 : ¬cond1_0 (grid1.coords t) := fun h => h0 ((hcond1_0 t).mp h)
      have hc1 : cond1_1 (grid1.coords t) := (hcond1_1 t).mpr h1
      rw [show (dat1 V c).leavesExact 15 t = owns (c : Thread nD τ) (st1_15 t) fullShare ((dat1 V c).after 15 t) from by
        unfold Dat.leavesExact; rw [liveAt1_15 t hc1], after1_15]
      rw [PhiS_pos V c _ hz, accR_next V c t hz, accL_next V c t hz]
      iintro ⟨⟨⟨HA0, HA1, HA2, HA3, HA4, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (sound_kernel1_last c Set.univ (grid1.coords t) hc0 hc1 _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (accR V c (t.val - 1)) (accL V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      isplitl [HS1]; · iexact HS1
      iintro ⟨H0, H1, H2, H3, H4, H5, H6, H7, H8, H9, H10, H11, H12, H13, H14, H15, HS0, HS1⟩
      isplitl [HA0 HA1 HA2 HA3 HA4 HS0 HS1 Hg]
      · isplitl [HA0 HA1 HA2 HA3 HA4 HS0 HS1]
        · isplitl [HA0]; · iexact HA0
          isplitl [HA1]; · iexact HA1
          isplitl [HA2]; · iexact HA2
          isplitl [HA3]; · iexact HA3
          isplitl [HA4]; · iexact HA4
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · -- a middle point
      have hz : t.val ≠ 0 := by omega
      have hc0 : ¬cond1_0 (grid1.coords t) := fun h => h0 ((hcond1_0 t).mp h)
      have hc1 : ¬cond1_1 (grid1.coords t) := fun h => h1 ((hcond1_1 t).mp h)
      rw [Dat.leavesExact_idle (dat1 V c) 15 t (idleAt1_15 t hc1) (noFlush1_15 t hc1)]
      rw [PhiS_pos V c _ hz, accR_next V c t hz, accL_next V c t hz]
      iintro ⟨⟨⟨HA0, HA1, HA2, HA3, HA4, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (sound_kernel1_mid c Set.univ (grid1.coords t) hc0 hc1 _ _ _ _ _ _ _ _ _ _ _ _ _ _ _ _ _ _ _ _ _ _ _ _ _ _ _ _ _ _ _ _ _ _ _ _ (iblk1 V c 2 t) (iblk1 V c 3 t) (iblk1 V c 4 t) (accR V c (t.val - 1)) (accL V c (t.val - 1)) _)
      isplitl [H2]; · iexact H2
      isplitl [H3]; · iexact H3
      isplitl [H4]; · iexact H4
      isplitl [HS0]; · iexact HS0
      isplitl [HS1]; · iexact HS1
      iintro ⟨H2, H3, H4, HS0, HS1⟩
      isplitl [HA0 HA1 HA2 HA3 HA4 HS0 HS1 Hg]
      · isplitl [HA0 HA1 HA2 HA3 HA4 HS0 HS1]
        · isplitl [HA0]; · iexact HA0
          isplitl [HA1]; · iexact HA1
          isplitl [HA2]; · iexact HA2
          isplitl [HA3]; · iexact HA3
          isplitl [HA4]; · iexact HA4
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists _; iexact H15

theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 from rfl, PhiS_zero V c 0 rfl]
  try exact Idealize.SL.BI.Entails.refl _

/-- After the last point the invariant gives the class invariant back: the sums' named contents are forgotten. -/
theorem hout1 (c : Dev nD) : (dat1 V c).Φ (Fin.last cfg1.N) ⊢ Pipeline.ΦA spec1 c := by
  have hl : (Fin.last cfg1.N).val ≠ 0 := by rw [Fin.val_last]; have : cfg1.N = 128 := N_1; omega
  rw [show (dat1 V c).Φ (Fin.last cfg1.N) = PhiS V c (Fin.last cfg1.N).val from rfl, PhiS_pos V c _ hl, PhiA1_eq]
  iintro ⟨⟨HA0, HA1, HA2, HA3, HA4, HS0, HS1⟩, Hg⟩
  isplitl [HA0 HA1 HA2 HA3 HA4 HS0 HS1]
  · isplitl [HA0]; · iexact HA0
    isplitl [HA1]; · iexact HA1
    isplitl [HA2]; · iexact HA2
    isplitl [HA3]; · iexact HA3
    isplitl [HA4]; · iexact HA4
    isplitl [HS0]; · iexists _; iexact HS0
    iexists _; iexact HS1
  iexact Hg

end Region1

end Cert.KernelIdeal.Hand

end
-- ==== Proof.KernelIdeal.Run.lean ====
/-
  The whole run of the program: its two kernel regions one after the other, for any float instance.

  Between the regions every unscoped buffer of the core is held at a named valuation: the launch memory, then the
  launch memory with the first region's arrays at what its write-backs leave (the two masks), then that with
  the second region's arrays at what its write-backs leave (the output).  Each region is entered from the
  valuation before it and left at the one after it; its own arrays are split out of the unscoped buffers at entry
  and put back at exit, the generator register passes through its invariant, it owes nothing and has no semaphore
  of its own.  Reading the last valuation against a final state gives every unscoped buffer's final contents; an
  argument array is never written (a region reads it through an input window or leaves it alone), so the
  valuation at an argument walks back to the launch memory: the frame.
-/
import proofs.«136845_j56873956934278_1_alg».proof.Proof.KernelIdeal.Region0
import proofs.«136845_j56873956934278_1_alg».proof.Proof.KernelIdeal.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary -/

/-- Core `c`'s buffers at launch (the first region's entry). -/
abbrev W0 : Dev nD → Valuation τ sig (Elt F) := fun c b => m (c, b)
abbrev V0 : (c : Dev nD) → (b : Ref sig .tc) → Buf (Elt F) ((c : Thread nD τ).loc b) := fun c b => W0 m c b
/-- At the first region's exit (the second's entry): its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- At the second region's exit: its arrays at what its write-backs leave, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched -/

theorem W1_main_arg0 (c : Dev nD) : W1 m c (Proc.devRef .tc main_arg0) = m ((c : Thread nD τ).loc main_arg0) :=
  (W1_of_ne m c main_arg0 (by decide)).trans rfl
theorem W2_main_arg0 (c : Dev nD) : W2 m c (Proc.devRef .tc main_arg0) = m ((c : Thread nD τ).loc main_arg0) :=
  ((W2_arr m c 0).trans (((dat1 (V1 m) c).arrAt_in 0 rfl _).trans (A_eq1 (V1 m) c 0))).trans (W1_main_arg0 m c)
theorem W1_main_arg1 (c : Dev nD) : W1 m c (Proc.devRef .tc main_arg1) = m ((c : Thread nD τ).loc main_arg1) :=
  ((W1_arr m c 0).trans (((dat0 (V0 m) c).arrAt_in 0 rfl _).trans (A_eq0 (V0 m) c 0))).trans rfl
theorem W2_main_arg1 (c : Dev nD) : W2 m c (Proc.devRef .tc main_arg1) = m ((c : Thread nD τ).loc main_arg1) :=
  ((W2_arr m c 1).trans (((dat1 (V1 m) c).arrAt_in 1 rfl _).trans (A_eq1 (V1 m) c 1))).trans (W1_main_arg1 m c)
theorem W1_main_arg2 (c : Dev nD) : W1 m c (Proc.devRef .tc main_arg2) = m ((c : Thread nD τ).loc main_arg2) :=
  (W1_of_ne m c main_arg2 (by decide)).trans rfl
theorem W2_main_arg2 (c : Dev nD) : W2 m c (Proc.devRef .tc main_arg2) = m ((c : Thread nD τ).loc main_arg2) :=
  ((W2_arr m c 2).trans (((dat1 (V1 m) c).arrAt_in 2 rfl _).trans (A_eq1 (V1 m) c 2))).trans (W1_main_arg2 m c)
theorem W1_main_arg3 (c : Dev nD) : W1 m c (Proc.devRef .tc main_arg3) = m ((c : Thread nD τ).loc main_arg3) :=
  (W1_of_ne m c main_arg3 (by decide)).trans rfl
theorem W2_main_arg3 (c : Dev nD) : W2 m c (Proc.devRef .tc main_arg3) = m ((c : Thread nD τ).loc main_arg3) :=
  ((W2_arr m c 5).trans (((dat1 (V1 m) c).arrAt_in 5 rfl _).trans (A_eq1 (V1 m) c 5))).trans (W1_main_arg3 m c)
theorem W1_main_arg4 (c : Dev nD) : W1 m c (Proc.devRef .tc main_arg4) = m ((c : Thread nD τ).loc main_arg4) :=
  (W1_of_ne m c main_arg4 (by decide)).trans rfl
theorem W2_main_arg4 (c : Dev nD) : W2 m c (Proc.devRef .tc main_arg4) = m ((c : Thread nD τ).loc main_arg4) :=
  ((W2_arr m c 6).trans (((dat1 (V1 m) c).arrAt_in 6 rfl _).trans (A_eq1 (V1 m) c 6))).trans (W1_main_arg4 m c)
theorem W1_main_arg5 (c : Dev nD) : W1 m c (Proc.devRef .tc main_arg5) = m ((c : Thread nD τ).loc main_arg5) :=
  (W1_of_ne m c main_arg5 (by decide)).trans rfl
theorem W2_main_arg5 (c : Dev nD) : W2 m c (Proc.devRef .tc main_arg5) = m ((c : Thread nD τ).loc main_arg5) :=
  ((W2_arr m c 7).trans (((dat1 (V1 m) c).arrAt_in 7 rfl _).trans (A_eq1 (V1 m) c 7))).trans (W1_main_arg5 m c)
theorem W1_main_arg6 (c : Dev nD) : W1 m c (Proc.devRef .tc main_arg6) = m ((c : Thread nD τ).loc main_arg6) :=
  (W1_of_ne m c main_arg6 (by decide)).trans rfl
theorem W2_main_arg6 (c : Dev nD) : W2 m c (Proc.devRef .tc main_arg6) = m ((c : Thread nD τ).loc main_arg6) :=
  ((W2_arr m c 8).trans (((dat1 (V1 m) c).arrAt_in 8 rfl _).trans (A_eq1 (V1 m) c 8))).trans (W1_main_arg6 m c)
theorem W1_main_arg7 (c : Dev nD) : W1 m c (Proc.devRef .tc main_arg7) = m ((c : Thread nD τ).loc main_arg7) :=
  ((W1_arr m c 1).trans (((dat0 (V0 m) c).arrAt_in 1 rfl _).trans (A_eq0 (V0 m) c 1))).trans rfl
theorem W2_main_arg7 (c : Dev nD) : W2 m c (Proc.devRef .tc main_arg7) = m ((c : Thread nD τ).loc main_arg7) :=
  (W2_of_ne m c main_arg7 (by decide)).trans (W1_main_arg7 m c)
theorem W1_main_arg8 (c : Dev nD) : W1 m c (Proc.devRef .tc main_arg8) = m ((c : Thread nD τ).loc main_arg8) :=
  ((W1_arr m c 2).trans (((dat0 (V0 m) c).arrAt_in 2 rfl _).trans (A_eq0 (V0 m) c 2))).trans rfl
theorem W2_main_arg8 (c : Dev nD) : W2 m c (Proc.devRef .tc main_arg8) = m ((c : Thread nD τ).loc main_arg8) :=
  (W2_of_ne m c main_arg8 (by decide)).trans (W1_main_arg8 m c)
theorem W1_main_arg9 (c : Dev nD) : W1 m c (Proc.devRef .tc main_arg9) = m ((c : Thread nD τ).loc main_arg9) :=
  (W1_of_ne m c main_arg9 (by decide)).trans rfl
theorem W2_main_arg9 (c : Dev nD) : W2 m c (Proc.devRef .tc main_arg9) = m ((c : Thread nD τ).loc main_arg9) :=
  ((W2_arr m c 9).trans (((dat1 (V1 m) c).arrAt_in 9 rfl _).trans (A_eq1 (V1 m) c 9))).trans (W1_main_arg9 m c)
theorem W1_main_arg10 (c : Dev nD) : W1 m c (Proc.devRef .tc main_arg10) = m ((c : Thread nD τ).loc main_arg10) :=
  (W1_of_ne m c main_arg10 (by decide)).trans rfl
theorem W2_main_arg10 (c : Dev nD) : W2 m c (Proc.devRef .tc main_arg10) = m ((c : Thread nD τ).loc main_arg10) :=
  ((W2_arr m c 10).trans (((dat1 (V1 m) c).arrAt_in 10 rfl _).trans (A_eq1 (V1 m) c 10))).trans (W1_main_arg10 m c)
theorem W1_main_arg11 (c : Dev nD) : W1 m c (Proc.devRef .tc main_arg11) = m ((c : Thread nD τ).loc main_arg11) :=
  (W1_of_ne m c main_arg11 (by decide)).trans rfl
theorem W2_main_arg11 (c : Dev nD) : W2 m c (Proc.devRef .tc main_arg11) = m ((c : Thread nD τ).loc main_arg11) :=
  ((W2_arr m c 11).trans (((dat1 (V1 m) c).arrAt_in 11 rfl _).trans (A_eq1 (V1 m) c 11))).trans (W1_main_arg11 m c)
theorem W1_main_arg12 (c : Dev nD) : W1 m c (Proc.devRef .tc main_arg12) = m ((c : Thread nD τ).loc main_arg12) :=
  (W1_of_ne m c main_arg12 (by decide)).trans rfl
theorem W2_main_arg12 (c : Dev nD) : W2 m c (Proc.devRef .tc main_arg12) = m ((c : Thread nD τ).loc main_arg12) :=
  ((W2_arr m c 12).trans (((dat1 (V1 m) c).arrAt_in 12 rfl _).trans (A_eq1 (V1 m) c 12))).trans (W1_main_arg12 m c)
theorem W1_main_arg13 (c : Dev nD) : W1 m c (Proc.devRef .tc main_arg13) = m ((c : Thread nD τ).loc main_arg13) :=
  (W1_of_ne m c main_arg13 (by decide)).trans rfl
theorem W2_main_arg13 (c : Dev nD) : W2 m c (Proc.devRef .tc main_arg13) = m ((c : Thread nD τ).loc main_arg13) :=
  ((W2_arr m c 13).trans (((dat1 (V1 m) c).arrAt_in 13 rfl _).trans (A_eq1 (V1 m) c 13))).trans (W1_main_arg13 m c)
theorem W1_main_arg14 (c : Dev nD) : W1 m c (Proc.devRef .tc main_arg14) = m ((c : Thread nD τ).loc main_arg14) :=
  (W1_of_ne m c main_arg14 (by decide)).trans rfl
theorem W2_main_arg14 (c : Dev nD) : W2 m c (Proc.devRef .tc main_arg14) = m ((c : Thread nD τ).loc main_arg14) :=
  ((W2_arr m c 14).trans (((dat1 (V1 m) c).arrAt_in 14 rfl _).trans (A_eq1 (V1 m) c 14))).trans (W1_main_arg14 m c)

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Idealize.SL.BI.Entails.refl _).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) :=
  main_segs adm (pdats m) () 𝒱₀ L lv (reg0 m) (reg1 m) c

set_option backward.isDefEq.respectTransparency.types false in
/-- THE RUN: from any memory with zero counters every weakly fair execution of @main terminates, nothing faulting, and
    every final state holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c),
     (h c _ (mem_uc main_arg7 (by decide))).trans (W2_main_arg7 m c),
     (h c _ (mem_uc main_arg8 (by decide))).trans (W2_main_arg8 m c),
     (h c _ (mem_uc main_arg9 (by decide))).trans (W2_main_arg9 m c),
     (h c _ (mem_uc main_arg10 (by decide))).trans (W2_main_arg10 m c),
     (h c _ (mem_uc main_arg11 (by decide))).trans (W2_main_arg11 m c),
     (h c _ (mem_uc main_arg12 (by decide))).trans (W2_main_arg12 m c),
     (h c _ (mem_uc main_arg13 (by decide))).trans (W2_main_arg13 m c),
     (h c _ (mem_uc main_arg14 (by decide))).trans (W2_main_arg14 m c)⟩)
    (run_all m ρ)

end Cert.KernelIdeal.Hand

end
-- ==== Proof.KernelIdeal.Blocks.lean ====
/-
  From blocks to arrays: what the two regions leave in their output arrays, for any float instance.

  The index kernel's region has one grid point, and each of its five windows' one block is the whole of its array (block
  index 0 on every axis, block size the array's size), so an element of a block sits in the array at its own coordinates.
  The point writes both masks back; each mask's array therefore ends holding the mask payload of the three input arrays.

  The recurrent kernel's region has 128 points.  The memory tensor and the two masks are walked in blocks of 8 leading
  rows: at point t the block index is (t, 0, 0), resp. (t, 0), so element (s, b, k) of the block is element (8t + s, b, k)
  of the array.  Every other window's one block is its whole array at every point.  The output window writes back at
  the last point only (t = 127), where the body's result is the last step's payload of the whole input arrays and of the
  two running sums after point 127; that one block covers the output array, which therefore ends holding that value.
-/
import proofs.«136845_j56873956934278_1_alg».proof.Proof.KernelIdeal.Region0
import proofs.«136845_j56873956934278_1_alg».proof.Proof.KernelIdeal.Region1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

section Blocks

variable (V : (c : Dev nD) → (b : Ref sig .tc) → Buf (Elt F) ((c : Thread nD τ).loc b))

/-! ## The index kernel's region: every block is its whole array -/

/-- The printed index maps of region 0, decided over its one point: every block index is 0. -/
theorem idx_zero0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The previous state's block is the array. -/
theorem iblk0_0 (c : Dev nD) (t : Fin cfg0.N) : iblk0 V c 0 t = V c main_arg1 := by
  obtain ⟨e0, e1, -⟩ := idx_zero0 t
  funext j
  show V c main_arg1 (((cfg0.win 0).blk t).view.emb j) = V c main_arg1 j
  refine congrArg (V c main_arg1) ?_
  funext a; apply Fin.ext
  match a with
  | ⟨0, _⟩ => show win0_0.index t (0 : Fin 2) * 128 + 1 * (j 0).val = (j 0).val; omega
  | ⟨1, _⟩ => show win0_0.index t (1 : Fin 2) * 1024 + 1 * (j 1).val = (j 1).val; omega

/-- The index weights' block is the array. -/
theorem iblk0_1 (c : Dev nD) (t : Fin cfg0.N) : iblk0 V c 1 t = V c main_arg7 := by
  obtain ⟨-, -, e0, e1, -⟩ := idx_zero0 t
  funext j
  show V c main_arg7 (((cfg0.win 1).blk t).view.emb j) = V c main_arg7 j
  refine congrArg (V c main_arg7) ?_
  funext a; apply Fin.ext
  match a with
  | ⟨0, _⟩ => show win0_1.index t (0 : Fin 2) * 20 + 1 * (j 0).val = (j 0).val; omega
  | ⟨1, _⟩ => show win0_1.index t (1 : Fin 2) * 1024 + 1 * (j 1).val = (j 1).val; omega

/-- The index bias's block is the array. -/
theorem iblk0_2 (c : Dev nD) (t : Fin cfg0.N) : iblk0 V c 2 t = V c main_arg8 := by
  obtain ⟨-, -, -, -, e0, -⟩ := idx_zero0 t
  funext j
  show V c main_arg8 (((cfg0.win 2).blk t).view.emb j) = V c main_arg8 j
  refine congrArg (V c main_arg8) ?_
  funext a; apply Fin.ext
  match a with
  | ⟨0, _⟩ => show win0_2.index t (0 : Fin 1) * 20 + 1 * (j 0).val = (j 0).val; omega

/-- An element of a mask window's block sits in the array at its own coordinates. -/
theorem emb0_3 (t : Fin cfg0.N) (j : ((cfg0.win 3).xblock (cfg0.grid.coords t)).Idx) :
    ((cfg0.win 3).blk t).view.emb j = j := by
  obtain ⟨-, -, -, -, -, e0, e1, -⟩ := idx_zero0 t
  funext a; apply Fin.ext
  match a with
  | ⟨0, _⟩ => show win0_3.index t (0 : Fin 2) * 1024 + 1 * (j 0).val = (j 0).val; omega
  | ⟨1, _⟩ => show win0_3.index t (1 : Fin 2) * 128 + 1 * (j 1).val = (j 1).val; omega
theorem emb0_4 (t : Fin cfg0.N) (j : ((cfg0.win 4).xblock (cfg0.grid.coords t)).Idx) :
    ((cfg0.win 4).blk t).view.emb j = j := by
  obtain ⟨-, -, -, -, -, -, -, e0, e1⟩ := idx_zero0 t
  funext a; apply Fin.ext
  match a with
  | ⟨0, _⟩ => show win0_4.index t (0 : Fin 2) * 1024 + 1 * (j 0).val = (j 0).val; omega
  | ⟨1, _⟩ => show win0_4.index t (1 : Fin 2) * 128 + 1 * (j 1).val = (j 1).val; omega

/-- What the point writes back to the first mask's array is the (one, whole) block of the first mask payload of the
    three input arrays. -/
theorem flushed0_3_eq (c : Dev nD) (t : Fin cfg0.N) :
    (dat0 V c).flushed 3 t = ((cfg0.win 3).blk t).view.read (Elt F)
      (k0_pay1 (F := F) (k0_pay6 (F := F) (V c main_arg1) (V c main_arg7) (V c main_arg8))) := by
  show (cfg0.win 3).cut (grid0.coords t) ((dat0 V c).after 3 t) = _
  rw [after0_3]
  unfold out0_3
  rw [View.canon_unit_zero hz2]
  rw [View.ld_unit_zero (S := S128x1024) hz2, View.ld_unit_zero (S := S20x1024) hz2, View.ld_unit_zero (S := S20) hz1]
  rw [iblk0_0, iblk0_1, iblk0_2]
  funext j
  show k0_pay1 (F := F) (k0_pay6 (F := F) (V c main_arg1) (V c main_arg7) (V c main_arg8)) j
    = k0_pay1 (F := F) (k0_pay6 (F := F) (V c main_arg1) (V c main_arg7) (V c main_arg8)) (((cfg0.win 3).blk t).view.emb j)
  rw [emb0_3]

/-- What the point writes back to the second mask's array. -/
theorem flushed0_4_eq (c : Dev nD) (t : Fin cfg0.N) :
    (dat0 V c).flushed 4 t = ((cfg0.win 4).blk t).view.read (Elt F)
      (k0_pay2 (F := F) (k0_pay5 (F := F) (V c main_arg1) (V c main_arg7) (V c main_arg8))
        (iota .tc S1024x128 32 [0] iota_S1024x128_d0_w32)) := by
  show (cfg0.win 4).cut (grid0.coords t) ((dat0 V c).after 4 t) = _
  rw [after0_4]
  unfold out0_4
  rw [View.canon_unit_zero hz2]
  rw [View.ld_unit_zero (S := S128x1024) hz2, View.ld_unit_zero (S := S20x1024) hz2, View.ld_unit_zero (S := S20) hz1]
  rw [iblk0_0, iblk0_1, iblk0_2]
  funext j
  show k0_pay2 (F := F) (k0_pay5 (F := F) (V c main_arg1) (V c main_arg7) (V c main_arg8))
      (iota .tc S1024x128 32 [0] iota_S1024x128_d0_w32) j
    = k0_pay2 (F := F) (k0_pay5 (F := F) (V c main_arg1) (V c main_arg7) (V c main_arg8))
      (iota .tc S1024x128 32 [0] iota_S1024x128_d0_w32) (((cfg0.win 4).blk t).view.emb j)
  rw [emb0_4]

/-- An index of a mask's array is in the point's block iff each coordinate is in the block's range on its axis. -/
theorem mem_blk0_3 (t : Fin cfg0.N) (i : S1024x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v0_0).slice (win0_3.rect t)).set ↔ _
  rw [View.set_slice_whole, Rect.mem_set_unit]
  exact Iff.rfl
theorem mem_blk0_4 (t : Fin cfg0.N) (i : S1024x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v0_1).slice (win0_4.rect t)).set ↔ _
  rw [View.set_slice_whole, Rect.mem_set_unit]
  exact Iff.rfl

/-- The first mask's array after the region. -/
theorem arr0_3 (c : Dev nD) :
    (dat0 V c).arrAt 3 cfg0.N = k0_pay1 (F := F) (k0_pay6 (F := F) (V c main_arg1) (V c main_arg7) (V c main_arg8)) := by
  refine (dat0 V c).arrAt_eq_of_cover 3 _ (fun t _ => flushed0_3_eq V c t) fun i => ?_
  obtain ⟨-, -, -, -, -, e0, e1, -⟩ := idx_zero0 t0_0
  refine ⟨t0_0, flush0_3 t0_0, ?_⟩
  have hi0 : (i 0).val < 1024 := (i 0).isLt
  have hi1 : (i 1).val < 128 := (i 1).isLt
  rw [mem_blk0_3]
  intro a
  match a with
  | ⟨0, _⟩ => show win0_3.index t0_0 (0 : Fin 2) * 1024 ≤ (i 0).val ∧ (i 0).val < win0_3.index t0_0 (0 : Fin 2) * 1024 + 1024; omega
  | ⟨1, _⟩ => show win0_3.index t0_0 (1 : Fin 2) * 128 ≤ (i 1).val ∧ (i 1).val < win0_3.index t0_0 (1 : Fin 2) * 128 + 128; omega

/-- The second mask's array after the region. -/
theorem arr0_4 (c : Dev nD) :
    (dat0 V c).arrAt 4 cfg0.N = k0_pay2 (F := F) (k0_pay5 (F := F) (V c main_arg1) (V c main_arg7) (V c main_arg8))
      (iota .tc S1024x128 32 [0] iota_S1024x128_d0_w32) := by
  refine (dat0 V c).arrAt_eq_of_cover 4 _ (fun t _ => flushed0_4_eq V c t) fun i => ?_
  obtain ⟨-, -, -, -, -, -, -, e0, e1⟩ := idx_zero0 t0_0
  refine ⟨t0_0, flush0_4 t0_0, ?_⟩
  have hi0 : (i 0).val < 1024 := (i 0).isLt
  have hi1 : (i 1).val < 128 := (i 1).isLt
  rw [mem_blk0_4]
  intro a
  match a with
  | ⟨0, _⟩ => show win0_4.index t0_0 (0 : Fin 2) * 1024 ≤ (i 0).val ∧ (i 0).val < win0_4.index t0_0 (0 : Fin 2) * 1024 + 1024; omega
  | ⟨1, _⟩ => show win0_4.index t0_0 (1 : Fin 2) * 128 ≤ (i 1).val ∧ (i 1).val < win0_4.index t0_0 (1 : Fin 2) * 128 + 128; omega

/-! ## The recurrent kernel's region -/

/-- The printed index maps of region 1, decided over its 128 points: every window but the three walked in row
    blocks has block index 0 on every axis at every point. -/
theorem idx_zero1 : ∀ t : Fin cfg1.N,
    win1_0.index t (0 : Fin 2) = 0
    ∧ win1_0.index t (1 : Fin 2) = 0
    ∧ win1_1.index t (0 : Fin 2) = 0
    ∧ win1_1.index t (1 : Fin 2) = 0
    ∧ win1_5.index t (0 : Fin 2) = 0
    ∧ win1_5.index t (1 : Fin 2) = 0
    ∧ win1_6.index t (0 : Fin 1) = 0
    ∧ win1_7.index t (0 : Fin 2) = 0
    ∧ win1_7.index t (1 : Fin 2) = 0
    ∧ win1_8.index t (0 : Fin 1) = 0
    ∧ win1_9.index t (0 : Fin 2) = 0
    ∧ win1_9.index t (1 : Fin 2) = 0
    ∧ win1_10.index t (0 : Fin 1) = 0
    ∧ win1_11.index t (0 : Fin 2) = 0
    ∧ win1_11.index t (1 : Fin 2) = 0
    ∧ win1_12.index t (0 : Fin 1) = 0
    ∧ win1_13.index t (0 : Fin 1) = 0
    ∧ win1_14.index t (0 : Fin 1) = 0
    ∧ win1_15.index t (0 : Fin 2) = 0
    ∧ win1_15.index t (1 : Fin 2) = 0 :=
  (by decide +kernel : ∀ t : Fin grid1.N, _)

/-- The memory tensor's and the two masks' block index at point t is (t, 0, 0), resp. (t, 0). -/
theorem idx_rows1 : ∀ t : Fin cfg1.N,
    win1_2.index t (0 : Fin 3) = t.val ∧ win1_2.index t (1 : Fin 3) = 0 ∧ win1_2.index t (2 : Fin 3) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The input's block is the array, at every point. -/
theorem iblk1_0 (c : Dev nD) (t : Fin cfg1.N) : iblk1 V c 0 t = V c main_arg0 := by
  obtain ⟨e0, e1, -⟩ := idx_zero1 t
  funext j
  show V c main_arg0 (((cfg1.win 0).blk t).view.emb j) = V c main_arg0 j
  refine congrArg (V c main_arg0) ?_
  funext a; apply Fin.ext
  match a with
  | ⟨0, _⟩ => show win1_0.index t (0 : Fin 2) * 128 + 1 * (j 0).val = (j 0).val; omega
  | ⟨1, _⟩ => show win1_0.index t (1 : Fin 2) * 1024 + 1 * (j 1).val = (j 1).val; omega

/-- The previous state's block is the array, at every point. -/
theorem iblk1_1 (c : Dev nD) (t : Fin cfg1.N) : iblk1 V c 1 t = V c main_arg1 := by
  obtain ⟨-, -, e0, e1, -⟩ := idx_zero1 t
  funext j
  show V c main_arg1 (((cfg1.win 1).blk t).view.emb j) = V c main_arg1 j
  refine congrArg (V c main_arg1) ?_
  funext a; apply Fin.ext
  match a with
  | ⟨0, _⟩ => show win1_1.index t (0 : Fin 2) * 128 + 1 * (j 0).val = (j 0).val; omega
  | ⟨1, _⟩ => show win1_1.index t (1 : Fin 2) * 1024 + 1 * (j 1).val = (j 1).val; omega

/-- The input weights' block is the array, at every point. -/
theorem iblk1_5 (c : Dev nD) (t : Fin cfg1.N) : iblk1 V c 5 t = V c main_arg3 := by
  obtain ⟨-, -, -, -, e0, e1, -⟩ := idx_zero1 t
  funext j
  show V c main_arg3 (((cfg1.win 5).blk t).view.emb j) = V c main_arg3 j
  refine congrArg (V c main_arg3) ?_
  funext a; apply Fin.ext
  match a with
  | ⟨0, _⟩ => show win1_5.index t (0 : Fin 2) * 1024 + 1 * (j 0).val = (j 0).val; omega
  | ⟨1, _⟩ => show win1_5.index t (1 : Fin 2) * 1024 + 1 * (j 1).val = (j 1).val; omega

/-- The input bias's block is the array, at every point. -/
theorem iblk1_6 (c : Dev nD) (t : Fin cfg1.N) : iblk1 V c 6 t = V c main_arg4 := by
  obtain ⟨-, -, -, -, -, -, e0, -⟩ := idx_zero1 t
  funext j
  show V c main_arg4 (((cfg1.win 6).blk t).view.emb j) = V c main_arg4 j
  refine congrArg (V c main_arg4) ?_
  funext a; apply Fin.ext
  match a with
  | ⟨0, _⟩ => show win1_6.index t (0 : Fin 1) * 1024 + 1 * (j 0).val = (j 0).val; omega

/-- The state weights' block is the array, at every point. -/
theorem iblk1_7 (c : Dev nD) (t : Fin cfg1.N) : iblk1 V c 7 t = V c main_arg5 := by
  obtain ⟨-, -, -, -, -, -, -, e0, e1, -⟩ := idx_zero1 t
  funext j
  show V c main_arg5 (((cfg1.win 7).blk t).view.emb j) = V c main_arg5 j
  refine congrArg (V c main_arg5) ?_
  funext a; apply Fin.ext
  match a with
  | ⟨0, _⟩ => show win1_7.index t (0 : Fin 2) * 1024 + 1 * (j 0).val = (j 0).val; omega
  | ⟨1, _⟩ => show win1_7.index t (1 : Fin 2) * 1024 + 1 * (j 1).val = (j 1).val; omega

/-- The state bias's block is the array, at every point. -/
theorem iblk1_8 (c : Dev nD) (t : Fin cfg1.N) : iblk1 V c 8 t = V c main_arg6 := by
  obtain ⟨-, -, -, -, -, -, -, -, -, e0, -⟩ := idx_zero1 t
  funext j
  show V c main_arg6 (((cfg1.win 8).blk t).view.emb j) = V c main_arg6 j
  refine congrArg (V c main_arg6) ?_
  funext a; apply Fin.ext
  match a with
  | ⟨0, _⟩ => show win1_8.index t (0 : Fin 1) * 1024 + 1 * (j 0).val = (j 0).val; omega

/-- The recent-memory weights' block is the array, at every point. -/
theorem iblk1_9 (c : Dev nD) (t : Fin cfg1.N) : iblk1 V c 9 t = V c main_arg9 := by
  obtain ⟨-, -, -, -, -, -, -, -, -, -, e0, e1, -⟩ := idx_zero1 t
  funext j
  show V c main_arg9 (((cfg1.win 9).blk t).view.emb j) = V c main_arg9 j
  refine congrArg (V c main_arg9) ?_
  funext a; apply Fin.ext
  match a with
  | ⟨0, _⟩ => show win1_9.index t (0 : Fin 2) * 1024 + 1 * (j 0).val = (j 0).val; omega
  | ⟨1, _⟩ => show win1_9.index t (1 : Fin 2) * 1024 + 1 * (j 1).val = (j 1).val; omega

/-- The recent-memory bias's block is the array, at every point. -/
theorem iblk1_10 (c : Dev nD) (t : Fin cfg1.N) : iblk1 V c 10 t = V c main_arg10 := by
  obtain ⟨-, -, -, -, -, -, -, -, -, -, -, -, e0, -⟩ := idx_zero1 t
  funext j
  show V c main_arg10 (((cfg1.win 10).blk t).view.emb j) = V c main_arg10 j
  refine congrArg (V c main_arg10) ?_
  funext a; apply Fin.ext
  match a with
  | ⟨0, _⟩ => show win1_10.index t (0 : Fin 1) * 1024 + 1 * (j 0).val = (j 0).val; omega

/-- The long-memory weights' block is the array, at every point. -/
theorem iblk1_11 (c : Dev nD) (t : Fin cfg1.N) : iblk1 V c 11 t = V c main_arg11 := by
  obtain ⟨-, -, -, -, -, -, -, -, -, -, -, -, -, e0, e1, -⟩ := idx_zero1 t
  funext j
  show V c main_arg11 (((cfg1.win 11).blk t).view.emb j) = V c main_arg11 j
  refine congrArg (V c main_arg11) ?_
  funext a; apply Fin.ext
  match a with
  | ⟨0, _⟩ => show win1_11.index t (0 : Fin 2) * 1024 + 1 * (j 0).val = (j 0).val; omega
  | ⟨1, _⟩ => show win1_11.index t (1 : Fin 2) * 1024 + 1 * (j 1).val = (j 1).val; omega

/-- The long-memory bias's block is the array, at every point. -/
theorem iblk1_12 (c : Dev nD) (t : Fin cfg1.N) : iblk1 V c 12 t = V c main_arg12 := by
  obtain ⟨-, -, -, -, -, -, -, -, -, -, -, -, -, -, -, e0, -⟩ := idx_zero1 t
  funext j
  show V c main_arg12 (((cfg1.win 12).blk t).view.emb j) = V c main_arg12 j
  refine congrArg (V c main_arg12) ?_
  funext a; apply Fin.ext
  match a with
  | ⟨0, _⟩ => show win1_12.index t (0 : Fin 1) * 1024 + 1 * (j 0).val = (j 0).val; omega

/-- The gain's block is the array, at every point. -/
theorem iblk1_13 (c : Dev nD) (t : Fin cfg1.N) : iblk1 V c 13 t = V c main_arg13 := by
  obtain ⟨-, -, -, -, -, -, -, -, -, -, -, -, -, -, -, -, e0, -⟩ := idx_zero1 t
  funext j
  show V c main_arg13 (((cfg1.win 13).blk t).view.emb j) = V c main_arg13 j
  refine congrArg (V c main_arg13) ?_
  funext a; apply Fin.ext
  match a with
  | ⟨0, _⟩ => show win1_13.index t (0 : Fin 1) * 1024 + 1 * (j 0).val = (j 0).val; omega

/-- The shift's block is the array, at every point. -/
theorem iblk1_14 (c : Dev nD) (t : Fin cfg1.N) : iblk1 V c 14 t = V c main_arg14 := by
  obtain ⟨-, -, -, -, -, -, -, -, -, -, -, -, -, -, -, -, -, e0, -⟩ := idx_zero1 t
  funext j
  show V c main_arg14 (((cfg1.win 14).blk t).view.emb j) = V c main_arg14 j
  refine congrArg (V c main_arg14) ?_
  funext a; apply Fin.ext
  match a with
  | ⟨0, _⟩ => show win1_14.index t (0 : Fin 1) * 1024 + 1 * (j 0).val = (j 0).val; omega

/-- An element of the output window's block sits in the array at its own coordinates. -/
theorem emb1_15 (t : Fin cfg1.N) (j : ((cfg1.win 15).xblock (cfg1.grid.coords t)).Idx) :
    ((cfg1.win 15).blk t).view.emb j = j := by
  obtain ⟨-, -, -, -, -, -, -, -, -, -, -, -, -, -, -, -, -, -, e0, e1⟩ := idx_zero1 t
  funext a; apply Fin.ext
  match a with
  | ⟨0, _⟩ => show win1_15.index t (0 : Fin 2) * 128 + 1 * (j 0).val = (j 0).val; omega
  | ⟨1, _⟩ => show win1_15.index t (1 : Fin 2) * 1024 + 1 * (j 1).val = (j 1).val; omega

/-- The last point of the grid. -/
def ptLast : Fin cfg1.N := ⟨127, by rw [show cfg1.N = 128 from N_1]; norm_num⟩

/-- A point that writes the output back is the last one. -/
theorem val_of_flush1_15 (t : Fin cfg1.N) (hf : (cfg1.win 15).flush t = true) : t.val = 127 := by
  have h := (flush1_15 t).mp hf
  have hlt : t.val < 128 := lt_of_lt_of_eq t.isLt (show cfg1.N = 128 from N_1)
  omega

/-- What a point that writes back writes to the output array: the (one, whole) block of the last step's payload of the
    whole input arrays and the two running sums after point 127. -/
theorem flushed1_15_eq (c : Dev nD) (t : Fin cfg1.N) (hf : (cfg1.win 15).flush t = true) :
    (dat1 V c).flushed 15 t = ((cfg1.win 15).blk t).view.read (Elt F)
      (outF (F := F) (V c main_arg0) (V c main_arg1) (accR V c 127) (accL V c 127) (V c main_arg3) (V c main_arg4)
        (V c main_arg5) (V c main_arg6) (V c main_arg9) (V c main_arg10) (V c main_arg11) (V c main_arg12)
        (V c main_arg13) (V c main_arg14)) := by
  have ht : t.val = 127 := val_of_flush1_15 t hf
  show (cfg1.win 15).cut (grid1.coords t) ((dat1 V c).after 15 t) = _
  rw [after1_15, ht, iblk1_0, iblk1_1, iblk1_5, iblk1_6, iblk1_7, iblk1_8, iblk1_9, iblk1_10, iblk1_11, iblk1_12,
    iblk1_13, iblk1_14]
  funext j
  show outF (F := F) (V c main_arg0) (V c main_arg1) (accR V c 127) (accL V c 127) (V c main_arg3) (V c main_arg4)
        (V c main_arg5) (V c main_arg6) (V c main_arg9) (V c main_arg10) (V c main_arg11) (V c main_arg12)
        (V c main_arg13) (V c main_arg14) j
    = outF (F := F) (V c main_arg0) (V c main_arg1) (accR V c 127) (accL V c 127) (V c main_arg3) (V c main_arg4)
        (V c main_arg5) (V c main_arg6) (V c main_arg9) (V c main_arg10) (V c main_arg11) (V c main_arg12)
        (V c main_arg13) (V c main_arg14) (((cfg1.win 15).blk t).view.emb j)
  rw [emb1_15]

/-- An index of the output array is in a point's block iff each coordinate is in the block's range on its axis. -/
theorem mem_blk1_15 (t : Fin cfg1.N) (i : S128x1024.Idx) :
    i ∈ ((cfg1.win 15).blk t).view.set ↔ ∀ a : Fin 2, win1_15.index t a * S128x1024.size a ≤ (i a).val ∧ (i a).val < win1_15.index t a * S128x1024.size a + S128x1024.size a := by
  show i ∈ ((View.whole main_v1).slice (win1_15.rect t)).set ↔ _
  rw [View.set_slice_whole, Rect.mem_set_unit]
  exact Iff.rfl

/-- The output array after the region. -/
theorem arr1_15 (c : Dev nD) :
    (dat1 V c).arrAt 15 cfg1.N = outF (F := F) (V c main_arg0) (V c main_arg1) (accR V c 127) (accL V c 127)
      (V c main_arg3) (V c main_arg4) (V c main_arg5) (V c main_arg6) (V c main_arg9) (V c main_arg10) (V c main_arg11)
      (V c main_arg12) (V c main_arg13) (V c main_arg14) := by
  refine (dat1 V c).arrAt_eq_of_cover 15 _ (fun t hf => flushed1_15_eq V c t hf) fun i => ?_
  obtain ⟨-, -, -, -, -, -, -, -, -, -, -, -, -, -, -, -, -, -, e0, e1⟩ := idx_zero1 ptLast
  refine ⟨ptLast, (flush1_15 ptLast).mpr (by show 127 % 128 = 127; norm_num), ?_⟩
  have hi0 : (i 0).val < 128 := (i 0).isLt
  have hi1 : (i 1).val < 1024 := (i 1).isLt
  rw [mem_blk1_15]
  intro a
  match a with
  | ⟨0, _⟩ => show win1_15.index ptLast (0 : Fin 2) * 128 ≤ (i 0).val ∧ (i 0).val < win1_15.index ptLast (0 : Fin 2) * 128 + 128; omega
  | ⟨1, _⟩ => show win1_15.index ptLast (1 : Fin 2) * 1024 ≤ (i 1).val ∧ (i 1).val < win1_15.index ptLast (1 : Fin 2) * 1024 + 1024; omega

/-! ## The row blocks of the memory tensor and of the two masks -/

/-- Point n of the grid is n itself, for n below 128. -/
theorem ptAt_val_of_lt (n : ℕ) (hn : n < 128) : (ptAt n).val = n := Nat.mod_eq_of_lt hn

/-- Element (s, b, k) of the memory block at point n is element (8n + s, b, k) of the memory tensor. -/
theorem blk_mem (c : Dev nD) (n : ℕ) (hn : n < 128) (s : Fin 8) (b : Fin 128) (k : Fin 1024) :
    iblk1 V c 2 (ptAt n) (ix3 s b k) = V c main_arg2 (ix3 ⟨8 * n + s.val, by omega⟩ b k) := by
  obtain ⟨e0, e1, e2, -⟩ := idx_rows1 (ptAt n)
  have hp := ptAt_val_of_lt n hn
  show V c main_arg2 (((cfg1.win 2).blk (ptAt n)).view.emb (ix3 s b k)) = _
  refine congrArg (V c main_arg2) ?_
  funext a; apply Fin.ext
  match a with
  | ⟨0, _⟩ => show win1_2.index (ptAt n) (0 : Fin 3) * 8 + 1 * s.val = 8 * n + s.val; omega
  | ⟨1, _⟩ => show win1_2.index (ptAt n) (1 : Fin 3) * 128 + 1 * b.val = b.val; omega
  | ⟨2, _⟩ => show win1_2.index (ptAt n) (2 : Fin 3) * 1024 + 1 * k.val = k.val; omega

/-- Element (s, b) of the first mask's block at point n is element (8n + s, b) of the first mask. -/
theorem blk_oh1 (c : Dev nD) (n : ℕ) (hn : n < 128) (s : Fin 8) (b : Fin 128) :
    iblk1 V c 3 (ptAt n) (ix2 s b) = V c main_v0_0 (ix2 ⟨8 * n + s.val, by omega⟩ b) := by
  obtain ⟨-, -, -, e0, e1, -⟩ := idx_rows1 (ptAt n)
  have hp := ptAt_val_of_lt n hn
  show V c main_v0_0 (((cfg1.win 3).blk (ptAt n)).view.emb (ix2 s b)) = _
  refine congrArg (V c main_v0_0) ?_
  funext a; apply Fin.ext
  match a with
  | ⟨0, _⟩ => show win1_3.index (ptAt n) (0 : Fin 2) * 8 + 1 * s.val = 8 * n + s.val; omega
  | ⟨1, _⟩ => show win1_3.index (ptAt n) (1 : Fin 2) * 128 + 1 * b.val = b.val; omega

/-- Element (s, b) of the second mask's block at point n is element (8n + s, b) of the second mask. -/
theorem blk_oh2 (c : Dev nD) (n : ℕ) (hn : n < 128) (s : Fin 8) (b : Fin 128) :
    iblk1 V c 4 (ptAt n) (ix2 s b) = V c main_v0_1 (ix2 ⟨8 * n + s.val, by omega⟩ b) := by
  obtain ⟨-, -, -, -, -, e0, e1⟩ := idx_rows1 (ptAt n)
  have hp := ptAt_val_of_lt n hn
  show V c main_v0_1 (((cfg1.win 4).blk (ptAt n)).view.emb (ix2 s b)) = _
  refine congrArg (V c main_v0_1) ?_
  funext a; apply Fin.ext
  match a with
  | ⟨0, _⟩ => show win1_4.index (ptAt n) (0 : Fin 2) * 8 + 1 * s.val = 8 * n + s.val; omega
  | ⟨1, _⟩ => show win1_4.index (ptAt n) (1 : Fin 2) * 128 + 1 * b.val = b.val; omega

end Blocks

end Cert.KernelIdeal.Hand

end
-- ==== Proof.Spec.lean ====
/-
  The recurrent cell with a binary-addressed memory, as ONE function of its fifteen argument arrays, entry by entry,
  over the extended reals.

  A batch row b of the previous hidden state gives twenty logits  h(b,·)·Mw(j,·) + Mb(j).  The first ten and the last ten
  are each read as a ten-bit code word, most significant bit first, a bit being one where its logit is positive
  (which is where the logistic function of the logit exceeds one half).  Each code word, converted to a 32-bit
  integer and clamped to [0, 1023], names a row of the memory tensor; the two rows read at batch position b are
  the "recent" and the "long" memories of that batch row.

  The pre-activation is the sum of four affine maps (of the input, the previous state, and the two memories), each a
  product with a transposed weight matrix plus a bias, grouped ((a + b) + c) + d.  It is normalised over the
  trailing axis (mean and variance over 1024 entries, an epsilon under the reciprocal square root, a gain and
  a shift per column) and passed through the logistic function.
-/
import Idealize.ShloMosaic.PureOps.Ideal
import Idealize.ShloMosaic.Lib.ValueIdx

noncomputable section

open scoped BigOperators

namespace Cert.RnnSpec

open Idealize.ShloMosaic Idealize.ShloMosaic.ValueIdx

abbrev Mat128x1024 : Type := (⟨2, ![128, 1024]⟩ : Shape).Idx → EReal
abbrev Mat1024x1024 : Type := (⟨2, ![1024, 1024]⟩ : Shape).Idx → EReal
abbrev Mat20x1024 : Type := (⟨2, ![20, 1024]⟩ : Shape).Idx → EReal
abbrev Ten1024x128x1024 : Type := (⟨3, ![1024, 128, 1024]⟩ : Shape).Idx → EReal
abbrev Vec1024 : Type := (⟨1, ![1024]⟩ : Shape).Idx → EReal
abbrev Vec20 : Type := (⟨1, ![20]⟩ : Shape).Idx → EReal

/-- The logit of batch row `b` at unit `j`: the row of `h` against row `j` of `Mw`, plus the bias. -/
def logit (h : Mat128x1024) (Mw : Mat20x1024) (Mb : Vec20) (b : Fin 128) (j : Fin 20) : EReal :=
  (∑ k : Fin 1024, h (ix2 b k) * Mw (ix2 j k)) + Mb (ix1 j)

/-- A hard bit: one where the logit is positive, zero elsewhere. -/
def bit (z : EReal) : EReal := if 0 < z then 1 else 0

/-- The ten-bit code word read from units `o … o+9`, most significant first: Σ_j bit_j · 2^(9-j). -/
def code (h : Mat128x1024) (Mw : Mat20x1024) (Mb : Vec20) (o : ℕ) (ho : o + 10 ≤ 20) (b : Fin 128) : EReal :=
  ∑ j : Fin 10, bit (logit h Mw Mb b ⟨o + j.val, by omega⟩) * (((2 : ℝ) ^ (9 - j.val) : ℝ) : EReal)

/-- A code word as a 32-bit integer (rounded toward zero), clamped below at 0 and above at 1023. -/
def slotWord (z : EReal) : BitVec 32 := IntOp.minsi 1023#32 (IntOp.maxsi 0#32 (Ideal.fptosi 32 z))

/-- The memory row a code word names.  (The clamped word is below 1024; the remainder only makes the definition total.) -/
def slot (z : EReal) : Fin 1024 := ⟨(slotWord z).toNat % 1024, Nat.mod_lt _ (by norm_num)⟩

/-- The memory row selected for batch position `b` by the code word at units `o … o+9`, at column `k`. -/
def picked (h : Mat128x1024) (Mw : Mat20x1024) (Mb : Vec20) (mem : Ten1024x128x1024) (o : ℕ) (ho : o + 10 ≤ 20)
    (b : Fin 128) (k : Fin 1024) : EReal :=
  mem (ix3 (slot (code h Mw Mb o ho b)) b k)

/-- An affine map against a transposed weight matrix: Σ_k a(b,k)·W(n,k) + bias(n). -/
def dense (a : Fin 128 → Fin 1024 → EReal) (W : Mat1024x1024) (bias : Vec1024) (b : Fin 128) (n : Fin 1024) : EReal :=
  (∑ k : Fin 1024, a b k * W (ix2 n k)) + bias (ix1 n)

/-- The pre-activation from the input, the previous state and two given memory rows, grouped ((a + b) + c) + d. -/
def preOf (x h : Mat128x1024) (r l : Fin 128 → Fin 1024 → EReal)
    (Ww : Mat1024x1024) (Wb : Vec1024) (Uw : Mat1024x1024) (Ub : Vec1024)
    (Qrw : Mat1024x1024) (Qrb : Vec1024) (Qlw : Mat1024x1024) (Qlb : Vec1024) (b : Fin 128) (n : Fin 1024) : EReal :=
  ((dense (fun b k => x (ix2 b k)) Ww Wb b n + dense (fun b k => h (ix2 b k)) Uw Ub b n) + dense r Qrw Qrb b n)
    + dense l Qlw Qlb b n

/-- The mean of 1024 entries: their sum divided by the float 1024. -/
def mean (f : Fin 1024 → EReal) : EReal := Ideal.div (∑ n : Fin 1024, f n) (Ideal.ofBits .f32 0x44800000#32)

/-- Normalisation of one row `p` over its 1024 entries, gain `g`, shift `s`, then the logistic function. -/
def normed (p : Fin 1024 → EReal) (g s : Vec1024) (n : Fin 1024) : EReal :=
  Ideal.logistic
    ((p n - mean p) * Ideal.rsqrt (mean (fun q => (p q - mean p) * (p q - mean p)) + Ideal.ofBits .f32 0x3727C5AC#32)
      * g (ix1 n) + s (ix1 n))

/-- The cell's output from the input, the previous state and two GIVEN memory rows. -/
def outOf (x h : Mat128x1024) (r l : Fin 128 → Fin 1024 → EReal)
    (Ww : Mat1024x1024) (Wb : Vec1024) (Uw : Mat1024x1024) (Ub : Vec1024)
    (Qrw : Mat1024x1024) (Qrb : Vec1024) (Qlw : Mat1024x1024) (Qlb : Vec1024) (g s : Vec1024)
    (b : Fin 128) (n : Fin 1024) : EReal :=
  normed (preOf x h r l Ww Wb Uw Ub Qrw Qrb Qlw Qlb b) g s n

/-- The cell's output as a function of the fifteen argument arrays (in the programs' argument order). -/
def out (x h : Mat128x1024) (mem : Ten1024x128x1024) (Ww : Mat1024x1024) (Wb : Vec1024) (Uw : Mat1024x1024) (Ub : Vec1024)
    (Mw : Mat20x1024) (Mb : Vec20) (Qrw : Mat1024x1024) (Qrb : Vec1024) (Qlw : Mat1024x1024) (Qlb : Vec1024) (g s : Vec1024)
    (b : Fin 128) (n : Fin 1024) : EReal :=
  outOf x h (picked h Mw Mb mem 0 (by norm_num)) (picked h Mw Mb mem 10 (by norm_num))
    Ww Wb Uw Ub Qrw Qrb Qlw Qlb g s b n

end Cert.RnnSpec

end
-- ==== Proof.IndexWords.lean ====
/-
  The 32-bit words of the index kernel, one at a time, at the ideal values.

  * Bit weights: the word 1 shifted left by 9 - j, for j < 10, is the integer 2^(9-j); converted to a float it is
    the real 2^(9-j).  (Ten cases, each a computation on words.)
  * A hard bit: comparing an extended real z with the zero literal by "greater than" gives a one-bit word; widened to
    32 bits and converted it is the real 1 where 0 < z and the real 0 elsewhere.
  * Clamping: a word a clamped below at 0 and above at 1023 (signed comparisons) is, read as a natural number, below
    1024.  If a is negative the lower clamp gives 0; otherwise a is its own natural number, and the upper clamp gives
    1023 when a exceeds 1023 and a itself (at most 1023) when not.
  * The mask: for a row number T < 1024 and a word w below 1024, the word of T equals w exactly when T is w's number
    (the word of T has number T, since T < 2^32, and w is the word of its own number).  The equality test, widened and
    converted, is therefore the indicator of T = (number of w) mod 1024.
-/
import proofs.«136845_j56873956934278_1_alg».proof.Proof.Spec
import Idealize.ShloMosaic.PureOps.Ideal.Laws

noncomputable section

open scoped BigOperators

namespace Cert.IndexWords

open Idealize.ShloMosaic Idealize.ShloMosaic.ValueIdx Cert

/-- The word 1 shifted left by 9 - j, read as a signed integer and cast, is the real 2^(9-j). -/
theorem pow_word (j : Fin 10) :
    (FloatOps.sitofp (F := Ideal) .f32 (IntOp.shli .vector 1#32 (IntOp.subi 9#32 (BitVec.ofNat 32 j.val))) : EReal)
      = (((2 : ℝ) ^ (9 - j.val) : ℝ) : EReal) := by
  have h : (IntOp.shli .vector 1#32 (IntOp.subi 9#32 (BitVec.ofNat 32 j.val))).toInt = ((2 ^ (9 - j.val) : ℕ) : ℤ) := by
    revert j; decide
  show (((IntOp.shli .vector 1#32 (IntOp.subi 9#32 (BitVec.ofNat 32 j.val))).toInt : ℝ) : EReal) = _
  rw [h]
  push_cast
  rfl

/-- A comparison "greater than the zero literal", widened and converted, is the hard bit. -/
theorem bit_word (z : EReal) :
    (FloatOps.sitofp (F := Ideal) .f32
      ((FloatOps.cmpf (F := Ideal) (φ := .f32) .ogt z (Scalar.ofBits (F := Ideal) .f32 0x00000000#32)).setWidth 32) : EReal)
      = RnnSpec.bit z := by
  show ((((Ideal.cmp .ogt z (Ideal.ofBits .f32 0x00000000#32)).setWidth 32).toInt : ℝ) : EReal) = _
  rw [Ideal.ofBits_zero_f32]
  unfold RnnSpec.bit Ideal.cmp
  by_cases h : (0 : EReal) < z
  · simp [h]
  · simp [h]

/-- A word clamped into [0, 1023] is below 1024 as a natural number. -/
theorem clamp_lt (a : BitVec 32) : (IntOp.minsi 1023#32 (IntOp.maxsi 0#32 a)).toNat < 1024 := by
  unfold IntOp.minsi IntOp.maxsi
  by_cases h1 : a.slt 0#32
  · rw [if_pos h1]
    decide
  · rw [if_neg h1]
    by_cases h2 : (1023#32).slt a
    · rw [if_pos h2]; decide
    · rw [if_neg h2]
      rw [BitVec.slt_iff_toInt_lt] at h1 h2
      have e0 : (0#32 : BitVec 32).toInt = 0 := by decide
      have e1 : (1023#32 : BitVec 32).toInt = 1023 := by decide
      rw [e0] at h1
      rw [e1] at h2
      have := BitVec.toInt_eq_toNat_cond a
      have hlt := a.isLt
      split at this <;> omega

/-- Equality of the word of a row number below 1024 with a clamped word is equality of the numbers. -/
theorem onehot_word (T : Fin 1024) (a : BitVec 32) :
    (FloatOps.sitofp (F := Ideal) .f32
      ((IntOp.cmpi .eq (BitVec.ofNat 32 T.val) (IntOp.minsi 1023#32 (IntOp.maxsi 0#32 a))).setWidth 32) : EReal)
      = if T = (⟨(IntOp.minsi 1023#32 (IntOp.maxsi 0#32 a)).toNat % 1024, Nat.mod_lt _ (by norm_num)⟩ : Fin 1024) then 1 else 0 := by
  have hlt := clamp_lt a
  generalize IntOp.minsi 1023#32 (IntOp.maxsi 0#32 a) = w at hlt ⊢
  show ((((IntOp.cmpi .eq (BitVec.ofNat 32 T.val) w).setWidth 32).toInt : ℝ) : EReal) = _
  have hiff : BitVec.ofNat 32 T.val = w ↔ T = (⟨w.toNat % 1024, Nat.mod_lt _ (by norm_num)⟩ : Fin 1024) := by
    constructor
    · intro h
      apply Fin.ext
      show T.val = w.toNat % 1024
      rw [← h, BitVec.toNat_ofNat]
      have := T.isLt
      omega
    · intro h
      have hv : T.val = w.toNat % 1024 := congrArg Fin.val h
      rw [Nat.mod_eq_of_lt hlt] at hv
      rw [hv]
      exact BitVec.ofNat_toNat _ _ |>.trans (by simp)
  show ((((BitVec.ofBool (BitVec.ofNat 32 T.val == w)).setWidth 32).toInt : ℝ) : EReal) = _
  cases hb : (BitVec.ofNat 32 T.val == w)
  · have h : ¬BitVec.ofNat 32 T.val = w := fun h' => by rw [h', beq_self_eq_true] at hb; exact Bool.noConfusion hb
    rw [if_neg (fun h' => h (hiff.mpr h'))]
    have e : ((BitVec.ofBool false).setWidth 32).toInt = 0 := by decide
    rw [e, Int.cast_zero, EReal.coe_zero]
  · have h : BitVec.ofNat 32 T.val = w := eq_of_beq hb
    rw [if_pos (hiff.mp h)]
    have e : ((BitVec.ofBool true).setWidth 32).toInt = 1 := by decide
    rw [e, Int.cast_one, EReal.coe_one]

end Cert.IndexWords

end
-- ==== Proof.LibLaneProduct.lean ====
/-
  A matrix product whose two operands are BOTH contracted along their lanes.

  For `A : [a, k]` and `B : [n, k]` the product with dimension numbers "contract axis 1 of the left operand
  with axis 1 of the right, rows of the left first, rows of the right second" is the matrix `A · Bᵀ` : [a, n],
  entry `(p, c)` being Σ_q A(p, q) · B(c, q) — row `c` of `B` itself, no transpose taken. Here that is read at
  an entry written by its coordinates, at the ideal values (where a product into a zero accumulator is the
  plain sum and the operands' float formats do not matter), for a kernel's product into the zero splat and
  for the host's product, generic in the three extents.
-/
import Idealize.ShloMosaic.PureOps.Ideal.Laws
import Idealize.ShloMosaic.Lib.ValueIdx

noncomputable section

namespace Cert.LibLaneProduct

open Idealize.ShloMosaic Idealize.ShloMosaic.ValueIdx

variable {a k n : ℕ}

/-- The dimension numbers: contract the lanes of both operands; the result's rows are the left operand's rows, its
    lanes the right operand's rows. (A printed record with these six lists is this one, by unfolding.) -/
def lanes (wf : DotDims.WF (⟨2, ![a, k]⟩ : Shape) ⟨2, ![n, k]⟩ ⟨2, ![a, n]⟩ [1] [1] [0] [0] [] []) :
    DotDims (⟨2, ![a, k]⟩ : Shape) ⟨2, ![n, k]⟩ ⟨2, ![a, n]⟩ where
  lhsContracting := [1]
  rhsContracting := [1]
  lhsNonContracting := [0]
  rhsNonContracting := [0]
  lhsBatch := []
  rhsBatch := []
  wf := wf

variable (wf : DotDims.WF (⟨2, ![a, k]⟩ : Shape) ⟨2, ![n, k]⟩ ⟨2, ![a, n]⟩ [1] [1] [0] [0] [] [])

/-- The left operand's row is the result's row. -/
theorem lhs_row (i : (⟨2, ![a, n]⟩ : Shape).Idx) (q : (lanes wf).contr.Idx) :
    ((lanes wf).lhsIdx i q 0).val = (i 0).val := by
  unfold DotDims.lhsIdx
  rw [dif_neg (show ¬(0 : Fin (⟨2, ![a, k]⟩ : Shape).rank) ∈ (lanes wf).lhsBatch from List.not_mem_nil),
    dif_pos (show (0 : Fin (⟨2, ![a, k]⟩ : Shape).rank) ∈ (lanes wf).lhsNonContracting from List.mem_singleton.mpr rfl)]
  rfl

/-- The left operand's lane is the contraction position. -/
theorem lhs_lane (i : (⟨2, ![a, n]⟩ : Shape).Idx) (q : (lanes wf).contr.Idx) :
    ((lanes wf).lhsIdx i q 1).val = (q ⟨0, Nat.one_pos⟩).val :=
  (lanes wf).lhsIdx_val_of_single rfl i q

/-- The right operand's row is the result's lane. -/
theorem rhs_row (i : (⟨2, ![a, n]⟩ : Shape).Idx) (q : (lanes wf).contr.Idx) :
    ((lanes wf).rhsIdx i q 0).val = (i 1).val := by
  unfold DotDims.rhsIdx
  rw [dif_neg (show ¬(0 : Fin (⟨2, ![n, k]⟩ : Shape).rank) ∈ (lanes wf).rhsBatch from List.not_mem_nil),
    dif_pos (show (0 : Fin (⟨2, ![n, k]⟩ : Shape).rank) ∈ (lanes wf).rhsNonContracting from List.mem_singleton.mpr rfl)]
  rfl

/-- The right operand's lane is the contraction position. -/
theorem rhs_lane (i : (⟨2, ![a, n]⟩ : Shape).Idx) (q : (lanes wf).contr.Idx) :
    ((lanes wf).rhsIdx i q 1).val = (q ⟨0, Nat.one_pos⟩).val :=
  (lanes wf).rhsIdx_val_of_single rfl i q

/-- The sum over the contraction index of the operands at the product's index maps is the sum over the lanes. -/
theorem sum_lanes (A : (⟨2, ![a, k]⟩ : Shape).Idx → EReal) (B : (⟨2, ![n, k]⟩ : Shape).Idx → EReal) (p : Fin a) (c : Fin n) :
    (∑ q : (lanes wf).contr.Idx, A ((lanes wf).lhsIdx (ix2 p c) q) * B ((lanes wf).rhsIdx (ix2 p c) q))
      = ∑ q : Fin k, A (ix2 p q) * B (ix2 c q) := by
  rw [← Equiv.sum_comp (contrEquiv1 (lanes wf) k rfl rfl).symm]
  refine Finset.sum_congr rfl fun q _ => ?_
  have hq := contrEquiv1_symm_val (lanes wf) k rfl rfl q
  have el : (lanes wf).lhsIdx (ix2 p c) ((contrEquiv1 (lanes wf) k rfl rfl).symm q) = ix2 p q := funext fun ax => Fin.ext (by
    match ax with
    | ⟨0, _⟩ => exact lhs_row wf _ _
    | ⟨1, _⟩ => exact (lhs_lane wf _ _).trans hq)
  have er : (lanes wf).rhsIdx (ix2 p c) ((contrEquiv1 (lanes wf) k rfl rfl).symm q) = ix2 c q := funext fun ax => Fin.ext (by
    match ax with
    | ⟨0, _⟩ => exact rhs_row wf _ _
    | ⟨1, _⟩ => exact (rhs_lane wf _ _).trans hq)
  rw [el, er]

/-- A KERNEL'S PRODUCT into the zero splat, at `(p, c)`: the sum over the lanes `q` of `A(p, q) · B(c, q)`. -/
theorem matmul_zero_apply {φ₁ φ₂ : FTy} (prec : Option ContractPrecision)
    (A : FVec Ideal (⟨2, ![a, k]⟩ : Shape) φ₁) (B : FVec Ideal (⟨2, ![n, k]⟩ : Shape) φ₂) (p : Fin a) (c : Fin n) :
    FloatOps.matmul (lanes wf) prec A B (constant (F := Ideal) ⟨2, ![a, n]⟩ .f32 0x00000000#32) (ix2 p c)
      = ∑ q : Fin k, A (ix2 p q) * B (ix2 c q) :=
  (Ideal.matmul_constant_zero_apply (lanes wf) prec A B (ix2 p c)).trans (sum_lanes wf A B p c)

/-- THE HOST'S PRODUCT with the same dimension numbers, at `(p, c)`: the same sum, whatever the schedule. -/
theorem dotGeneral_apply {φ₁ φ₂ : FTy} (prec : Option ContractPrecision) (sched : HostSchedule)
    (A : FVec Ideal (⟨2, ![a, k]⟩ : Shape) φ₁) (B : FVec Ideal (⟨2, ![n, k]⟩ : Shape) φ₂) (p : Fin a) (c : Fin n) :
    FloatOps.dotGeneral (lanes wf) prec sched A B (ix2 p c) = ∑ q : Fin k, A (ix2 p q) * B (ix2 c q) :=
  (Ideal.dotGeneral_apply (lanes wf) prec sched A B (ix2 p c)).trans (sum_lanes wf A B p c)

end Cert.LibLaneProduct

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibReduceRead.lean ====
/-
  Reductions of a matrix along one axis, read at an index, at the ideal instance and generic in the extents.

  * the sum of an [a, b] matrix along the rows (axis 0) at column e is the sum over the rows of the entries of column e;
  * the sum along the lanes (axis 1) at row r is the sum over the lanes of the entries of row r;
  * the sum, and the maximum started from the bottom element, of an [a, 1] column along its rows: the sum over the
    rows, and the fold of max over the rows.
  Each is the library's reading of a one-axis reduction (the reduced index with the coordinate put back on the dropped
  axis) with that index written by its coordinates.
-/
import Idealize.ShloMosaic.Lib.ValueIdx
import Idealize.ShloMosaic.PureOps.Ideal.Laws

noncomputable section

open scoped BigOperators

namespace Cert.LibReduceRead

open Idealize.ShloMosaic Idealize.ShloMosaic.ValueIdx

/-- Column sums: the sum along the rows, read at column e. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (e : Fin b) :
    multiReduction .add [0] ⟨1, ![b]⟩ X 0x00000000#32 h hφ hacc (ix1 e) = ∑ s : Fin a, X (ix2 s e) := by
  refine (Ideal.multiReduction_add_single X _ h hφ hacc (ix1 e)).trans ?_
  show ∑ s : Fin a, _ = _
  exact Finset.sum_congr rfl fun s _ => congrArg X (funext fun c => Fin.ext (by
    match c with
    | ⟨0, _⟩ => rfl
    | ⟨1, _⟩ => rfl))

/-- Row sums: the sum along the lanes, read at row r. -/
theorem rowSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ X 0x00000000#32 h hφ hacc (ix1 r) = ∑ k : Fin b, X (ix2 r k) := by
  refine (Ideal.multiReduction_add_single X _ h hφ hacc (ix1 r)).trans ?_
  show ∑ k : Fin b, _ = _
  exact Finset.sum_congr rfl fun k _ => congrArg X (funext fun c => Fin.ext (by
    match c with
    | ⟨0, _⟩ => rfl
    | ⟨1, _⟩ => rfl))

/-- The row index a one-entry result puts back under a column: (s, 0). -/
theorem lift_col {a : ℕ} (h : (⟨2, ![a, 1]⟩ : Shape).Reduces [0] ⟨1, ![1]⟩) (j : (⟨1, ![1]⟩ : Shape).Idx) (s : Fin a) :
    h.lift j s = ix2 s (0 : Fin 1) :=
  funext fun c => Fin.ext (by
    match c with
    | ⟨0, _⟩ => rfl
    | ⟨1, _⟩ =>
      show (j ⟨0, _⟩).val = 0
      have hj : (j ⟨0, Nat.one_pos⟩).val < 1 := (j ⟨0, Nat.one_pos⟩).isLt
      omega)

/-- The sum of a column along its rows. -/
theorem colSum1_apply {a : ℕ} (X : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ)
    (j : (⟨1, ![1]⟩ : Shape).Idx) :
    multiReduction .add [0] ⟨1, ![1]⟩ X 0x00000000#32 h hφ hacc j = ∑ s : Fin a, X (ix2 s (0 : Fin 1)) := by
  refine (Ideal.multiReduction_add_single X _ h hφ hacc j).trans ?_
  show ∑ s : Fin a, _ = _
  exact Finset.sum_congr rfl fun s _ => congrArg X (lift_col h j s)

/-- The maximum of a column along its rows, started from the bottom element's word: the fold of max over the rows. -/
theorem colMax1_apply {a : ℕ} (X : FVec Ideal ⟨2, ![a, 1]⟩ .f32) (h : (⟨2, ![a, 1]⟩ : Shape).Reduces [0] ⟨1, ![1]⟩)
    (hφ : FKind.Formats .f32) (hacc : (0xFF800000#32 : BitVec 32) = FKind.maximumf.neutral .f32 hφ)
    (j : (⟨1, ![1]⟩ : Shape).Idx) :
    multiReduction .maximumf [0] ⟨1, ![1]⟩ X 0xFF800000#32 h hφ hacc j
      = (Finset.univ : Finset (Fin a)).fold max (Ideal.ofBits .f32 0xFF800000#32) (fun s => X (ix2 s (0 : Fin 1))) := by
  refine (Ideal.multiReduction_maximumf_single X _ h hφ hacc j).trans ?_
  show (Finset.univ : Finset (Fin a)).fold max (Ideal.ofBits .f32 0xFF800000#32) _ = _
  exact congrArg (fun f => (Finset.univ : Finset (Fin a)).fold max (Ideal.ofBits .f32 0xFF800000#32) f)
    (funext fun s => congrArg X (lift_col h j s))

end Cert.LibReduceRead

end
-- ==== Proof.KerIndex.lean ====
/-
  The index kernel's two one-hot masks, read entry by entry at the ideal values.

  For batch row b the kernel forms twenty logits  h(b, .) . Mw(j, .) + Mb(j)  (a product contracted along the lanes
  of both operands into a zero accumulator, plus the bias laid along every row).  Columns 0..9 and columns 10..19 are
  each read as a code word: a bit is 1 where its logit exceeds the zero literal (the comparison, widened to 32 bits
  and converted, is the real 1 or 0), bit j is weighted by the word 1 shifted left by 9 - j (the real 2^(9-j)), and
  the ten products are summed along the lanes.  The sum is converted to a 32-bit integer toward zero and clamped to
  [0, 1023].

  The mask at (T, b) compares the row number T (an iota along the rows) with the clamped word of batch row b
  (the vector of words viewed as one row and repeated down the rows); widened and converted it is 1 where they are
  equal and 0 elsewhere.  Since the clamped word is a number below 1024 and T < 1024, equality of the two 32-bit words
  is equality of the numbers: the mask is the indicator of the memory row the code word names.
-/
import proofs.«136845_j56873956934278_1_alg».proof.Proof.Gen.KernelIdeal.Skeleton
import proofs.«136845_j56873956934278_1_alg».proof.Proof.Spec
import proofs.«136845_j56873956934278_1_alg».proof.Proof.IndexWords
import proofs.«136845_j56873956934278_1_alg».proof.Proof.LibLaneProduct
import proofs.«136845_j56873956934278_1_alg».proof.Proof.LibDense
import proofs.«136845_j56873956934278_1_alg».proof.Proof.LibReduceRead
import Idealize.ShloMosaic.Lib.ValueLayout

noncomputable section

open scoped BigOperators

namespace Cert.KerValue

open Cert.KernelIdeal Cert.KernelIdeal.Gen Idealize.ShloMosaic Idealize.ShloMosaic.ValueIdx Cert

/-- The twenty logits: entry (b, j) of the product plus bias is the specification's logit. -/
theorem logits_apply (v0 : Vec Ideal S128x1024 .f32) (v1 : Vec Ideal S20x1024 .f32) (v2 : Vec Ideal S20 .f32)
    (b : Fin 128) (j : Fin 20) :
    k0_pay3 (F := Ideal) v0 v1 v2 (ix2 b j) = RnnSpec.logit v0 v1 v2 b j := by
  unfold k0_pay3 RnnSpec.logit
  refine (addf_apply _ _ _).trans ?_
  refine congrArg₂ (· + ·) ?_ ?_
  · exact LibLaneProduct.matmul_zero_apply dot_S128x1024_S20x1024_S128x20_1_1_0_0_n_n_wf (some .fp32) v0 v1 b j
  · exact LibDense.bias_rows_kernel v2 shapeCasts_S20_S1x20 broadcasts_S1x20_S128x20 (ix2 b j)

/-- The row of bit weights: entry j is the real 2^(9-j). -/
theorem weights_apply (u : Fin 1) (j : Fin 10) :
    k0_pay4 (F := Ideal) (ix2 u j) = (((2 : ℝ) ^ (9 - j.val) : ℝ) : EReal) := by
  unfold k0_pay4
  have hi : iota .tc S1x10 32 [1] iota_S1x10_d1_w32 (ix2 u j) = BitVec.ofNat 32 j.val :=
    iota_single_apply .tc S1x10 32 1 iota_S1x10_d1_w32 (ix2 u j)
  show FloatOps.sitofp (F := Ideal) .f32
      (IntOp.shli .vector 1#32 (IntOp.subi 9#32 (iota .tc S1x10 32 [1] iota_S1x10_d1_w32 (ix2 u j)))) = _
  rw [hi]
  exact IndexWords.pow_word j

/-- A code word: ten columns of the logits from column o, thresholded, weighted and summed, converted and clamped,
    at batch row b, are the specification's clamped word of the code word at units o .. o+9. -/
theorem slotWord_apply (o : ℕ) (ho : o + 10 ≤ 20) (hs : S128x20.Slices ![0, o] S128x10)
    (v0 : Vec Ideal S128x1024 .f32) (v1 : Vec Ideal S20x1024 .f32) (v2 : Vec Ideal S20 .f32) (b : Fin 128) :
    minsi (broadcast S128 1023#32)
        (maxsi (broadcast S128 0#32)
          (fptosi (F := Ideal) 32
            (multiReduction (F := Ideal) .add [1] S128
              (mulf (F := Ideal)
                (sitofp (F := Ideal) .f32
                  (extui 32
                    (cmpf (F := Ideal) .ogt (extractStridedSlice S128x10 ![0, o] (k0_pay3 (F := Ideal) v0 v1 v2) hs)
                      (broadcast S128x10 (Scalar.ofBits (F := Ideal) .f32 0x00000000#32)))
                    natLt_1_32))
                (broadcastTo S128x10 (k0_pay4 (F := Ideal)) broadcasts_S1x10_S128x10))
              0x00000000#32 reduces_S128x10_S128 (.inl rfl) rfl))) (ix1 b)
      = RnnSpec.slotWord (RnnSpec.code v0 v1 v2 o ho b) := by
  unfold RnnSpec.slotWord
  refine congrArg (fun z => IntOp.minsi 1023#32 (IntOp.maxsi 0#32 (Ideal.fptosi 32 z))) ?_
  unfold RnnSpec.code
  refine (LibReduceRead.rowSum_apply _ reduces_S128x10_S128 (.inl rfl) rfl b).trans ?_
  refine Finset.sum_congr rfl fun j _ => ?_
  refine (mulf_apply _ _ _).trans ?_
  refine congrArg₂ (· * ·) ?_ ?_
  · refine (IndexWords.bit_word _).trans ?_
    refine congrArg RnnSpec.bit ?_
    refine (slice2_axis1_eq o _ hs b j).trans ?_
    exact logits_apply v0 v1 v2 b _
  · exact (broadcastTo_1b_ab_apply _ broadcasts_S1x10_S128x10 b j).trans (weights_apply 0 j)

/-- A mask: the row iota compared with a vector of words laid along every row, widened and converted, at (T, b),
    is the indicator of the row the word of batch row b names, when that word is the clamped word of z. -/
theorem onehot_of_word (w : IVec S128 32) (z : EReal) (T : Fin 1024) (b : Fin 128)
    (hw : w (ix1 b) = RnnSpec.slotWord z) :
    sitofp (F := Ideal) .f32
        (extui 32
          (cmpi .eq (iota .tc S1024x128 32 [0] iota_S1024x128_d0_w32)
            (broadcastTo S1024x128 (shapeCast S1x128 w shapeCasts_S128_S1x128) broadcasts_S1x128_S1024x128))
          natLt_1_32) (ix2 T b)
      = if T = RnnSpec.slot z then 1 else 0 := by
  have hi : iota .tc S1024x128 32 [0] iota_S1024x128_d0_w32 (ix2 T b) = BitVec.ofNat 32 T.val :=
    iota_single_apply .tc S1024x128 32 0 iota_S1024x128_d0_w32 (ix2 T b)
  have hb : broadcastTo S1024x128 (shapeCast S1x128 w shapeCasts_S128_S1x128) broadcasts_S1x128_S1024x128 (ix2 T b)
      = RnnSpec.slotWord z :=
    ((broadcastTo_1b_ab_apply _ broadcasts_S1x128_S1024x128 T b).trans
      (shapeCast_a_1a_apply w shapeCasts_S128_S1x128 0 b)).trans hw
  show FloatOps.sitofp (F := Ideal) .f32
      ((IntOp.cmpi .eq (iota .tc S1024x128 32 [0] iota_S1024x128_d0_w32 (ix2 T b))
        (broadcastTo S1024x128 (shapeCast S1x128 w shapeCasts_S128_S1x128) broadcasts_S1x128_S1024x128 (ix2 T b))).setWidth 32) = _
  rw [hi, hb]
  exact IndexWords.onehot_word T (Ideal.fptosi 32 z)

/-- The clamped word of the second code word, at batch row b. -/
theorem pay5_word (v0 : Vec Ideal S128x1024 .f32) (v1 : Vec Ideal S20x1024 .f32) (v2 : Vec Ideal S20 .f32) (b : Fin 128) :
    k0_pay5 (F := Ideal) v0 v1 v2 (ix1 b) = RnnSpec.slotWord (RnnSpec.code v0 v1 v2 10 (by norm_num) b) := by
  unfold k0_pay5
  exact slotWord_apply 10 (by norm_num) slices_S128x20_o0_10_S128x10 v0 v1 v2 b

/-- The "recent" mask is the indicator of the memory row the first code word names. -/
theorem onehot_recent (v0 : Vec Ideal S128x1024 .f32) (v1 : Vec Ideal S20x1024 .f32) (v2 : Vec Ideal S20 .f32)
    (T : Fin 1024) (b : Fin 128) :
    k0_pay1 (F := Ideal) (k0_pay6 (F := Ideal) v0 v1 v2) (ix2 T b)
      = if T = RnnSpec.slot (RnnSpec.code v0 v1 v2 0 (by norm_num) b) then 1 else 0 := by
  unfold k0_pay1 k0_pay6
  exact onehot_of_word _ _ T b (slotWord_apply 0 (by norm_num) slices_S128x20_o0_0_S128x10 v0 v1 v2 b)

/-- The "long" mask is the indicator of the memory row the second code word names. -/
theorem onehot_long (v0 : Vec Ideal S128x1024 .f32) (v1 : Vec Ideal S20x1024 .f32) (v2 : Vec Ideal S20 .f32)
    (T : Fin 1024) (b : Fin 128) :
    k0_pay2 (F := Ideal) (k0_pay5 (F := Ideal) v0 v1 v2) (iota .tc S1024x128 32 [0] iota_S1024x128_d0_w32) (ix2 T b)
      = if T = RnnSpec.slot (RnnSpec.code v0 v1 v2 10 (by norm_num) b) then 1 else 0 := by
  unfold k0_pay2
  exact onehot_of_word (k0_pay5 (F := Ideal) v0 v1 v2) _ T b (pay5_word v0 v1 v2 b)

end Cert.KerValue

end
-- ==== Proof.Rank3Read.lean ====
/-
  Three reads of a rank-3 array at an index written by its coordinates, generic in the extents.

  * an [a, b] matrix viewed as [a, b, 1] (a trailing unit axis added) reads, at (i, j, u), the matrix at (i, j):
    both sit at row-major position i * b + j;
  * an [a, b, 1] array repeated along its last axis to [a, b, c] reads, at (i, j, k), the array at (i, j, 0);
  * at the ideal values the sum of an [a, b, c] array along its leading axis, read at (j, k), is the sum over s of
    the entries (s, j, k).
-/
import Idealize.ShloMosaic.Lib.Pipeline.Value
import Idealize.ShloMosaic.Lib.ValueIdx
import Idealize.ShloMosaic.PureOps.Ideal.Laws

noncomputable section

open scoped BigOperators

namespace Cert.Rank3Read

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast along its last axis to `[a, b, c]` reads, at `(i, j, k)`, the operand at
    `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The sum of an `[a, b, c]` array along its leading axis, read at `(j, k)`: the sum over `s` of the entries
    `(s, j, k)`. -/
theorem sum0_apply {a b c : ℕ} (X : FVec Ideal ⟨3, ![a, b, c]⟩ .f32)
    (h : (⟨3, ![a, b, c]⟩ : Shape).Reduces [0] ⟨2, ![b, c]⟩)
    (hφ : FKind.Formats .f32) (hacc : (0x00000000#32 : BitVec 32) = FKind.add.neutral .f32 hφ) (j : Fin b) (k : Fin c) :
    multiReduction .add [0] ⟨2, ![b, c]⟩ X 0x00000000#32 h hφ hacc (ix2 j k) = ∑ s : Fin a, X (ix3 s j k) := by
  refine (Ideal.multiReduction_add_single X _ h hφ hacc (ix2 j k)).trans ?_
  show ∑ s : Fin a, _ = _
  exact Finset.sum_congr rfl fun s _ => congrArg X (funext fun d => Fin.ext (by
    match d with
    | ⟨0, _⟩ => rfl
    | ⟨1, _⟩ => rfl
    | ⟨2, _⟩ => rfl))

end Cert.Rank3Read

end
-- ==== Proof.LibSumBlocks.lean ====
/-
  A sum over all rows as a sum over row blocks.

  An array of `A·B` rows walked in `A` consecutive blocks of `B` rows: the sum over all rows of any quantity in a
  commutative monoid is the sum over the blocks of the sums inside each block, row `k·B + p` being row `p` of block
  `k`. A second form has the block index run over a range of naturals with a guard, the shape an induction over
  grid points produces. Generic in `A`, `B` and the monoid.
-/
import Mathlib.Algebra.BigOperators.Fin
import Mathlib.Logic.Equiv.Fin.Basic

namespace Cert.LibSumBlocks

open scoped BigOperators

variable {M : Type*} [AddCommMonoid M]

theorem row_lt {A B : ℕ} (k : Fin A) (p : Fin B) : k.val * B + p.val < A * B := by
  have hk := k.isLt
  have hp := p.isLt
  have h1 : k.val * B + p.val < k.val * B + B := by omega
  have h2 : k.val * B + B = (k.val + 1) * B := (Nat.succ_mul k.val B).symm
  have h3 : (k.val + 1) * B ≤ A * B := Nat.mul_le_mul_right B hk
  omega

/-- The sum over all `A·B` rows is the sum over blocks of the sums inside the blocks. -/
theorem sum_blocks (A B : ℕ) (f : Fin (A * B) → M) :
    ∑ r : Fin (A * B), f r = ∑ k : Fin A, ∑ p : Fin B, f ⟨k.val * B + p.val, row_lt k p⟩ := by
  rw [← Equiv.sum_comp finProdFinEquiv f, Fintype.sum_prod_type]
  refine Finset.sum_congr rfl fun k _ => Finset.sum_congr rfl fun p _ => congrArg f (Fin.ext ?_)
  show p.val + B * k.val = k.val * B + p.val
  rw [Nat.mul_comm, Nat.add_comm]

/-- The same with the block index running over a range of naturals under a guard. -/
theorem sum_blocks_range (A B : ℕ) (f : Fin (A * B) → M) :
    ∑ r : Fin (A * B), f r
      = ∑ k ∈ Finset.range A, if h : k < A then ∑ p : Fin B, f ⟨k * B + p.val, row_lt ⟨k, h⟩ p⟩ else 0 := by
  rw [sum_blocks, Finset.sum_range]
  refine Finset.sum_congr rfl fun k _ => ?_
  rw [dif_pos k.isLt]

end Cert.LibSumBlocks
-- ==== Proof.PickSum.lean ====
/-
  A one-hot weighted sum over 1024 rows, accumulated in 128 blocks of 8 rows, picks one row.

  Let m and o be functions of a row T < 1024 into the extended reals, o the indicator of one row c (o T = 1 at
  T = c, 0 elsewhere).  A running value a starts as 0 plus the block sum of block 0 and adds the block sum of block
  n + 1 at step n + 1, the block sum of block t being  sum_{s < 8} m(8t + s) * o(8t + s).  Then by induction
  a(n) is the sum of the block sums of blocks 0..n; at n = 127 the blocks exhaust the 1024 rows, so a(127) is
  sum_{T < 1024} m(T) * o(T), in which every term but the one at T = c is m(T) * 0 = 0 and the term at c is
  m(c) * 1 = m(c).  In the extended reals 0 * x = x * 0 = 0 for every x, infinite ones too, so nothing has to be finite.
-/
import Idealize.ShloMosaic.PureOps.Ideal
import proofs.«136845_j56873956934278_1_alg».proof.Proof.LibSumBlocks

noncomputable section

open scoped BigOperators

namespace Cert.PickSum

/-- The block sum of block `t`: rows `8t … 8t + 7`. -/
def blockSum (m o : Fin 1024 → EReal) (t : ℕ) (ht : t < 128) : EReal :=
  ∑ s : Fin 8, m ⟨8 * t + s.val, by omega⟩ * o ⟨8 * t + s.val, by omega⟩

/-- A sum against the indicator of one row is the entry of that row. -/
theorem sum_indicator (m o : Fin 1024 → EReal) (c : Fin 1024) (ho : ∀ T, o T = if T = c then 1 else 0) :
    ∑ T : Fin 1024, m T * o T = m c := by
  rw [Finset.sum_eq_single c]
  · rw [ho c, if_pos rfl, mul_one]
  · intro T _ hT
    rw [ho T, if_neg hT, mul_zero]
  · intro h
    exact absurd (Finset.mem_univ c) h

/-- All 128 block sums together are the sum over the 1024 rows. -/
theorem sum_blockSums (m o : Fin 1024 → EReal) :
    (∑ t ∈ Finset.range 128, if h : t < 128 then blockSum m o t h else 0) = ∑ T : Fin 1024, m T * o T := by
  have e := LibSumBlocks.sum_blocks_range 128 8
    (fun r : Fin (128 * 8) => m ⟨r.val, by have := r.isLt; omega⟩ * o ⟨r.val, by have := r.isLt; omega⟩)
  have e' : (∑ r : Fin (128 * 8), m ⟨r.val, by have := r.isLt; omega⟩ * o ⟨r.val, by have := r.isLt; omega⟩)
      = ∑ T : Fin 1024, m T * o T :=
    Fintype.sum_equiv (finCongr (by norm_num : 128 * 8 = 1024)) _ _ (fun _ => rfl)
  rw [← e', e]
  refine Finset.sum_congr rfl fun t _ => ?_
  by_cases h : t < 128
  · rw [dif_pos h, dif_pos h]
    unfold blockSum
    refine Finset.sum_congr rfl fun s _ => ?_
    have hi : (⟨8 * t + s.val, by omega⟩ : Fin 1024) = ⟨t * 8 + s.val, by omega⟩ := Fin.ext (by show 8 * t + s.val = t * 8 + s.val; omega)
    rw [hi]
  · rw [dif_neg h, dif_neg h]

/-- The running value after the last block is the picked row's entry. -/
theorem pick_of_blocks (m o : Fin 1024 → EReal) (c : Fin 1024) (ho : ∀ T, o T = if T = c then 1 else 0)
    (a : ℕ → EReal) (h0 : a 0 = 0 + blockSum m o 0 (by norm_num))
    (hs : ∀ n (hn : n + 1 < 128), a (n + 1) = a n + blockSum m o (n + 1) hn) : a 127 = m c := by
  have key : ∀ n, n < 128 → a n = ∑ t ∈ Finset.range (n + 1), if h : t < 128 then blockSum m o t h else 0 := by
    intro n
    induction n with
    | zero =>
      intro _
      rw [h0, zero_add, Finset.sum_range_one, dif_pos (by norm_num : 0 < 128)]
    | succ n ih =>
      intro hn
      rw [hs n hn, ih (by omega), Finset.sum_range_succ _ (n + 1), dif_pos hn]
  rw [key 127 (by norm_num), sum_blockSums, sum_indicator m o c ho]

end Cert.PickSum

end
-- ==== Proof.KerAcc.lean ====
/-
  The recurrent kernel's two accumulators, read entry by entry at the ideal values.

  Both accumulators start as the zero matrix.  At each grid point the kernel holds a block of 8 memory rows
  memblock(s, b, k) and the matching 8 rows of a one-hot mask maskblock(s, b), and adds to the accumulator's entry
  (b, k) the sum over s < 8 of memblock(s, b, k) * maskblock(s, b): the mask is viewed as [8, 128, 1], repeated along
  the last axis, multiplied in, and the product summed along its leading axis.

  Running over the 128 grid points, the blocks being consecutive groups of 8 of the 1024 memory rows and the mask
  being the indicator of row sigma(b) in column b, the accumulator's entry (b, k) ends as
  sum_{T < 1024} mem(T, b, k) * [T = sigma(b)] = mem(sigma(b), b, k): the one-hot sum picks the addressed row.
-/
import proofs.«136845_j56873956934278_1_alg».proof.Proof.Gen.KernelIdeal.Skeleton
import proofs.«136845_j56873956934278_1_alg».proof.Proof.Rank3Read
import proofs.«136845_j56873956934278_1_alg».proof.Proof.PickSum

noncomputable section

open scoped BigOperators

namespace Cert.KerValue

open Cert.KernelIdeal Cert.KernelIdeal.Gen Idealize.ShloMosaic Idealize.ShloMosaic.ValueIdx Cert

/-- The accumulation step at entry (b, k), whatever the mask: the old entry plus the block's weighted sum. -/
theorem acc_step (v3 : FVec Ideal S8x128x1024 .f32) (w : FVec Ideal S8x128 .f32) (a : FVec Ideal S128x1024 .f32)
    (b : Fin 128) (k : Fin 1024) :
    shapeCast S128x1024
        (addf (F := Ideal) a
          (multiReduction (F := Ideal) .add [0] S128x1024
            (mulf (F := Ideal) v3
              (broadcastTo S8x128x1024
                (shapeCast S8x128x1 (shapeCast S8x128 w shapeCasts_S8x128_S8x128) shapeCasts_S8x128_S8x128x1)
                broadcasts_S8x128x1_S8x128x1024))
            0x00000000#32 reduces_S8x128x1024_S128x1024 (.inl rfl) rfl))
        shapeCasts_S128x1024_S128x1024 (ix2 b k)
      = a (ix2 b k) + ∑ s : Fin 8, v3 (ix3 s b k) * w (ix2 s b) := by
  refine (congrFun (shapeCast_self _ shapeCasts_S128x1024_S128x1024) (ix2 b k)).trans ?_
  refine (addf_apply _ _ _).trans ?_
  refine congrArg (a (ix2 b k) + ·) ?_
  refine (Rank3Read.sum0_apply _ reduces_S8x128x1024_S128x1024 (.inl rfl) rfl b k).trans ?_
  refine Finset.sum_congr rfl fun s _ => ?_
  refine (mulf_apply _ _ _).trans ?_
  refine congrArg (v3 (ix3 s b k) * ·) ?_
  refine (Rank3Read.broadcastTo_ab1_abc_apply _ broadcasts_S8x128x1_S8x128x1024 s b k).trans ?_
  refine (Rank3Read.shapeCast_ab_ab1_apply _ shapeCasts_S8x128_S8x128x1 s b 0).trans ?_
  exact congrFun (shapeCast_self w shapeCasts_S8x128_S8x128) (ix2 s b)

/-- The "recent" accumulator's step. -/
theorem acc_step_r (v3 : Vec Ideal S8x128x1024 .f32) (v4 : Vec Ideal S8x128 .f32) (v8 : Vec Ideal S128x1024 .f32)
    (b : Fin 128) (k : Fin 1024) :
    k1_pay3 (F := Ideal) v3 v4 v8 (ix2 b k) = v8 (ix2 b k) + ∑ s : Fin 8, v3 (ix3 s b k) * v4 (ix2 s b) := by
  unfold k1_pay3
  exact acc_step v3 v4 v8 b k

/-- The "long" accumulator's step. -/
theorem acc_step_l (v3 : Vec Ideal S8x128x1024 .f32) (v6 : Vec Ideal S8x128 .f32) (v17 : Vec Ideal S128x1024 .f32)
    (b : Fin 128) (k : Fin 1024) :
    k1_pay4 (F := Ideal) v3 v6 v17 (ix2 b k) = v17 (ix2 b k) + ∑ s : Fin 8, v3 (ix3 s b k) * v6 (ix2 s b) := by
  unfold k1_pay4
  exact acc_step v3 v6 v17 b k

/-- The zero matrix an accumulator starts from. -/
theorem zero_splat (i : S128x1024.Idx) :
    shapeCast S128x1024 (broadcast S128x1024 (Scalar.ofBits (F := Ideal) .f32 0x00000000#32)) shapeCasts_S128x1024_S128x1024 i
      = 0 := by
  refine (congrFun (shapeCast_self _ shapeCasts_S128x1024_S128x1024) i).trans ?_
  exact Ideal.ofBits_zero_f32

theorem acc_zero_r (i : S128x1024.Idx) : k1_pay1 (F := Ideal) i = 0 := by
  unfold k1_pay1
  exact zero_splat i

theorem acc_zero_l (i : S128x1024.Idx) : k1_pay2 (F := Ideal) i = 0 := by
  unfold k1_pay2
  exact zero_splat i

/-- Over the 128 grid points the "recent" accumulator ends as the memory row the mask addresses. -/
theorem fold_pick_r (mem : Vec Ideal S1024x128x1024 .f32) (oh : Vec Ideal S1024x128 .f32) (σ : Fin 128 → Fin 1024)
    (hoh : ∀ T b, oh (ix2 T b) = if T = σ b then 1 else 0)
    (blk : ℕ → Vec Ideal S8x128x1024 .f32) (ohb : ℕ → Vec Ideal S8x128 .f32)
    (hblk : ∀ n (hn : n < 128) (s : Fin 8) (b : Fin 128) (k : Fin 1024), blk n (ix3 s b k) = mem (ix3 ⟨8 * n + s.val, by omega⟩ b k))
    (hohb : ∀ n (hn : n < 128) (s : Fin 8) (b : Fin 128), ohb n (ix2 s b) = oh (ix2 ⟨8 * n + s.val, by omega⟩ b))
    (acc : ℕ → Vec Ideal S128x1024 .f32)
    (h0 : acc 0 = k1_pay3 (F := Ideal) (blk 0) (ohb 0) (k1_pay1 (F := Ideal)))
    (hs : ∀ n, acc (n + 1) = k1_pay3 (F := Ideal) (blk (n + 1)) (ohb (n + 1)) (acc n))
    (b : Fin 128) (k : Fin 1024) : acc 127 (ix2 b k) = mem (ix3 (σ b) b k) := by
  refine PickSum.pick_of_blocks (fun T => mem (ix3 T b k)) (fun T => oh (ix2 T b)) (σ b) (fun T => hoh T b)
    (fun n => acc n (ix2 b k)) ?_ ?_
  · show acc 0 (ix2 b k) = 0 + PickSum.blockSum _ _ 0 _
    rw [h0, acc_step_r, acc_zero_r]
    refine congrArg (0 + ·) (Finset.sum_congr rfl fun s _ => ?_)
    rw [hblk 0 (by norm_num) s b k, hohb 0 (by norm_num) s b]
  · intro n hn
    show acc (n + 1) (ix2 b k) = acc n (ix2 b k) + PickSum.blockSum _ _ (n + 1) hn
    rw [hs n, acc_step_r]
    refine congrArg (acc n (ix2 b k) + ·) (Finset.sum_congr rfl fun s _ => ?_)
    rw [hblk (n + 1) hn s b k, hohb (n + 1) hn s b]

/-- Over the 128 grid points the "long" accumulator ends as the memory row the mask addresses. -/
theorem fold_pick_l (mem : Vec Ideal S1024x128x1024 .f32) (oh : Vec Ideal S1024x128 .f32) (σ : Fin 128 → Fin 1024)
    (hoh : ∀ T b, oh (ix2 T b) = if T = σ b then 1 else 0)
    (blk : ℕ → Vec Ideal S8x128x1024 .f32) (ohb : ℕ → Vec Ideal S8x128 .f32)
    (hblk : ∀ n (hn : n < 128) (s : Fin 8) (b : Fin 128) (k : Fin 1024), blk n (ix3 s b k) = mem (ix3 ⟨8 * n + s.val, by omega⟩ b k))
    (hohb : ∀ n (hn : n < 128) (s : Fin 8) (b : Fin 128), ohb n (ix2 s b) = oh (ix2 ⟨8 * n + s.val, by omega⟩ b))
    (acc : ℕ → Vec Ideal S128x1024 .f32)
    (h0 : acc 0 = k1_pay4 (F := Ideal) (blk 0) (ohb 0) (k1_pay2 (F := Ideal)))
    (hs : ∀ n, acc (n + 1) = k1_pay4 (F := Ideal) (blk (n + 1)) (ohb (n + 1)) (acc n))
    (b : Fin 128) (k : Fin 1024) : acc 127 (ix2 b k) = mem (ix3 (σ b) b k) := by
  refine PickSum.pick_of_blocks (fun T => mem (ix3 T b k)) (fun T => oh (ix2 T b)) (σ b) (fun T => hoh T b)
    (fun n => acc n (ix2 b k)) ?_ ?_
  · show acc 0 (ix2 b k) = 0 + PickSum.blockSum _ _ 0 _
    rw [h0, acc_step_l, acc_zero_l]
    refine congrArg (0 + ·) (Finset.sum_congr rfl fun s _ => ?_)
    rw [hblk 0 (by norm_num) s b k, hohb 0 (by norm_num) s b]
  · intro n hn
    show acc (n + 1) (ix2 b k) = acc n (ix2 b k) + PickSum.blockSum _ _ (n + 1) hn
    rw [hs n, acc_step_l]
    refine congrArg (acc n (ix2 b k) + ·) (Finset.sum_congr rfl fun s _ => ?_)
    rw [hblk (n + 1) hn s b k, hohb (n + 1) hn s b]

end Cert.KerValue

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.DenseLanes.lean ====
/-
  A dense layer against a transposed weight matrix, and the row statistics of a matrix, read entry by entry at
  the ideal values; generic in the extents.

  * The layer: for x : [A, K], w : [N, K] and bias : [N], the product of x and w contracted along the lanes of both
    (into a zero accumulator, the operands first narrowed to bf16, which changes nothing at the ideal values) plus
    the bias laid along every row has entry (p, c) equal to  sum_q x(p, q) * w(c, q) + bias(c).
  * The row mean kept as a column and repeated along the lanes: for V : [a, b] the lane sum of V, viewed as the
    column [a, 1], divided by a splat constant and repeated to [a, b], has entry (p, n) equal to
    (sum_q V(p, q)) / c, whatever n.
  * The same column with a second constant added and the reciprocal square root taken.
-/
import Idealize.ShloMosaic.Lib.ValueIdx
import Idealize.ShloMosaic.PureOps.Ideal.Laws
import proofs.«136845_j56873956934278_1_alg».proof.Proof.LibLaneProduct
import proofs.«136845_j56873956934278_1_alg».proof.Proof.LibDense
import proofs.«136845_j56873956934278_1_alg».proof.Proof.LibLayout
import proofs.«136845_j56873956934278_1_alg».proof.Proof.LibReduceRead

noncomputable section

open scoped BigOperators

namespace Cert.DenseLanes

open Idealize.ShloMosaic Idealize.ShloMosaic.ValueIdx

/-- The reciprocal square root of a vector, at an index. -/
theorem rsqrt_apply {s : Shape} {φ : FTy} (v : FVec Ideal s φ) (i : s.Idx) : rsqrt v i = Ideal.rsqrt (v i) := rfl

/-- The logistic function of a vector, at an index. -/
theorem logistic_apply {s : Shape} {φ : FTy} (v : FVec Ideal s φ) (i : s.Idx) : logistic v i = Ideal.logistic (v i) := rfl

/-- The dense layer against a transposed weight matrix, at entry (p, c). -/
theorem dense_apply {A K N : ℕ}
    (wf : DotDims.WF (⟨2, ![A, K]⟩ : Shape) ⟨2, ![N, K]⟩ ⟨2, ![A, N]⟩ [1] [1] [0] [0] [] [])
    (x : FVec Ideal ⟨2, ![A, K]⟩ .f32) (w : FVec Ideal ⟨2, ![N, K]⟩ .f32) (bias : FVec Ideal ⟨1, ![N]⟩ .f32)
    (hlt : FTy.bits .bf16 < FTy.bits .f32)
    (h1 : (⟨1, ![N]⟩ : Shape).ShapeCasts ⟨2, ![1, N]⟩) (hb : (⟨2, ![1, N]⟩ : Shape).Broadcasts ⟨2, ![A, N]⟩)
    (p : Fin A) (c : Fin N) :
    addf (F := Ideal)
        (matmul (F := Ideal) (LibLaneProduct.lanes wf) none (truncf .bf16 x hlt) (truncf .bf16 w hlt)
          (constant (F := Ideal) ⟨2, ![A, N]⟩ .f32 0x00000000#32))
        (broadcastTo ⟨2, ![A, N]⟩ (shapeCast ⟨2, ![1, N]⟩ bias h1) hb) (ix2 p c)
      = (∑ q : Fin K, x (ix2 p q) * w (ix2 c q)) + bias (ix1 c) := by
  refine (addf_apply _ _ _).trans ?_
  refine congrArg₂ (· + ·) ?_ ?_
  · exact LibLaneProduct.matmul_zero_apply wf none (truncf .bf16 x hlt) (truncf .bf16 w hlt) p c
  · exact LibDense.bias_rows_kernel bias h1 hb (ix2 p c)

/-- The product alone (no bias), at entry (p, c). -/
theorem product_apply {A K N : ℕ}
    (wf : DotDims.WF (⟨2, ![A, K]⟩ : Shape) ⟨2, ![N, K]⟩ ⟨2, ![A, N]⟩ [1] [1] [0] [0] [] [])
    (x : FVec Ideal ⟨2, ![A, K]⟩ .f32) (w : FVec Ideal ⟨2, ![N, K]⟩ .f32)
    (hlt : FTy.bits .bf16 < FTy.bits .f32) (p : Fin A) (c : Fin N) :
    matmul (F := Ideal) (LibLaneProduct.lanes wf) none (truncf .bf16 x hlt) (truncf .bf16 w hlt)
        (constant (F := Ideal) ⟨2, ![A, N]⟩ .f32 0x00000000#32) (ix2 p c)
      = ∑ q : Fin K, x (ix2 p q) * w (ix2 c q) :=
  LibLaneProduct.matmul_zero_apply wf none (truncf .bf16 x hlt) (truncf .bf16 w hlt) p c

/-- The row mean, kept as a column and repeated along the lanes, at entry (p, n). -/
theorem rowMean_apply {a b : ℕ} (V : FVec Ideal ⟨2, ![a, b]⟩ .f32) (c : BitVec 32)
    (hr : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (n : Fin b) :
    broadcastTo ⟨2, ![a, b]⟩
        (divf (F := Ideal)
          (shapeCast ⟨2, ![a, 1]⟩ (multiReduction (F := Ideal) .add [1] ⟨1, ![a]⟩ V 0x00000000#32 hr hφ hacc) hc)
          (broadcast ⟨2, ![a, 1]⟩ (Scalar.ofBits (F := Ideal) .f32 c))) hb (ix2 p n)
      = Ideal.div (∑ q : Fin b, V (ix2 p q)) (Ideal.ofBits .f32 c) := by
  refine (LibLayout.broadcastTo_a1_ab_apply _ hb p n).trans ?_
  refine (divf_apply _ _ _).trans ?_
  refine congrArg₂ Ideal.div ?_ rfl
  refine (LibLayout.shapeCast_a_a1_apply _ hc p 0).trans ?_
  exact LibReduceRead.rowSum_apply V hr hφ hacc p

/-- The reciprocal square root of (row mean plus a constant), kept as a column and repeated along the lanes, at
    entry (p, n). -/
theorem rowRsqrt_apply {a b : ℕ} (W : FVec Ideal ⟨2, ![a, b]⟩ .f32) (c e : BitVec 32)
    (hr : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (n : Fin b) :
    broadcastTo ⟨2, ![a, b]⟩
        (rsqrt (F := Ideal)
          (addf (F := Ideal)
            (divf (F := Ideal)
              (shapeCast ⟨2, ![a, 1]⟩ (multiReduction (F := Ideal) .add [1] ⟨1, ![a]⟩ W 0x00000000#32 hr hφ hacc) hc)
              (broadcast ⟨2, ![a, 1]⟩ (Scalar.ofBits (F := Ideal) .f32 c)))
            (broadcast ⟨2, ![a, 1]⟩ (Scalar.ofBits (F := Ideal) .f32 e)))) hb (ix2 p n)
      = Ideal.rsqrt (Ideal.div (∑ q : Fin b, W (ix2 p q)) (Ideal.ofBits .f32 c) + Ideal.ofBits .f32 e) := by
  refine (LibLayout.broadcastTo_a1_ab_apply _ hb p n).trans ?_
  refine (rsqrt_apply _ _).trans ?_
  refine congrArg Ideal.rsqrt ?_
  refine (addf_apply _ _ _).trans ?_
  refine congrArg₂ (· + ·) ?_ rfl
  refine (divf_apply _ _ _).trans ?_
  refine congrArg₂ Ideal.div ?_ rfl
  refine (LibLayout.shapeCast_a_a1_apply _ hc p 0).trans ?_
  exact LibReduceRead.rowSum_apply W hr hφ hacc p

end Cert.DenseLanes

end
-- ==== Proof.KerFinal.lean ====
/-
  The recurrent kernel's last step, read entry by entry at the ideal values.

  At the last grid point the kernel forms four affine maps against transposed weight matrices: of the input, of the
  previous state, and of the two accumulated memory rows r and l.  Each is a product contracted along the lanes of
  both operands into a zero accumulator (the operands narrowed to bf16 first, which changes nothing at the ideal
  values) plus a bias laid along every row, so its entry (b, n) is  sum_k a(b, k) * W(n, k) + bias(n).  The kernel
  adds them as ((x-map + h-map) + r-map) + (l-product + l-bias), which is the specification's pre-activation.

  Row b of the pre-activation is then normalised: its mean is the lane sum divided by the float 1024, kept as a
  column and repeated along the lanes; the centred row is squared, averaged the same way, the float epsilon added and the
  reciprocal square root taken; the centred row times that, times the gain of the column, plus the shift of the column,
  goes through the logistic function.  Entry (b, n) of the result depends on row b of the pre-activation only, and is
  the specification's normalisation of that row at n.
-/
import proofs.«136845_j56873956934278_1_alg».proof.Proof.Gen.KernelIdeal.Skeleton
import proofs.«136845_j56873956934278_1_alg».proof.Proof.Spec
import proofs.«136845_j56873956934278_1_alg».proof.Proof.DenseLanes
import Idealize.ShloMosaic.Lib.ValueLayout

noncomputable section

open scoped BigOperators

namespace Cert.KerValue

open Cert.KernelIdeal Cert.KernelIdeal.Gen Idealize.ShloMosaic Idealize.ShloMosaic.ValueIdx Cert

/-- The sum of the first three affine maps at entry (b, n). -/
theorem pay6_apply (x h r : Vec Ideal S128x1024 .f32) (Ww Uw Qrw : Vec Ideal S1024x1024 .f32)
    (Wb Ub Qrb : Vec Ideal S1024 .f32) (b : Fin 128) (n : Fin 1024) :
    k1_pay6 (F := Ideal) x h r Ww Uw Qrw Wb Ub Qrb (ix2 b n)
      = (RnnSpec.dense (fun b k => x (ix2 b k)) Ww Wb b n + RnnSpec.dense (fun b k => h (ix2 b k)) Uw Ub b n)
          + RnnSpec.dense (fun b k => r (ix2 b k)) Qrw Qrb b n := by
  unfold k1_pay6 RnnSpec.dense
  refine (addf_apply _ _ _).trans ?_
  refine congrArg₂ (· + ·) ?_ ?_
  · refine (addf_apply _ _ _).trans ?_
    refine congrArg₂ (· + ·) ?_ ?_
    · exact DenseLanes.dense_apply dot_S128x1024_S1024x1024_S128x1024_1_1_0_0_n_n_wf x Ww Wb bitsLt_bf16_f32
        shapeCasts_S1024_S1x1024 broadcasts_S1x1024_S128x1024 b n
    · exact DenseLanes.dense_apply dot_S128x1024_S1024x1024_S128x1024_1_1_0_0_n_n_wf h Uw Ub bitsLt_bf16_f32
        shapeCasts_S1024_S1x1024 broadcasts_S1x1024_S128x1024 b n
  · exact DenseLanes.dense_apply dot_S128x1024_S1024x1024_S128x1024_1_1_0_0_n_n_wf r Qrw Qrb bitsLt_bf16_f32
      shapeCasts_S1024_S1x1024 broadcasts_S1x1024_S128x1024 b n

/-- The fourth product at entry (b, n). -/
theorem pay7_apply (l : Vec Ideal S128x1024 .f32) (Qlw : Vec Ideal S1024x1024 .f32) (b : Fin 128) (n : Fin 1024) :
    k1_pay7 (F := Ideal) l Qlw (ix2 b n) = ∑ k : Fin 1024, l (ix2 b k) * Qlw (ix2 n k) := by
  unfold k1_pay7
  exact DenseLanes.product_apply dot_S128x1024_S1024x1024_S128x1024_1_1_0_0_n_n_wf l Qlw bitsLt_bf16_f32 b n

/-- The fourth bias as one row, at column n. -/
theorem pay8_apply (Qlb : Vec Ideal S1024 .f32) (u : Fin 1) (n : Fin 1024) :
    k1_pay8 (F := Ideal) Qlb (ix2 u n) = Qlb (ix1 n) := by
  unfold k1_pay8
  exact shapeCast_a_1a_apply Qlb shapeCasts_S1024_S1x1024 u n

/-- The normalisation: entry (b, n) of the kernel's result is the specification's normalisation of row b of
    the pre-activation  v61 + (v62 + the row v64 laid along every row). -/
theorem pay5_apply (v61 v62 : FVec Ideal S128x1024 .f32) (v64 : FVec Ideal S1x1024 .f32) (g s : Vec Ideal S1024 .f32)
    (b : Fin 128) (n : Fin 1024) :
    k1_pay5 (F := Ideal) v61 v62 v64 g s (ix2 b n)
      = RnnSpec.normed (fun q => v61 (ix2 b q) + (v62 (ix2 b q) + v64 (ix2 (0 : Fin 1) q))) g s n := by
  unfold k1_pay5
  -- the pre-activation as one matrix V, and its row b as the function p
  have hV : ∀ q : Fin 1024,
      addf (F := Ideal) v61 (addf (F := Ideal) v62 (broadcastTo S128x1024 v64 broadcasts_S1x1024_S128x1024)) (ix2 b q)
        = v61 (ix2 b q) + (v62 (ix2 b q) + v64 (ix2 (0 : Fin 1) q)) := fun q => by
    refine (addf_apply _ _ _).trans ?_
    refine congrArg (v61 (ix2 b q) + ·) ?_
    refine (addf_apply _ _ _).trans ?_
    exact congrArg (v62 (ix2 b q) + ·) (broadcastTo_1b_ab_apply v64 broadcasts_S1x1024_S128x1024 b q)
  generalize addf (F := Ideal) v61 (addf (F := Ideal) v62 (broadcastTo S128x1024 v64 broadcasts_S1x1024_S128x1024)) = V at hV ⊢
  generalize hp : (fun q : Fin 1024 => v61 (ix2 b q) + (v62 (ix2 b q) + v64 (ix2 (0 : Fin 1) q))) = p
  have hVp : ∀ q : Fin 1024, V (ix2 b q) = p q := fun q => (hV q).trans (congrFun hp q)
  -- the row mean and the centred row
  have hM : ∀ q : Fin 1024,
      broadcastTo S128x1024
          (divf (F := Ideal)
            (shapeCast S128x1 (multiReduction (F := Ideal) .add [1] S128 V 0x00000000#32 reduces_S128x1024_S128 (.inl rfl) rfl)
              shapeCasts_S128_S128x1)
            (broadcast S128x1 (Scalar.ofBits (F := Ideal) .f32 0x44800000#32))) broadcasts_S128x1_S128x1024 (ix2 b q)
        = RnnSpec.mean p := fun q => by
    refine (DenseLanes.rowMean_apply V 0x44800000#32 reduces_S128x1024_S128 (.inl rfl) rfl shapeCasts_S128_S128x1
      broadcasts_S128x1_S128x1024 b q).trans ?_
    unfold RnnSpec.mean
    exact congrArg (fun z => Ideal.div z (Ideal.ofBits .f32 0x44800000#32)) (Finset.sum_congr rfl fun k _ => hVp k)
  have hD : ∀ q : Fin 1024,
      subf (F := Ideal) V
          (broadcastTo S128x1024
            (divf (F := Ideal)
              (shapeCast S128x1 (multiReduction (F := Ideal) .add [1] S128 V 0x00000000#32 reduces_S128x1024_S128 (.inl rfl) rfl)
                shapeCasts_S128_S128x1)
              (broadcast S128x1 (Scalar.ofBits (F := Ideal) .f32 0x44800000#32))) broadcasts_S128x1_S128x1024) (ix2 b q)
        = p q - RnnSpec.mean p := fun q => by
    refine (subf_apply _ _ _).trans ?_
    exact congrArg₂ (· - ·) (hVp q) (hM q)
  generalize subf (F := Ideal) V
      (broadcastTo S128x1024
        (divf (F := Ideal)
          (shapeCast S128x1 (multiReduction (F := Ideal) .add [1] S128 V 0x00000000#32 reduces_S128x1024_S128 (.inl rfl) rfl)
            shapeCasts_S128_S128x1)
          (broadcast S128x1 (Scalar.ofBits (F := Ideal) .f32 0x44800000#32))) broadcasts_S128x1_S128x1024) = D at hD ⊢
  unfold RnnSpec.normed
  refine (DenseLanes.logistic_apply _ _).trans ?_
  refine congrArg Ideal.logistic ?_
  refine (addf_apply _ _ _).trans ?_
  refine congrArg₂ (· + ·) ?_ (LibDense.bias_rows_kernel s shapeCasts_S1024_S1x1024 broadcasts_S1x1024_S128x1024 (ix2 b n))
  refine (mulf_apply _ _ _).trans ?_
  refine congrArg₂ (· * ·) ?_ (LibDense.bias_rows_kernel g shapeCasts_S1024_S1x1024 broadcasts_S1x1024_S128x1024 (ix2 b n))
  refine (mulf_apply _ _ _).trans ?_
  refine congrArg₂ (· * ·) (hD n) ?_
  refine (DenseLanes.rowRsqrt_apply (mulf (F := Ideal) D D) 0x44800000#32 0x3727C5AC#32 reduces_S128x1024_S128 (.inl rfl) rfl
    shapeCasts_S128_S128x1 broadcasts_S128x1_S128x1024 b n).trans ?_
  refine congrArg Ideal.rsqrt ?_
  refine congrArg (· + Ideal.ofBits .f32 0x3727C5AC#32) ?_
  unfold RnnSpec.mean
  refine congrArg (fun z => Ideal.div z (Ideal.ofBits .f32 0x44800000#32)) (Finset.sum_congr rfl fun q _ => ?_)
  refine (mulf_apply _ _ _).trans ?_
  exact congrArg₂ (· * ·) (hD q) (hD q)

/-- The kernel's last step is the specification's cell output from the two given memory rows. -/
theorem final_eq (x h r l : Vec Ideal S128x1024 .f32) (Ww Uw Qrw Qlw : Vec Ideal S1024x1024 .f32)
    (Wb Ub Qrb Qlb g s : Vec Ideal S1024 .f32) (b : Fin 128) (n : Fin 1024) :
    k1_pay5 (F := Ideal) (k1_pay6 (F := Ideal) x h r Ww Uw Qrw Wb Ub Qrb) (k1_pay7 (F := Ideal) l Qlw) (k1_pay8 (F := Ideal) Qlb) g s (ix2 b n)
      = RnnSpec.outOf x h (fun b k => r (ix2 b k)) (fun b k => l (ix2 b k)) Ww Wb Uw Ub Qrw Qrb Qlw Qlb g s b n := by
  refine (pay5_apply _ _ _ g s b n).trans ?_
  unfold RnnSpec.outOf
  refine congrArg (fun p => RnnSpec.normed p g s n) (funext fun q => ?_)
  unfold RnnSpec.preOf
  refine congrArg₂ (· + ·) (pay6_apply x h r Ww Uw Qrw Wb Ub Qrb b q) ?_
  unfold RnnSpec.dense
  exact congrArg₂ (· + ·) (pay7_apply l Qlw b q) (pay8_apply Qlb 0 q)

end Cert.KerValue

end
-- ==== Proof.KernelIdeal.Value.lean ====
/-
  The recurrent region's output array is the specification's cell output, at the ideal values.

  The output array ends holding the last step's payload of the whole input arrays and of the two running sums after
  the last grid point.  Each running sum is the fold, over the 128 points, of "add the block's one-hot weighted sum":
  its blocks are consecutive groups of 8 rows of the memory tensor and of a mask, and the mask is the indicator of the
  memory row that a code word of the previous state names; so the sum's entry (b, k) is the memory tensor's entry
  (row named for b, b, k), the specification's picked row.  The last step's payload of the inputs and the two picked
  rows is the specification's output, entry by entry.
-/
import proofs.«136845_j56873956934278_1_alg».proof.Proof.KernelIdeal.Blocks
import proofs.«136845_j56873956934278_1_alg».proof.Proof.Spec
import proofs.«136845_j56873956934278_1_alg».proof.Proof.KerIndex
import proofs.«136845_j56873956934278_1_alg».proof.Proof.KerAcc
import proofs.«136845_j56873956934278_1_alg».proof.Proof.KerFinal

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert

/-- The first running sum after the last point is the memory row the first code word names. -/
theorem accR_picked (V : (c : Dev nD) → (b : Ref sig .tc) → Buf (Elt Ideal) ((c : Thread nD τ).loc b)) (c : Dev nD)
    (h : Vec Ideal S128x1024 .f32) (mem : Vec Ideal S1024x128x1024 .f32) (Mw : Vec Ideal S20x1024 .f32) (Mb : Vec Ideal S20 .f32)
    (h2 : V c main_arg2 = mem)
    (hoh1 : V c main_v0_0 = k0_pay1 (F := Ideal) (k0_pay6 (F := Ideal) h Mw Mb)) (b : Fin 128) (k : Fin 1024) :
    accR V c 127 (ix2 b k) = RnnSpec.picked h Mw Mb mem 0 (by norm_num) b k := by
  unfold RnnSpec.picked
  refine KerValue.fold_pick_r mem (V c main_v0_0) (fun b => RnnSpec.slot (RnnSpec.code h Mw Mb 0 (by norm_num) b)) ?_
    (fun n => iblk1 V c 2 (ptAt n)) (fun n => iblk1 V c 3 (ptAt n)) ?_ ?_ (accR V c) rfl (fun n => rfl) b k
  · intro T b
    rw [hoh1]
    exact KerValue.onehot_recent h Mw Mb T b
  · intro n hn s b k
    exact (blk_mem V c n hn s b k).trans (congrFun h2 _)
  · intro n hn s b
    exact blk_oh1 V c n hn s b

/-- The second running sum after the last point is the memory row the second code word names. -/
theorem accL_picked (V : (c : Dev nD) → (b : Ref sig .tc) → Buf (Elt Ideal) ((c : Thread nD τ).loc b)) (c : Dev nD)
    (h : Vec Ideal S128x1024 .f32) (mem : Vec Ideal S1024x128x1024 .f32) (Mw : Vec Ideal S20x1024 .f32) (Mb : Vec Ideal S20 .f32)
    (h2 : V c main_arg2 = mem)
    (hoh2 : V c main_v0_1 = k0_pay2 (F := Ideal) (k0_pay5 (F := Ideal) h Mw Mb) (iota .tc S1024x128 32 [0] iota_S1024x128_d0_w32))
    (b : Fin 128) (k : Fin 1024) :
    accL V c 127 (ix2 b k) = RnnSpec.picked h Mw Mb mem 10 (by norm_num) b k := by
  unfold RnnSpec.picked
  refine KerValue.fold_pick_l mem (V c main_v0_1) (fun b => RnnSpec.slot (RnnSpec.code h Mw Mb 10 (by norm_num) b)) ?_
    (fun n => iblk1 V c 2 (ptAt n)) (fun n => iblk1 V c 4 (ptAt n)) ?_ ?_ (accL V c) rfl (fun n => rfl) b k
  · intro T b
    rw [hoh2]
    exact KerValue.onehot_long h Mw Mb T b
  · intro n hn s b k
    exact (blk_mem V c n hn s b k).trans (congrFun h2 _)
  · intro n hn s b
    exact blk_oh2 V c n hn s b

/-- The output array after the recurrent region is the specification's output of the fifteen argument arrays. -/
theorem out_spec (V : (c : Dev nD) → (b : Ref sig .tc) → Buf (Elt Ideal) ((c : Thread nD τ).loc b)) (c : Dev nD)
    (x h : Vec Ideal S128x1024 .f32) (mem : Vec Ideal S1024x128x1024 .f32) (Ww : Vec Ideal S1024x1024 .f32) (Wb : Vec Ideal S1024 .f32)
    (Uw : Vec Ideal S1024x1024 .f32) (Ub : Vec Ideal S1024 .f32) (Mw : Vec Ideal S20x1024 .f32) (Mb : Vec Ideal S20 .f32)
    (Qrw : Vec Ideal S1024x1024 .f32) (Qrb : Vec Ideal S1024 .f32) (Qlw : Vec Ideal S1024x1024 .f32) (Qlb g s : Vec Ideal S1024 .f32)
    (h0 : V c main_arg0 = x) (h1 : V c main_arg1 = h) (h2 : V c main_arg2 = mem) (h3 : V c main_arg3 = Ww) (h4 : V c main_arg4 = Wb)
    (h5 : V c main_arg5 = Uw) (h6 : V c main_arg6 = Ub) (h9 : V c main_arg9 = Qrw) (h10 : V c main_arg10 = Qrb)
    (h11 : V c main_arg11 = Qlw) (h12 : V c main_arg12 = Qlb) (h13 : V c main_arg13 = g) (h14 : V c main_arg14 = s)
    (hoh1 : V c main_v0_0 = k0_pay1 (F := Ideal) (k0_pay6 (F := Ideal) h Mw Mb))
    (hoh2 : V c main_v0_1 = k0_pay2 (F := Ideal) (k0_pay5 (F := Ideal) h Mw Mb) (iota .tc S1024x128 32 [0] iota_S1024x128_d0_w32)) :
    (dat1 V c).arrAt 15 cfg1.N = fun i => RnnSpec.out x h mem Ww Wb Uw Ub Mw Mb Qrw Qrb Qlw Qlb g s (i 0) (i 1) := by
  rw [arr1_15 V c]
  funext i
  obtain ⟨b, n, rfl⟩ : ∃ (b : Fin 128) (n : Fin 1024), i = ix2 b n := ⟨i 0, i 1, eq_ix2 i⟩
  show outF (F := Ideal) (V c main_arg0) (V c main_arg1) (accR V c 127) (accL V c 127) (V c main_arg3) (V c main_arg4)
      (V c main_arg5) (V c main_arg6) (V c main_arg9) (V c main_arg10) (V c main_arg11) (V c main_arg12) (V c main_arg13)
      (V c main_arg14) (ix2 b n)
    = RnnSpec.out x h mem Ww Wb Uw Ub Mw Mb Qrw Qrb Qlw Qlb g s b n
  rw [h0, h1, h3, h4, h5, h6, h9, h10, h11, h12, h13, h14]
  unfold outF
  refine (KerValue.final_eq x h (accR V c 127) (accL V c 127) Ww Uw Qrw Qlw Wb Ub Qrb Qlb g s b n).trans ?_
  have hr : (fun b k => accR V c 127 (ix2 b k)) = RnnSpec.picked h Mw Mb mem 0 (by norm_num) :=
    funext fun b => funext fun k => accR_picked V c h mem Mw Mb h2 hoh1 b k
  have hl : (fun b k => accL V c 127 (ix2 b k)) = RnnSpec.picked h Mw Mb mem 10 (by norm_num) :=
    funext fun b => funext fun k => accL_picked V c h mem Mw Mb h2 hoh2 b k
  rw [hr, hl]
  rfl

end Cert.KernelIdeal.Hand

end
-- ==== Proof.KernelIdeal.Result.lean ====
/-
  The result array after the idealized kernel's run is the specification of the argument arrays.

  After both regions the result buffer holds what the second region's one write-back (at its last point) wrote.  The
  second region is entered from the launch memory with the two mask arrays at what the first region left: the
  argument arrays are still the launch contents, and the masks are the first region's payloads of the launch
  contents.  With those facts the second region's final array is `Cert.RnnSpec.out` of the arguments.
-/
import proofs.«136845_j56873956934278_1_alg».proof.Proof.KernelIdeal.Run
import proofs.«136845_j56873956934278_1_alg».proof.Proof.KernelIdeal.Value

set_option maxRecDepth 16384

noncomputable section

namespace Cert.KernelIdeal.Hand

open Idealize.ShloMosaic Idealize.ShloMosaic.TcCoe Idealize.SL.Sem
open Cert Cert.KernelIdeal Cert.KernelIdeal.Gen

variable (m : (ℓ : Loc nD τ sig) → Buf (Elt Ideal) ℓ)

/-- The result buffer at the last valuation, as a function of the launch contents of the fifteen arguments. -/
theorem result_eq (c : Dev nD) :
    W2 (F := Ideal) m c (Proc.devRef .tc main_v1)
      = fun i => RnnSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (i 0) (i 1) :=
  (W2_arr (F := Ideal) m c 15).trans
    (out_spec (V1 (F := Ideal) m) c
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      (W1_main_arg0 (F := Ideal) m c) (W1_main_arg1 (F := Ideal) m c) (W1_main_arg2 (F := Ideal) m c) (W1_main_arg3 (F := Ideal) m c) (W1_main_arg4 (F := Ideal) m c) (W1_main_arg5 (F := Ideal) m c) (W1_main_arg6 (F := Ideal) m c) (W1_main_arg9 (F := Ideal) m c) (W1_main_arg10 (F := Ideal) m c) (W1_main_arg11 (F := Ideal) m c) (W1_main_arg12 (F := Ideal) m c) (W1_main_arg13 (F := Ideal) m c) (W1_main_arg14 (F := Ideal) m c)
      ((W1_arr (F := Ideal) m c 3).trans (arr0_3 (V0 (F := Ideal) m) c))
      ((W1_arr (F := Ideal) m c 4).trans (arr0_4 (V0 (F := Ideal) m) c)))

/-- THE RUN, READ: every weakly fair execution terminates with the result array at the specification of the launch
    contents of the arguments, and the arguments as launched. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
        = (fun i => RnnSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v1 (by decide))).trans (result_eq m c),
     (h c _ (mem_uc main_arg0 (by decide))).trans (W2_main_arg0 (F := Ideal) m c),
     (h c _ (mem_uc main_arg1 (by decide))).trans (W2_main_arg1 (F := Ideal) m c),
     (h c _ (mem_uc main_arg2 (by decide))).trans (W2_main_arg2 (F := Ideal) m c),
     (h c _ (mem_uc main_arg3 (by decide))).trans (W2_main_arg3 (F := Ideal) m c),
     (h c _ (mem_uc main_arg4 (by decide))).trans (W2_main_arg4 (F := Ideal) m c),
     (h c _ (mem_uc main_arg5 (by decide))).trans (W2_main_arg5 (F := Ideal) m c),
     (h c _ (mem_uc main_arg6 (by decide))).trans (W2_main_arg6 (F := Ideal) m c),
     (h c _ (mem_uc main_arg7 (by decide))).trans (W2_main_arg7 (F := Ideal) m c),
     (h c _ (mem_uc main_arg8 (by decide))).trans (W2_main_arg8 (F := Ideal) m c),
     (h c _ (mem_uc main_arg9 (by decide))).trans (W2_main_arg9 (F := Ideal) m c),
     (h c _ (mem_uc main_arg10 (by decide))).trans (W2_main_arg10 (F := Ideal) m c),
     (h c _ (mem_uc main_arg11 (by decide))).trans (W2_main_arg11 (F := Ideal) m c),
     (h c _ (mem_uc main_arg12 (by decide))).trans (W2_main_arg12 (F := Ideal) m c),
     (h c _ (mem_uc main_arg13 (by decide))).trans (W2_main_arg13 (F := Ideal) m c),
     (h c _ (mem_uc main_arg14 (by decide))).trans (W2_main_arg14 (F := Ideal) m c)⟩)
    (run_all (F := Ideal) m ρ)

end Cert.KernelIdeal.Hand

end
-- ==== Proof.RefMath.lean ====
/-
  Pure facts about extended reals and 32-bit words behind the reading of the recurrent cell's reference.

  * Three float words: one half, two, and (from the library) one.
  * The hard bit: for EVERY extended real z, the logistic function 1/(1 + e^(-z)) exceeds one half exactly when
    0 < z (at -∞ it is 0, at +∞ it is 1, and on the reals 1/(1+e^(-z)) > 1/2 ⇔ e^(-z) < 1 ⇔ z > 0), so the
    comparison's bit, read as a number, is one where 0 < z and zero elsewhere (the hard bit).
  * The powers: the word 9 + (-1)·j is the integer 9 - j for j < 10, and 2 to that power is the real 2^(9-j).
  * The clamp: min(1023, max(0, w)) as a signed word lies in [0, 1023]; hence "add 1024 if negative" leaves it
    unchanged, and clamping its signed value into [0, 1023] gives its value modulo 1024.  A word b < 128 is
    likewise not negative and is its own clamp into [0, 127].
-/
import Idealize.ShloMosaic.Lib.IdealHost

noncomputable section

open scoped BigOperators

namespace Cert.RefValue

open Idealize.ShloMosaic Idealize.ShloMosaic.ValueIdx

/-- The f32 word `0x3F000000` is one half. -/
theorem half_f32 : Ideal.ofBits .f32 0x3F000000#32 = (((1 : ℝ) / 2 : ℝ) : EReal) := by
  simp [Ideal.ofBits, Ideal.ieee, -EReal.coe_mul]; norm_num

/-- The f32 word `0x40000000` is two. -/
theorem two_f32 : Ideal.ofBits .f32 0x40000000#32 = ((2 : ℝ) : EReal) := by
  simp [Ideal.ofBits, Ideal.ieee, -EReal.coe_mul]; norm_num

/-- The logistic function exceeds one half exactly at the positive extended reals. -/
theorem half_lt_logistic_iff (z : EReal) : (((1 : ℝ) / 2 : ℝ) : EReal) < Ideal.logistic z ↔ 0 < z := by
  induction z using EReal.rec with
  | bot =>
    rw [Ideal.logistic_bot]
    constructor
    · intro h; exact absurd h (not_lt.mpr (by exact_mod_cast (by norm_num : (0 : ℝ) ≤ 1 / 2)))
    · intro h; exact absurd h (not_lt.mpr bot_le)
  | coe r =>
    rw [Ideal.logistic_coe, EReal.coe_lt_coe_iff, show (0 : EReal) = ((0 : ℝ) : EReal) from rfl, EReal.coe_lt_coe_iff]
    have hpos : (0 : ℝ) < 1 + Real.exp (-r) := by positivity
    rw [one_div, inv_lt_inv₀ (by norm_num) hpos]
    constructor
    · intro h
      have : Real.exp (-r) < 1 := by linarith
      have := Real.exp_lt_one_iff.mp this
      linarith
    · intro h
      have : Real.exp (-r) < 1 := Real.exp_lt_one_iff.mpr (by linarith)
      linarith
  | top =>
    rw [Ideal.logistic_top]
    constructor
    · intro _; exact EReal.zero_lt_top
    · intro _; exact_mod_cast (by norm_num : (1 : ℝ) / 2 < 1)

/-- The comparison "1/(1 + e^(-z)) > 1/2" as a bit, read as a number, is the hard bit of z. -/
theorem bit_eq (z : EReal) :
    ((((Ideal.cmp .ogt (Ideal.div (Ideal.ofBits .f32 0x3F800000#32) (Ideal.ofBits .f32 0x3F800000#32 + Ideal.exp (-z)))
      (Ideal.ofBits .f32 0x3F000000#32)).toNat : ℝ)) : EReal) = if 0 < z then 1 else 0 := by
  rw [Ideal.ofBits_one_f32, half_f32]
  show ((((BitVec.ofBool (decide ((((1 : ℝ) / 2 : ℝ) : EReal) < Ideal.logistic z))).toNat : ℝ)) : EReal) = _
  by_cases h : 0 < z
  · rw [if_pos h, decide_eq_true ((half_lt_logistic_iff z).mpr h)]; simp
  · rw [if_neg h, decide_eq_false (fun h' => h ((half_lt_logistic_iff z).mp h'))]; simp

/-- The word 9 + (-1)·j, read signed, is the integer 9 - j for j below 10. -/
theorem pow_word_toInt (j : Fin 10) :
    (IntOp.addi 9#32 (IntOp.muli 4294967295#32 (BitVec.ofNat 32 j.val))).toInt = ((9 - j.val : ℕ) : ℤ) := by
  fin_cases j <;> decide

/-- Two to the power of that word is the real 2^(9-j). -/
theorem pow_word (j : Fin 10) :
    Ideal.pow (Ideal.ofBits .f32 0x40000000#32)
      ((((IntOp.addi 9#32 (IntOp.muli 4294967295#32 (BitVec.ofNat 32 j.val))).toInt : ℝ)) : EReal)
      = (((2 : ℝ) ^ (9 - j.val) : ℝ) : EReal) := by
  rw [two_f32, pow_word_toInt, Ideal.pow_coe_coe, Int.cast_natCast]
  congr 1
  exact Real.rpow_natCast 2 (9 - j.val)

/-- min(1023, max(0, x)) as a signed 32-bit word lies in [0, 1023]. -/
theorem clamp_bounds (x : BitVec 32) :
    0 ≤ (IntOp.minsi 1023#32 (IntOp.maxsi 0#32 x)).toInt ∧ (IntOp.minsi 1023#32 (IntOp.maxsi 0#32 x)).toInt ≤ 1023 := by
  have h0 : (0#32 : BitVec 32).toInt = 0 := by decide
  have h1 : (1023#32 : BitVec 32).toInt = 1023 := by decide
  unfold IntOp.minsi IntOp.maxsi
  simp only [BitVec.slt, decide_eq_true_eq]
  split_ifs <;> constructor <;> omega

/-- A word whose signed value is in [0, 1023] is unchanged by "add 1024 if negative". -/
theorem wrap_id (w : BitVec 32) (h : 0 ≤ w.toInt) :
    Scalar.select (IntOp.cmpi .slt w 0#32) (IntOp.addi w 1024#32) w = w := by
  have h0 : (0#32 : BitVec 32).toInt = 0 := by decide
  have : IntOp.cmpi .slt w 0#32 = 0#1 := by
    unfold IntOp.cmpi
    have : w.slt 0#32 = false := by
      simp only [BitVec.slt, decide_eq_false_iff_not]; omega
    simp [this]
  rw [this, select_zero]

/-- The signed value of such a word, clamped into [0, 1023], is its value modulo 1024. -/
theorem clamp_toNat (w : BitVec 32) (h0 : 0 ≤ w.toInt) (h1 : w.toInt ≤ 1023) :
    min w.toInt.toNat (1024 - 1) = w.toNat % 1024 := by
  have hlt := w.isLt
  have e : w.toInt = (w.toNat : ℤ) := by
    rw [BitVec.toInt_eq_toNat_cond] at h0 ⊢
    split_ifs at h0 ⊢ with hc
    · rfl
    · omega
  rw [e] at h1
  rw [e, Int.toNat_natCast]
  omega

/-- A word b below 128 is not negative as a signed word … -/
theorem ofNat_toInt (b : Fin 128) : (BitVec.ofNat 32 b.val).toInt = (b.val : ℤ) := by
  have hb := b.isLt
  rw [BitVec.toInt_eq_toNat_cond, BitVec.toNat_ofNat]
  have : b.val % 2 ^ 32 = b.val := Nat.mod_eq_of_lt (by omega)
  rw [this]
  split_ifs with hc
  · rfl
  · omega

/-- … so "add 128 if negative" leaves it unchanged … -/
theorem wrap_id_iota (b : Fin 128) :
    Scalar.select (IntOp.cmpi .slt (BitVec.ofNat 32 b.val) 0#32) (IntOp.addi (BitVec.ofNat 32 b.val) 128#32)
      (BitVec.ofNat 32 b.val) = BitVec.ofNat 32 b.val := by
  have h0 : (0#32 : BitVec 32).toInt = 0 := by decide
  have hb := ofNat_toInt b
  have : IntOp.cmpi .slt (BitVec.ofNat 32 b.val) 0#32 = 0#1 := by
    unfold IntOp.cmpi
    have : (BitVec.ofNat 32 b.val).slt 0#32 = false := by
      simp only [BitVec.slt, decide_eq_false_iff_not]; omega
    simp [this]
  rw [this, select_zero]

/-- … and its signed value clamped into [0, 127] is b. -/
theorem clamp_iota (b : Fin 128) : min (BitVec.ofNat 32 b.val).toInt.toNat (128 - 1) = b.val := by
  have hb := b.isLt
  rw [ofNat_toInt, Int.toNat_natCast]
  omega

end Cert.RefValue

end
-- ==== Proof.RefCode.lean ====
/-
  The index side of the recurrent cell's reference, read entry by entry.

  Row b of the previous state against row j of the 20×1024 matrix, plus the bias, is the logit (b, j).  The first
  ten and the last ten logits give, through "logistic > one half", ten hard bits each; the bits times the powers
  2^9 … 2^0 summed over the ten positions are the two code words; converted to integers and clamped to [0, 1023]
  they are the two slot words of batch row b.  The reference then adds 1024 to a negative index (there is none:
  the clamp made the word nonnegative) and pairs the word with the batch position b, itself a word in [0, 127].
-/
import proofs.«136845_j56873956934278_1_alg».proof.Proof.RefRead
import proofs.«136845_j56873956934278_1_alg».proof.Proof.RefMath
import proofs.«136845_j56873956934278_1_alg».proof.Proof.Spec

noncomputable section

open scoped BigOperators

namespace Cert.RefValue

open Cert.ReferenceIdeal Cert.ReferenceIdeal.Gen Cert.ReferenceIdeal.Read Idealize.ShloMosaic Idealize.ShloMosaic.ValueIdx Cert.RnnSpec

/-- The argument arrays' types, as the reference's stages type them. -/
abbrev T128x1024 : Type := (⟨S128x1024, .f32⟩ : BufTy).Contents (Elt Ideal)
abbrev T1024x1024 : Type := (⟨S1024x1024, .f32⟩ : BufTy).Contents (Elt Ideal)
abbrev T20x1024 : Type := (⟨S20x1024, .f32⟩ : BufTy).Contents (Elt Ideal)
abbrev T1024x128x1024 : Type := (⟨S1024x128x1024, .f32⟩ : BufTy).Contents (Elt Ideal)
abbrev T1024 : Type := (⟨S1024, .f32⟩ : BufTy).Contents (Elt Ideal)
abbrev T20 : Type := (⟨S20, .f32⟩ : BufTy).Contents (Elt Ideal)

variable (h : T128x1024) (Mw : T20x1024) (Mb : T20)

/-- The powers: entry j of the power vector is the real 2^(9-j). -/
theorem powers_read (j : Fin 10) : val_main_v8 (F := Ideal) (ix1 j) = (((2 : ℝ) ^ (9 - j.val) : ℝ) : EReal) := by
  rw [val_main_v8_apply, val_main_v7_apply, val_main_cst_apply, val_main_v6_apply, val_main_v4_apply, val_main_v3_apply, val_main_c_0_apply, val_main_v2_apply, val_main_v1_apply, val_main_c_apply, val_main_v0_apply]
  exact pow_word j

/-- The logits: entry (b, j) is row b of h against row j of Mw, plus the bias. -/
theorem logit_read (b : Fin 128) (j : Fin 20) : val_main_v13 (F := Ideal) h Mw Mb (ix2 b j) = logit h Mw Mb b j := by
  rw [val_main_v13_apply, val_main_v10_apply, val_main_v12_apply, val_main_v11_apply]
  unfold logit
  change _ + _ = _
  congr 1
  · refine Finset.sum_congr rfl (fun k _ => ?_)
    have e1 : lidx_main_v10 (ix2 b j) k = ix2 b k := by funext a; match a with | ⟨0, _⟩ => rfl | ⟨1, _⟩ => rfl
    have e2 : idx_main_v9 (ridx_main_v10 (ix2 b j) k) = ix2 j k := by funext a; match a with | ⟨0, _⟩ => rfl | ⟨1, _⟩ => rfl
    rw [val_main_v9_apply, e1, e2]
  · have e3 : idx_main_v11 (idx_main_v12 (ix2 b j)) = ix1 j := by funext a; match a with | ⟨0, _⟩ => rfl
    rw [e3]

/-- The first ten hard bits. -/
theorem bit1_read (b : Fin 128) (j : Fin 10) :
    val_main_v24 (F := Ideal) h Mw Mb (ix2 b j) = bit (logit h Mw Mb b ⟨0 + j.val, by omega⟩) := by
  rw [val_main_v24_apply, val_main_v23_apply, val_main_v21_apply, val_main_v20_apply, val_main_cst_2_apply, val_main_v19_apply, val_main_v18_apply, val_main_cst_1_apply, val_main_v17_apply, val_main_v16_apply, val_main_v14_apply, val_main_v22_apply, val_main_cst_3_apply]
  have e : idx_main_v14 (ix2 b j) = ix2 b (⟨0 + j.val, by omega⟩ : Fin 20) := by
    funext a; match a with | ⟨0, _⟩ => rfl | ⟨1, _⟩ => exact Fin.ext (Nat.zero_add _).symm
  rw [e, logit_read]
  exact bit_eq _

/-- The last ten hard bits. -/
theorem bit2_read (b : Fin 128) (j : Fin 10) :
    val_main_v33 (F := Ideal) h Mw Mb (ix2 b j) = bit (logit h Mw Mb b ⟨10 + j.val, by omega⟩) := by
  rw [val_main_v33_apply, val_main_v32_apply, val_main_v30_apply, val_main_v29_apply, val_main_cst_5_apply, val_main_v28_apply, val_main_v27_apply, val_main_cst_4_apply, val_main_v26_apply, val_main_v25_apply, val_main_v15_apply, val_main_v31_apply, val_main_cst_6_apply]
  have e : idx_main_v15 (ix2 b j) = ix2 b (⟨10 + j.val, by omega⟩ : Fin 20) := by
    funext a; match a with | ⟨0, _⟩ => rfl | ⟨1, _⟩ => rfl
  rw [e, logit_read]
  exact bit_eq _

/-- The first code word. -/
theorem code1_read (b : Fin 128) : val_main_v37 (F := Ideal) h Mw Mb (ix1 b) = code h Mw Mb 0 (by norm_num) b := by
  rw [val_main_v37_apply, val_main_cst_7_apply,
    show FloatOps.ofBits (F := Ideal) .f32 0x00000000#32 = 0 from Ideal.ofBits_zero_f32, zero_add]
  unfold code
  refine Finset.sum_congr rfl (fun k _ => ?_)
  have e1 : idx_main_v37 (ix1 b) k = ix2 b k := by funext a; match a with | ⟨0, _⟩ => rfl | ⟨1, _⟩ => rfl
  have e2 : idx_main_v34 (idx_main_v35 (ix2 b k)) = ix1 k := by funext a; match a with | ⟨0, _⟩ => rfl
  rw [e1, val_main_v36_apply, val_main_v35_apply, val_main_v34_apply, e2, bit1_read, powers_read]
  rfl

/-- The second code word. -/
theorem code2_read (b : Fin 128) : val_main_v43 (F := Ideal) h Mw Mb (ix1 b) = code h Mw Mb 10 (by norm_num) b := by
  rw [val_main_v43_apply, val_main_cst_10_apply,
    show FloatOps.ofBits (F := Ideal) .f32 0x00000000#32 = 0 from Ideal.ofBits_zero_f32, zero_add]
  unfold code
  refine Finset.sum_congr rfl (fun k _ => ?_)
  have e1 : idx_main_v43 (ix1 b) k = ix2 b k := by funext a; match a with | ⟨0, _⟩ => rfl | ⟨1, _⟩ => rfl
  have e2 : idx_main_v40 (idx_main_v41 (ix2 b k)) = ix1 k := by funext a; match a with | ⟨0, _⟩ => rfl
  rw [e1, val_main_v42_apply, val_main_v41_apply, val_main_v40_apply, e2, bit2_read, powers_read]
  rfl

/-- The first slot word: the code word as an integer, clamped to [0, 1023]. -/
theorem word1_read (b : Fin 128) :
    val_main_v39 (F := Ideal) h Mw Mb (ix1 b) = slotWord (code h Mw Mb 0 (by norm_num) b) := by
  rw [val_main_v39_apply, val_main_call0_v4_apply, val_main_call0_v3_apply, val_main_c_9_apply, val_main_call0_v2_apply, val_main_call0_v1_apply, val_main_call0_v0_apply, val_main_c_8_apply, val_main_v38_apply, code1_read]
  rfl

/-- The second slot word. -/
theorem word2_read (b : Fin 128) :
    val_main_v45 (F := Ideal) h Mw Mb (ix1 b) = slotWord (code h Mw Mb 10 (by norm_num) b) := by
  rw [val_main_v45_apply, val_main_call1_v4_apply, val_main_call1_v3_apply, val_main_c_12_apply, val_main_call1_v2_apply, val_main_call1_v1_apply, val_main_call1_v0_apply, val_main_c_11_apply, val_main_v44_apply, code2_read]
  rfl

/-- "Add 1024 if negative" leaves the first slot word unchanged. -/
theorem row1_read (b : Fin 128) :
    val_main_v51 (F := Ideal) h Mw Mb (ix1 b) = slotWord (code h Mw Mb 0 (by norm_num) b) := by
  rw [val_main_v51_apply, val_main_v48_apply, val_main_v47_apply, val_main_c_13_apply, val_main_v50_apply, val_main_v49_apply, val_main_c_14_apply, word1_read]
  exact wrap_id _ (clamp_bounds _).1

/-- "Add 1024 if negative" leaves the second slot word unchanged. -/
theorem row2_read (b : Fin 128) :
    val_main_v65 (F := Ideal) h Mw Mb (ix1 b) = slotWord (code h Mw Mb 10 (by norm_num) b) := by
  rw [val_main_v65_apply, val_main_v62_apply, val_main_v61_apply, val_main_c_17_apply, val_main_v64_apply, val_main_v63_apply, val_main_c_18_apply, word2_read]
  exact wrap_id _ (clamp_bounds _).1

/-- The batch column (for the first gather): the word b. -/
theorem col1_read (b : Fin 128) : val_main_v56 (F := Ideal) (ix1 b) = BitVec.ofNat 32 b.val := by
  rw [val_main_v56_apply, val_main_v53_apply, val_main_v52_apply, val_main_c_15_apply, val_main_v55_apply, val_main_v54_apply, val_main_c_16_apply, val_main_v46_apply]
  exact wrap_id_iota b

/-- The batch column (for the second gather): the word b. -/
theorem col2_read (b : Fin 128) : val_main_v70 (F := Ideal) (ix1 b) = BitVec.ofNat 32 b.val := by
  rw [val_main_v70_apply, val_main_v67_apply, val_main_v66_apply, val_main_c_19_apply, val_main_v69_apply, val_main_v68_apply, val_main_c_20_apply, val_main_v46_apply]
  exact wrap_id_iota b

end Cert.RefValue

end
-- ==== Proof.RefGather.lean ====
/-
  The gather of the memory tensor mem[1024,128,1024] at a [128,2] array of (row, batch) start indices with slices
  [1,1,1024], read at (b, k): the element mem(r, c, k) where r is the signed value of the first start index of
  row b clamped into [0, 1023] and c that of the second clamped into [0, 127].  (Both leading operand axes are
  collapsed, the trailing one is the offset axis, and there are no batching axes.)
-/
import proofs.«136845_j56873956934278_1_alg».proof.Proof.Gen.ReferenceIdeal
import Idealize.ShloMosaic.Lib.ValueIdx

noncomputable section

namespace Cert.RefValue

open Cert.ReferenceIdeal Cert.ReferenceIdeal.Gen Idealize.ShloMosaic Idealize.ShloMosaic.ValueIdx

/-- The gather's dimension numbers, by a short name. -/
abbrev GD : GatherDims S1024x128x1024 S128x2 S128x1024 := gather_S1024x128x1024_S128x2_S128x1024_1_01_n_n_01_1_111024

/-- The operand's three axes. -/
abbrev ax0 : Fin S1024x128x1024.rank := ⟨0, by decide⟩
abbrev ax1 : Fin S1024x128x1024.rank := ⟨1, by decide⟩
abbrev ax2 : Fin S1024x128x1024.rank := ⟨2, by decide⟩

variable {w : Nat} (idx : IVec S128x2 w) (b : Fin 128) (k : Fin 1024)

/-- On the row axis: the first start index of row b, clamped. -/
theorem operand_row :
    GD.start (ix2 b k) idx ax0 + GD.batchCoord (ix2 b k) ax0 + GD.offCoord (ix2 b k) ax0
      = min (idx (ix2 b (0 : Fin 2))).toInt.toNat (1024 - 1) := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show ax0 ∈ GD.startIndexMap by decide)]
  have hsi : GD.siIdx (ix2 b k) ⟨List.idxOf ax0 GD.startIndexMap,
      List.idxOf_lt_length_iff.2 (by decide)⟩ = ix2 b (0 : Fin 2) := by
    funext c; refine Fin.ext ?_
    match c with
    | ⟨0, _⟩ => rfl
    | ⟨1, _⟩ => rfl
  rw [hsi]
  rfl

/-- On the batch axis: the second start index of row b, clamped. -/
theorem operand_batch :
    GD.start (ix2 b k) idx ax1 + GD.batchCoord (ix2 b k) ax1 + GD.offCoord (ix2 b k) ax1
      = min (idx (ix2 b (1 : Fin 2))).toInt.toNat (128 - 1) := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show ax1 ∈ GD.startIndexMap by decide)]
  have hsi : GD.siIdx (ix2 b k) ⟨List.idxOf ax1 GD.startIndexMap,
      List.idxOf_lt_length_iff.2 (by decide)⟩ = ix2 b (1 : Fin 2) := by
    funext c; refine Fin.ext ?_
    match c with
    | ⟨0, _⟩ => rfl
    | ⟨1, _⟩ => rfl
  rw [hsi]
  rfl

/-- On the trailing axis: the result's column. -/
theorem operand_col :
    GD.start (ix2 b k) idx ax2 + GD.batchCoord (ix2 b k) ax2 + GD.offCoord (ix2 b k) ax2 = k.val := by
  rw [GatherDims.batchCoord_eq_zero _ _ _ List.not_mem_nil]
  unfold GatherDims.start
  rw [dif_neg (show ¬ ax2 ∈ GD.startIndexMap by decide)]
  simp only [Nat.zero_add, Nat.add_zero]
  unfold GatherDims.offCoord
  rw [dif_pos (show ax2 ∈ GD.sKept by decide)]
  rfl

/-- THE GATHER READ AT (b, k). -/
theorem gather_rows_apply {α : Type} (x : S1024x128x1024.Idx → α) :
    Host.gather GD x idx (ix2 b k)
      = x (ix3 (⟨min (idx (ix2 b (0 : Fin 2))).toInt.toNat (1024 - 1), by omega⟩ : Fin 1024)
            (⟨min (idx (ix2 b (1 : Fin 2))).toInt.toNat (128 - 1), by omega⟩ : Fin 128) k) := by
  unfold Host.gather
  congr 1
  funext a
  refine Fin.ext ?_
  match a with
  | ⟨0, _⟩ => exact operand_row idx b k
  | ⟨1, _⟩ => exact operand_batch idx b k
  | ⟨2, _⟩ => exact operand_col idx b k

end Cert.RefValue

end
-- ==== Proof.RefRows.lean ====
/-
  The two memory rows the recurrent cell's reference reads, entry by entry.

  The reference pairs each batch row's slot word with the batch position into a [128,2] array of start indices
  (the word in column 0, the position in column 1) and gathers from the memory tensor mem[1024,128,1024] with
  slices [1,1,1024].  The slot word lies in [0, 1023] and the position in [0, 127], so the gather's clamps do
  nothing: entry (b, k) of the gathered array is mem(slot, b, k), the spec's `picked`.
-/
import proofs.«136845_j56873956934278_1_alg».proof.Proof.RefCode
import proofs.«136845_j56873956934278_1_alg».proof.Proof.RefGather
import Idealize.ShloMosaic.Lib.Pipeline.Value

noncomputable section

open scoped BigOperators

namespace Cert.RefValue

open Cert.ReferenceIdeal Cert.ReferenceIdeal.Gen Cert.ReferenceIdeal.Read Idealize.ShloMosaic Idealize.ShloMosaic.ValueIdx Cert.RnnSpec

variable (h : T128x1024) (mem : T1024x128x1024) (Mw : T20x1024) (Mb : T20)

/-- Column 0 of the first start-index array: the first slot word. -/
theorem idx1_row (b : Fin 128) :
    val_main_v59 (F := Ideal) h Mw Mb (ix2 b (0 : Fin 2)) = slotWord (code h Mw Mb 0 (by norm_num) b) := by
  unfold val_main_v59
  refine (concatenate_pair_apply_left _ _ _ _ (ix2 b (0 : Fin 2)) (by rfl) (ix2 b (0 : Fin 1)) ?_).trans ?_
  · intro c; match c with | ⟨0, _⟩ => rfl | ⟨1, _⟩ => rfl
  · have e : idx_main_v57 (ix2 b (0 : Fin 1)) = ix1 b := by funext a; match a with | ⟨0, _⟩ => rfl
    rw [val_main_v57_apply, e, row1_read]

/-- Column 1 of the first start-index array: the batch position. -/
theorem idx1_col (b : Fin 128) :
    val_main_v59 (F := Ideal) h Mw Mb (ix2 b (1 : Fin 2)) = BitVec.ofNat 32 b.val := by
  unfold val_main_v59
  refine (concatenate_pair_apply_right _ _ _ _ (ix2 b (1 : Fin 2)) (by rfl) (by rfl) (ix2 b (0 : Fin 1)) ?_ ?_).trans ?_
  · intro c hc; match c with | ⟨0, _⟩ => rfl | ⟨1, _⟩ => exact absurd rfl hc
  · rfl
  · have e : idx_main_v58 (ix2 b (0 : Fin 1)) = ix1 b := by funext a; match a with | ⟨0, _⟩ => rfl
    rw [val_main_v58_apply, e, col1_read]

/-- Column 0 of the second start-index array: the second slot word. -/
theorem idx2_row (b : Fin 128) :
    val_main_v73 (F := Ideal) h Mw Mb (ix2 b (0 : Fin 2)) = slotWord (code h Mw Mb 10 (by norm_num) b) := by
  unfold val_main_v73
  refine (concatenate_pair_apply_left _ _ _ _ (ix2 b (0 : Fin 2)) (by rfl) (ix2 b (0 : Fin 1)) ?_).trans ?_
  · intro c; match c with | ⟨0, _⟩ => rfl | ⟨1, _⟩ => rfl
  · have e : idx_main_v71 (ix2 b (0 : Fin 1)) = ix1 b := by funext a; match a with | ⟨0, _⟩ => rfl
    rw [val_main_v71_apply, e, row2_read]

/-- Column 1 of the second start-index array: the batch position. -/
theorem idx2_col (b : Fin 128) :
    val_main_v73 (F := Ideal) h Mw Mb (ix2 b (1 : Fin 2)) = BitVec.ofNat 32 b.val := by
  unfold val_main_v73
  refine (concatenate_pair_apply_right _ _ _ _ (ix2 b (1 : Fin 2)) (by rfl) (by rfl) (ix2 b (0 : Fin 1)) ?_ ?_).trans ?_
  · intro c hc; match c with | ⟨0, _⟩ => rfl | ⟨1, _⟩ => exact absurd rfl hc
  · rfl
  · have e : idx_main_v72 (ix2 b (0 : Fin 1)) = ix1 b := by funext a; match a with | ⟨0, _⟩ => rfl
    rw [val_main_v72_apply, e, col2_read]

/-- The first gathered array ("recent") is the memory row the first code word names, at batch position b. -/
theorem picked1_read (b : Fin 128) (k : Fin 1024) :
    val_main_v60 (F := Ideal) h mem Mw Mb (ix2 b k) = picked h Mw Mb mem 0 (by norm_num) b k := by
  unfold val_main_v60
  refine (gather_rows_apply (val_main_v59 (F := Ideal) h Mw Mb) b k mem).trans ?_
  unfold picked
  refine congrArg mem ?_
  funext a
  match a with
  | ⟨0, _⟩ =>
    exact Fin.ext ((congrArg (fun w : BitVec 32 => min w.toInt.toNat (1024 - 1)) (idx1_row h Mw Mb b)).trans
      (clamp_toNat _ (clamp_bounds _).1 (clamp_bounds _).2))
  | ⟨1, _⟩ =>
    exact Fin.ext ((congrArg (fun w : BitVec 32 => min w.toInt.toNat (128 - 1)) (idx1_col h Mw Mb b)).trans
      (clamp_iota b))
  | ⟨2, _⟩ => rfl

/-- The second gathered array ("long") is the memory row the second code word names, at batch position b. -/
theorem picked2_read (b : Fin 128) (k : Fin 1024) :
    val_main_v74 (F := Ideal) h mem Mw Mb (ix2 b k) = picked h Mw Mb mem 10 (by norm_num) b k := by
  unfold val_main_v74
  refine (gather_rows_apply (val_main_v73 (F := Ideal) h Mw Mb) b k mem).trans ?_
  unfold picked
  refine congrArg mem ?_
  funext a
  match a with
  | ⟨0, _⟩ =>
    exact Fin.ext ((congrArg (fun w : BitVec 32 => min w.toInt.toNat (1024 - 1)) (idx2_row h Mw Mb b)).trans
      (clamp_toNat _ (clamp_bounds _).1 (clamp_bounds _).2))
  | ⟨1, _⟩ =>
    exact Fin.ext ((congrArg (fun w : BitVec 32 => min w.toInt.toNat (128 - 1)) (idx2_col h Mw Mb b)).trans
      (clamp_iota b))
  | ⟨2, _⟩ => rfl

end Cert.RefValue

end
-- ==== Proof.RefDense.lean ====
/-
  The pre-activation of the recurrent cell's reference, entry by entry.

  Each of the four affine maps is a product of a [128,1024] array with a TRANSPOSED [1024,1024] weight matrix —
  entry (b, n) is Σ_k a(b,k)·W(n,k) — plus a bias broadcast along the rows.  The four reference stages are the
  same composition of operations applied to different arrays (the input, the previous state, and the two
  gathered memory rows), so one reading serves all four; their sum, grouped ((a + b) + c) + d, is `preOf`.
-/
import proofs.«136845_j56873956934278_1_alg».proof.Proof.RefRows

noncomputable section

open scoped BigOperators

namespace Cert.RefValue

open Cert.ReferenceIdeal Cert.ReferenceIdeal.Gen Cert.ReferenceIdeal.Read Idealize.ShloMosaic Idealize.ShloMosaic.ValueIdx Cert.RnnSpec

/-- An affine map against a transposed weight matrix, read at (b, n). -/
theorem dense_read (A : T128x1024) (W : T1024x1024) (bias : T1024) (b : Fin 128) (n : Fin 1024) :
    val_main_v79 (F := Ideal) A W bias (ix2 b n) = dense (fun b k => A (ix2 b k)) W bias b n := by
  rw [val_main_v79_apply, val_main_v76_apply, val_main_v78_apply, val_main_v77_apply]
  unfold dense
  change _ + _ = _
  congr 1
  · refine Finset.sum_congr rfl (fun k _ => ?_)
    have e1 : lidx_main_v76 (ix2 b n) k = ix2 b k := by funext a; match a with | ⟨0, _⟩ => rfl | ⟨1, _⟩ => rfl
    have e2 : idx_main_v75 (ridx_main_v76 (ix2 b n) k) = ix2 n k := by funext a; match a with | ⟨0, _⟩ => rfl | ⟨1, _⟩ => rfl
    rw [val_main_v75_apply, e1, e2]
  · have e3 : idx_main_v77 (idx_main_v78 (ix2 b n)) = ix1 n := by funext a; match a with | ⟨0, _⟩ => rfl
    rw [e3]

variable (x0 x1 : T128x1024) (x2 : T1024x128x1024) (x3 : T1024x1024) (x4 : T1024) (x5 : T1024x1024) (x6 : T1024)
    (x7 : T20x1024) (x8 : T20) (x9 : T1024x1024) (x10 : T1024) (x11 : T1024x1024) (x12 x13 x14 : T1024)

/-- The other three affine stages are the same composition of operations. -/
theorem v84_eq : val_main_v84 (F := Ideal) x1 x5 x6 = val_main_v79 (F := Ideal) x1 x5 x6 := rfl
theorem v90_eq : val_main_v90 (F := Ideal) x1 x2 x7 x8 x9 x10
    = val_main_v79 (F := Ideal) (val_main_v60 (F := Ideal) x1 x2 x7 x8) x9 x10 := rfl
theorem v96_eq : val_main_v96 (F := Ideal) x1 x2 x7 x8 x11 x12
    = val_main_v79 (F := Ideal) (val_main_v74 (F := Ideal) x1 x2 x7 x8) x11 x12 := rfl

/-- The pre-activation at (b, n). -/
theorem pre_read (b : Fin 128) (n : Fin 1024) :
    val_main_v97 (F := Ideal) x0 x1 x2 x3 x4 x5 x6 x7 x8 x9 x10 x11 x12 (ix2 b n) = preOf x0 x1 (picked x1 x7 x8 x2 0 (by norm_num)) (picked x1 x7 x8 x2 10 (by norm_num)) x3 x4 x5 x6 x9 x10 x11 x12 b n := by
  rw [val_main_v97_apply, val_main_v91_apply, val_main_v85_apply, v84_eq, v90_eq, v96_eq,
    dense_read, dense_read, dense_read, dense_read]
  have e1 : (fun (b : Fin 128) (k : Fin 1024) => val_main_v60 (F := Ideal) x1 x2 x7 x8 (ix2 b k))
      = picked x1 x7 x8 x2 0 (by norm_num) := funext fun b => funext fun k => picked1_read x1 x2 x7 x8 b k
  have e2 : (fun (b : Fin 128) (k : Fin 1024) => val_main_v74 (F := Ideal) x1 x2 x7 x8 (ix2 b k))
      = picked x1 x7 x8 x2 10 (by norm_num) := funext fun b => funext fun k => picked2_read x1 x2 x7 x8 b k
  unfold preOf
  rw [← e1, ← e2]
  rfl

end Cert.RefValue

end
-- ==== Proof.RefNorm.lean ====
/-
  The normalisation and the final logistic of the recurrent cell's reference, entry by entry.

  For batch row b let p be the row of pre-activations.  The reference sums p over its 1024 entries from the zero
  word and divides by the float 1024: the mean.  It subtracts the mean, squares (a product of the difference with
  itself), sums and divides again: the variance.  Then (p − mean)·rsqrt(variance + ε)·gain + shift, and the
  logistic function spelled 1/(1 + e^(−z)) with the float word of one — which is the library's logistic.
-/
import proofs.«136845_j56873956934278_1_alg».proof.Proof.RefDense

noncomputable section

open scoped BigOperators

namespace Cert.RefValue

open Cert.ReferenceIdeal Cert.ReferenceIdeal.Gen Cert.ReferenceIdeal.Read Idealize.ShloMosaic Idealize.ShloMosaic.ValueIdx Cert.RnnSpec

variable (x0 x1 : T128x1024) (x2 : T1024x128x1024) (x3 : T1024x1024) (x4 : T1024) (x5 : T1024x1024) (x6 : T1024)
    (x7 : T20x1024) (x8 : T20) (x9 : T1024x1024) (x10 : T1024) (x11 : T1024x1024) (x12 x13 x14 : T1024)

/-- The row sum of the pre-activations. -/
theorem sum_read (b : Fin 128) :
    val_main_v98 (F := Ideal) x0 x1 x2 x3 x4 x5 x6 x7 x8 x9 x10 x11 x12 (ix1 b) = ∑ k : Fin 1024, val_main_v97 (F := Ideal) x0 x1 x2 x3 x4 x5 x6 x7 x8 x9 x10 x11 x12 (ix2 b k) := by
  rw [val_main_v98_apply, val_main_cst_21_apply,
    show FloatOps.ofBits (F := Ideal) .f32 0x00000000#32 = 0 from Ideal.ofBits_zero_f32, zero_add]
  refine Finset.sum_congr rfl (fun k _ => ?_)
  have e : idx_main_v98 (ix1 b) k = ix2 b k := by funext a; match a with | ⟨0, _⟩ => rfl | ⟨1, _⟩ => rfl
  rw [e]

/-- The row mean. -/
theorem mean_read (b : Fin 128) :
    val_main_v101 (F := Ideal) x0 x1 x2 x3 x4 x5 x6 x7 x8 x9 x10 x11 x12 (ix2 b (0 : Fin 1)) = mean (fun q => val_main_v97 (F := Ideal) x0 x1 x2 x3 x4 x5 x6 x7 x8 x9 x10 x11 x12 (ix2 b q)) := by
  have e : idx_main_v99 (ix2 b (0 : Fin 1)) = ix1 b := by funext a; match a with | ⟨0, _⟩ => rfl
  rw [val_main_v101_apply, val_main_v99_apply, val_main_v100_apply, val_main_cst_22_apply, e, sum_read]
  rfl

/-- The centred pre-activation. -/
theorem centred_read (b : Fin 128) (n : Fin 1024) :
    val_main_v103 (F := Ideal) x0 x1 x2 x3 x4 x5 x6 x7 x8 x9 x10 x11 x12 (ix2 b n) = val_main_v97 (F := Ideal) x0 x1 x2 x3 x4 x5 x6 x7 x8 x9 x10 x11 x12 (ix2 b n) - mean (fun q => val_main_v97 (F := Ideal) x0 x1 x2 x3 x4 x5 x6 x7 x8 x9 x10 x11 x12 (ix2 b q)) := by
  have e : idx_main_v102 (ix2 b n) = ix2 b (0 : Fin 1) := by funext a; match a with | ⟨0, _⟩ => rfl | ⟨1, _⟩ => rfl
  rw [val_main_v103_apply, val_main_v102_apply, e, mean_read]
  rfl

/-- The row variance. -/
theorem var_read (b : Fin 128) :
    val_main_v108 (F := Ideal) x0 x1 x2 x3 x4 x5 x6 x7 x8 x9 x10 x11 x12 (ix2 b (0 : Fin 1)) = mean (fun q => (val_main_v97 (F := Ideal) x0 x1 x2 x3 x4 x5 x6 x7 x8 x9 x10 x11 x12 (ix2 b q) - mean (fun q => val_main_v97 (F := Ideal) x0 x1 x2 x3 x4 x5 x6 x7 x8 x9 x10 x11 x12 (ix2 b q))) * (val_main_v97 (F := Ideal) x0 x1 x2 x3 x4 x5 x6 x7 x8 x9 x10 x11 x12 (ix2 b q) - mean (fun q => val_main_v97 (F := Ideal) x0 x1 x2 x3 x4 x5 x6 x7 x8 x9 x10 x11 x12 (ix2 b q)))) := by
  have e : idx_main_v106 (ix2 b (0 : Fin 1)) = ix1 b := by funext a; match a with | ⟨0, _⟩ => rfl
  rw [val_main_v108_apply, val_main_v106_apply, val_main_v107_apply, val_main_cst_24_apply, e,
    val_main_v105_apply, val_main_cst_23_apply,
    show FloatOps.ofBits (F := Ideal) .f32 0x00000000#32 = 0 from Ideal.ofBits_zero_f32, zero_add]
  refine congrArg (fun s => Ideal.div s (Ideal.ofBits .f32 0x44800000#32)) ?_
  refine Finset.sum_congr rfl (fun k _ => ?_)
  have e2 : idx_main_v105 (ix1 b) k = ix2 b k := by funext a; match a with | ⟨0, _⟩ => rfl | ⟨1, _⟩ => rfl
  rw [e2, val_main_v104_apply, centred_read]
  rfl

/-- The output at (b, n): the normalised row passed through the logistic function. -/
theorem out_read (b : Fin 128) (n : Fin 1024) :
    val_main_v127 (F := Ideal) x0 x1 x2 x3 x4 x5 x6 x7 x8 x9 x10 x11 x12 x13 x14 (ix2 b n) = normed (fun q => val_main_v97 (F := Ideal) x0 x1 x2 x3 x4 x5 x6 x7 x8 x9 x10 x11 x12 (ix2 b q)) x13 x14 n := by
  have e1 : idx_main_v119 (idx_main_v120 (ix2 b n)) = ix1 n := by funext a; match a with | ⟨0, _⟩ => rfl
  have e2 : idx_main_v116 (idx_main_v117 (ix2 b n)) = ix1 n := by funext a; match a with | ⟨0, _⟩ => rfl
  have e3 : idx_main_v114 (ix2 b n) = ix2 b (0 : Fin 1) := by funext a; match a with | ⟨0, _⟩ => rfl | ⟨1, _⟩ => rfl
  have e4 : idx_main_v109 (ix2 b n) = ix2 b (0 : Fin 1) := by funext a; match a with | ⟨0, _⟩ => rfl | ⟨1, _⟩ => rfl
  rw [val_main_v127_apply, val_main_v126_apply, val_main_cst_27_apply, val_main_v125_apply, val_main_v124_apply, val_main_cst_26_apply, val_main_v123_apply, val_main_v122_apply, val_main_v121_apply, val_main_v120_apply, val_main_v119_apply, val_main_v118_apply, val_main_v117_apply, val_main_v116_apply, val_main_v115_apply, val_main_v114_apply, val_main_v113_apply, val_main_v112_apply, val_main_v111_apply, val_main_cst_25_apply, val_main_v110_apply, val_main_v109_apply,
    e1, e2, e3, e4, var_read, mean_read,
    show FloatOps.ofBits (F := Ideal) .f32 0x3F800000#32 = 1 from Ideal.ofBits_one_f32]
  rfl

end Cert.RefValue

end
-- ==== Proof.RefOut.lean ====
/-
  The recurrent cell's reference computes the specification: its last stage, as a function of the fifteen argument
  arrays, is `RnnSpec.out` entry by entry (the pre-activation row of a batch position is `preOf`, and the
  normalisation of that row followed by the logistic function is `normed`); hence every weakly fair execution of
  the reference ends with its result buffer holding `RnnSpec.out` of its arguments, the arguments unchanged.
-/
import proofs.«136845_j56873956934278_1_alg».proof.Proof.RefNorm

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's last stage is the specification, entry by entry. -/
theorem val_eq_out (x0 x1 : T128x1024) (x2 : T1024x128x1024) (x3 : T1024x1024) (x4 : T1024) (x5 : T1024x1024) (x6 : T1024)
    (x7 : T20x1024) (x8 : T20) (x9 : T1024x1024) (x10 : T1024) (x11 : T1024x1024) (x12 x13 x14 : T1024) :
    val_main_v127 (F := Ideal) x0 x1 x2 x3 x4 x5 x6 x7 x8 x9 x10 x11 x12 x13 x14 = fun i => RnnSpec.out x0 x1 x2 x3 x4 x5 x6 x7 x8 x9 x10 x11 x12 x13 x14 (i 0) (i 1) := by
  funext i
  obtain ⟨b, n, rfl⟩ : ∃ (b : Fin 128) (n : Fin 1024), i = ix2 b n := ⟨i 0, i 1, eq_ix2 i⟩
  have e : (fun q => val_main_v97 (F := Ideal) x0 x1 x2 x3 x4 x5 x6 x7 x8 x9 x10 x11 x12 (ix2 b q))
      = RnnSpec.preOf x0 x1 (RnnSpec.picked x1 x7 x8 x2 0 (by norm_num)) (RnnSpec.picked x1 x7 x8 x2 10 (by norm_num))
          x3 x4 x5 x6 x9 x10 x11 x12 b := funext fun q => pre_read x0 x1 x2 x3 x4 x5 x6 x7 x8 x9 x10 x11 x12 b q
  rw [out_read, e]
  rfl

/-- Every weakly fair execution of the reference terminates with its result the specification of its arguments,
    the arguments unchanged. -/
theorem run_spec (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v127)
        = (fun i => RnnSpec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (i 0) (i 1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)) :=
  (θ_run (Cert.ReferenceIdeal.defs (F := Ideal)) _ _).mono
    (fun _ h c => ⟨(h c).1.trans ((val_main_v127_eq (F := Ideal) m' c).trans (val_eq_out _ _ _ _ _ _ _ _ _ _ _ _ _ _ _)), (h c).2⟩)
    (Cert.ReferenceIdeal.Value.run (F := Ideal) m' g')

end Cert.RefValue

end
-- ==== Proof.lean ====
/-
  The recurrent cell with a binary-addressed memory: the kernel program (two kernel regions) against its reference.

  The kernel's first region turns the previous state's twenty index logits into two [1024, 128] selection masks: each
  batch column has a one in the row its ten-bit code word names.  The second region streams the memory tensor once,
  eight rows per grid point, accumulating for each mask the sum over rows of memory row times mask row — which is the
  memory row the code word names, every other term being zero times something, and zero times anything is zero on
  the extended reals — and at the last point computes four affine maps, the normalisation over the trailing axis
  and the logistic function.  The reference reads the same two rows with a gather and computes the same maps.  Both
  are the one function `Cert.RnnSpec.out` of the fifteen argument arrays (Proof/Spec.lean); no finiteness of the
  inputs is needed for that.

  The frames of the two kernel programs are their whole runs (Proof/Kernel/Run.lean, Proof/KernelIdeal/Run.lean: the
  two regions as segments, the second carrying its two sums in scratch buffers between grid points); the reference's
  frame is its run with the result dropped.  The ideal pass rewrote nothing, so the preservation claim is trivial.
-/
import proofs.«136845_j56873956934278_1_alg».proof.Defs
import proofs.«136845_j56873956934278_1_alg».proof.Proof.Gen.Kernel
import proofs.«136845_j56873956934278_1_alg».proof.Proof.Gen.KernelIdeal
import proofs.«136845_j56873956934278_1_alg».proof.Proof.Gen.ReferenceIdeal
import proofs.«136845_j56873956934278_1_alg».proof.Proof.Gen.Pre_finite_inputs
import proofs.«136845_j56873956934278_1_alg».proof.Proof.Kernel.Run
import proofs.«136845_j56873956934278_1_alg».proof.Proof.KernelIdeal.Result
import proofs.«136845_j56873956934278_1_alg».proof.Proof.RefOut
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel :=
  fun m ρ _ => Cert.Kernel.Hand.frame (F := Bits) m ρ

/-- So does the idealized kernel. -/
theorem frame_ki : Cert.frame_KernelIdeal :=
  fun m ρ _ => Cert.KernelIdeal.Hand.frame (F := Ideal) m ρ

/-- The reference's frame is its run with the result dropped. -/
theorem frame_ri : Cert.frame_ReferenceIdeal :=
  fun m ρ _ => (θ_run Cert.ReferenceIdeal.defs _ _).mono (fun _ h c => (h c).2) (Cert.RefValue.run_spec m ρ)

/-- Both idealized programs end with the result array at the specification of their arguments, and the arguments agree. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun r h c => ⟨(h c).1.trans ?_, (h c).2⟩) (Cert.RefValue.run_spec m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
